-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S5000x383 : Shape := ⟨2, ![5000, 383]⟩
abbrev S20000x4395 : Shape := ⟨2, ![20000, 4395]⟩
abbrev S2000x5000 : Shape := ⟨2, ![2000, 5000]⟩
abbrev S20000x5000 : Shape := ⟨2, ![20000, 5000]⟩
abbrev S383x128 : Shape := ⟨2, ![383, 128]⟩
abbrev S128 : Shape := ⟨1, ![128]⟩
abbrev S4395x128 : Shape := ⟨2, ![4395, 128]⟩
abbrev S2000x128 : Shape := ⟨2, ![2000, 128]⟩
abbrev S5000x128 : Shape := ⟨2, ![5000, 128]⟩
abbrev S128x64 : Shape := ⟨2, ![128, 64]⟩
abbrev S64 : Shape := ⟨1, ![64]⟩
abbrev S64x64 : Shape := ⟨2, ![64, 64]⟩
abbrev S400000 : Shape := ⟨1, ![400000]⟩
abbrev S_ : Shape := ⟨0, ![]⟩

class Facts : Prop where
  bcast_S_S5000x383 : S_.BroadcastsInDim S5000x383 (![] : Fin 0 → Fin S5000x383.rank)
  reducesTo_S5000x383_S_d0_1 : S5000x383.ReducesTo [0, 1] S_
  h_S_ : 0 < S_.numel
  bcast_S_S20000x4395 : S_.BroadcastsInDim S20000x4395 (![] : Fin 0 → Fin S20000x4395.rank)
  reducesTo_S20000x4395_S_d0_1 : S20000x4395.ReducesTo [0, 1] S_
  bcast_S_S2000x5000 : S_.BroadcastsInDim S2000x5000 (![] : Fin 0 → Fin S2000x5000.rank)
  reducesTo_S2000x5000_S_d0_1 : S2000x5000.ReducesTo [0, 1] S_
  bcast_S_S20000x5000 : S_.BroadcastsInDim S20000x5000 (![] : Fin 0 → Fin S20000x5000.rank)
  reducesTo_S20000x5000_S_d0_1 : S20000x5000.ReducesTo [0, 1] S_
  bcast_S_S383x128 : S_.BroadcastsInDim S383x128 (![] : Fin 0 → Fin S383x128.rank)
  reducesTo_S383x128_S_d0_1 : S383x128.ReducesTo [0, 1] S_
  bcast_S_S128 : S_.BroadcastsInDim S128 (![] : Fin 0 → Fin S128.rank)
  reducesTo_S128_S_d0 : S128.ReducesTo [0] S_
  bcast_S_S4395x128 : S_.BroadcastsInDim S4395x128 (![] : Fin 0 → Fin S4395x128.rank)
  reducesTo_S4395x128_S_d0_1 : S4395x128.ReducesTo [0, 1] S_
  bcast_S_S2000x128 : S_.BroadcastsInDim S2000x128 (![] : Fin 0 → Fin S2000x128.rank)
  reducesTo_S2000x128_S_d0_1 : S2000x128.ReducesTo [0, 1] S_
  bcast_S_S5000x128 : S_.BroadcastsInDim S5000x128 (![] : Fin 0 → Fin S5000x128.rank)
  reducesTo_S5000x128_S_d0_1 : S5000x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part4 {F : FTy → Type} [FloatOps F] (main_arg14 : FVec F S64x64 .f32) (main_arg15 : FVec F S64 .f32) (main_v63 : IVec S_ 1) (main_v67 : IVec S_ 1) : IVec S_ 1 :=
  let main_v68 : IVec S_ 1 := andi main_v63 main_v67
  let main_v69 : FVec F S64x64 .f32 := Host.absf main_arg14
  let main_cst_26 : FVec F S_ .f32 := constant S_ .f32 0x7F800000#32
  let main_v70 : FVec F S64x64 .f32 := broadcastInDim S64x64 ![] bcast_S_S64x64 main_cst_26
  let main_v71 : IVec S64x64 1 := cmpf .olt main_v69 main_v70
  let main_c_27 : IVec S_ 1 := constantI S_ 1 1#1
  let main_v72 : IVec S_ 1 := (fun x v => Host.reduce IntOp.andi x v reducesTo_S64x64_S_d0_1 h_S_) main_v71 main_c_27
  let main_v73 : IVec S_ 1 := andi main_v68 main_v72
  let main_v74 : FVec F S64 .f32 := Host.absf main_arg15
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  main_v78

def fn_part3 {F : FTy → Type} [FloatOps F] (main_arg11 : FVec F S128x64 .f32) (main_arg12 : FVec F S64 .f32) (main_arg13 : FVec F S64x64 .f32) (main_arg14 : FVec F S64x64 .f32) (main_arg15 : FVec F S64 .f32) (main_v48 : IVec S_ 1) (main_v49 : FVec F S128x64 .f32) (main_v50 : FVec F S128x64 .f32) : IVec S_ 1 :=
  let main_v51 : IVec S128x64 1 := cmpf .olt main_v49 main_v50
  let main_c_19 : IVec S_ 1 := constantI S_ 1 1#1
  let main_v52 : IVec S_ 1 := (fun x v => Host.reduce IntOp.andi x v reducesTo_S128x64_S_d0_1 h_S_) main_v51 main_c_19
  let main_v53 : IVec S_ 1 := andi main_v48 main_v52
  let main_v54 : FVec F S128x64 .f32 := Host.absf main_arg11
  let main_cst_20 : FVec F S_ .f32 := constant S_ .f32 0x7F800000#32
  let main_v55 : FVec F S128x64 .f32 := broadcastInDim S128x64 ![] bcast_S_S128x64 main_cst_20
  let main_v56 : IVec S128x64 1 := cmpf .olt main_v54 main_v55
  let main_c_21 : IVec S_ 1 := constantI S_ 1 1#1
  let main_v57 : IVec S_ 1 := (fun x v => Host.reduce IntOp.andi x v reducesTo_S128x64_S_d0_1 h_S_) main_v56 main_c_21
  let main_v58 : IVec S_ 1 := andi main_v53 main_v57
  let main_v59 : FVec F S64 .f32 := Host.absf main_arg12
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x64 .f32 := Host.absf main_arg13
  let main_cst_24 : FVec F S_ .f32 := constant S_ .f32 0x7F800000#32
  let main_v65 : FVec F S64x64 .f32 := broadcastInDim S64x64 ![] bcast_S_S64x64 main_cst_24
  let main_v66 : IVec S64x64 1 := cmpf .olt main_v64 main_v65
  let main_c_25 : IVec S_ 1 := constantI S_ 1 1#1
  let main_v67 : IVec S_ 1 := (fun x v => Host.reduce IntOp.andi x v reducesTo_S64x64_S_d0_1 h_S_) main_v66 main_c_25
  fn_part4 (F := F) main_arg14 main_arg15 main_v63 main_v67

def fn_part2 {F : FTy → Type} [FloatOps F] (main_arg7 : FVec F S128 .f32) (main_arg8 : FVec F S2000x128 .f32) (main_arg9 : FVec F S5000x128 .f32) (main_arg10 : FVec F S128x64 .f32) (main_arg11 : FVec F S128x64 .f32) (main_arg12 : FVec F S64 .f32) (main_arg13 : FVec F S64x64 .f32) (main_arg14 : FVec F S64x64 .f32) (main_arg15 : FVec F S64 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S2000x128 .f32 := Host.absf main_arg8
  let main_cst_14 : FVec F S_ .f32 := constant S_ .f32 0x7F800000#32
  let main_v40 : FVec F S2000x128 .f32 := broadcastInDim S2000x128 ![] bcast_S_S2000x128 main_cst_14
  let main_v41 : IVec S2000x128 1 := cmpf .olt main_v39 main_v40
  let main_c_15 : IVec S_ 1 := constantI S_ 1 1#1
  let main_v42 : IVec S_ 1 := (fun x v => Host.reduce IntOp.andi x v reducesTo_S2000x128_S_d0_1 h_S_) main_v41 main_c_15
  let main_v43 : IVec S_ 1 := andi main_v38 main_v42
  let main_v44 : FVec F S5000x128 .f32 := Host.absf main_arg9
  let main_cst_16 : FVec F S_ .f32 := constant S_ .f32 0x7F800000#32
  let main_v45 : FVec F S5000x128 .f32 := broadcastInDim S5000x128 ![] bcast_S_S5000x128 main_cst_16
  let main_v46 : IVec S5000x128 1 := cmpf .olt main_v44 main_v45
  let main_c_17 : IVec S_ 1 := constantI S_ 1 1#1
  let main_v47 : IVec S_ 1 := (fun x v => Host.reduce IntOp.andi x v reducesTo_S5000x128_S_d0_1 h_S_) main_v46 main_c_17
  let main_v48 : IVec S_ 1 := andi main_v43 main_v47
  let main_v49 : FVec F S128x64 .f32 := Host.absf main_arg10
  let main_cst_18 : FVec F S_ .f32 := constant S_ .f32 0x7F800000#32
  let main_v50 : FVec F S128x64 .f32 := broadcastInDim S128x64 ![] bcast_S_S128x64 main_cst_18
  fn_part3 (F := F) main_arg11 main_arg12 main_arg13 main_arg14 main_arg15 main_v48 main_v49 main_v50

def fn_part1 {F : FTy → Type} [FloatOps F] (main_arg4 : FVec F S383x128 .f32) (main_arg5 : FVec F S128 .f32) (main_arg6 : FVec F S4395x128 .f32) (main_arg7 : FVec F S128 .f32) (main_arg8 : FVec F S2000x128 .f32) (main_arg9 : FVec F S5000x128 .f32) (main_arg10 : FVec F S128x64 .f32) (main_arg11 : FVec F S128x64 .f32) (main_arg12 : FVec F S64 .f32) (main_arg13 : FVec F S64x64 .f32) (main_arg14 : FVec F S64x64 .f32) (main_arg15 : FVec F S64 .f32) (main_v13 : IVec S_ 1) (main_v16 : IVec S20000x5000 1) : IVec S_ 1 :=
  let main_c_5 : IVec S_ 1 := constantI S_ 1 1#1
  let main_v17 : IVec S_ 1 := (fun x v => Host.reduce IntOp.andi x v reducesTo_S20000x5000_S_d0_1 h_S_) main_v16 main_c_5
  let main_v18 : IVec S_ 1 := andi main_v13 main_v17
  let main_v19 : FVec F S383x128 .f32 := Host.absf main_arg4
  let main_cst_6 : FVec F S_ .f32 := constant S_ .f32 0x7F800000#32
  let main_v20 : FVec F S383x128 .f32 := broadcastInDim S383x128 ![] bcast_S_S383x128 main_cst_6
  let main_v21 : IVec S383x128 1 := cmpf .olt main_v19 main_v20
  let main_c_7 : IVec S_ 1 := constantI S_ 1 1#1
  let main_v22 : IVec S_ 1 := (fun x v => Host.reduce IntOp.andi x v reducesTo_S383x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S4395x128 .f32 := Host.absf main_arg6
  let main_cst_10 : FVec F S_ .f32 := constant S_ .f32 0x7F800000#32
  let main_v30 : FVec F S4395x128 .f32 := broadcastInDim S4395x128 ![] bcast_S_S4395x128 main_cst_10
  let main_v31 : IVec S4395x128 1 := cmpf .olt main_v29 main_v30
  let main_c_11 : IVec S_ 1 := constantI S_ 1 1#1
  let main_v32 : IVec S_ 1 := (fun x v => Host.reduce IntOp.andi x v reducesTo_S4395x128_S_d0_1 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S5000x383 .f32) (main_arg1 : FVec F S20000x4395 .f32) (main_arg2 : FVec F S2000x5000 .f32) (main_arg3 : FVec F S20000x5000 .f32) (main_arg4 : FVec F S383x128 .f32) (main_arg5 : FVec F S128 .f32) (main_arg6 : FVec F S4395x128 .f32) (main_arg7 : FVec F S128 .f32) (main_arg8 : FVec F S2000x128 .f32) (main_arg9 : FVec F S5000x128 .f32) (main_arg10 : FVec F S128x64 .f32) (main_arg11 : FVec F S128x64 .f32) (main_arg12 : FVec F S64 .f32) (main_arg13 : FVec F S64x64 .f32) (main_arg14 : FVec F S64x64 .f32) (main_arg15 : FVec F S64 .f32) (main_arg16 : IVec S400000 32) (main_arg17 : IVec S400000 32) : IVec S_ 1 :=
  let main_v0 : FVec F S5000x383 .f32 := Host.absf main_arg0
  let main_cst : FVec F S_ .f32 := constant S_ .f32 0x7F800000#32
  let main_v1 : FVec F S5000x383 .f32 := broadcastInDim S5000x383 ![] bcast_S_S5000x383 main_cst
  let main_v2 : IVec S5000x383 1 := cmpf .olt main_v0 main_v1
  let main_c : IVec S_ 1 := constantI S_ 1 1#1
  let main_v3 : IVec S_ 1 := (fun x v => Host.reduce IntOp.andi x v reducesTo_S5000x383_S_d0_1 h_S_) main_v2 main_c
  let main_v4 : FVec F S20000x4395 .f32 := Host.absf main_arg1
  let main_cst_0 : FVec F S_ .f32 := constant S_ .f32 0x7F800000#32
  let main_v5 : FVec F S20000x4395 .f32 := broadcastInDim S20000x4395 ![] bcast_S_S20000x4395 main_cst_0
  let main_v6 : IVec S20000x4395 1 := cmpf .olt main_v4 main_v5
  let main_c_1 : IVec S_ 1 := constantI S_ 1 1#1
  let main_v7 : IVec S_ 1 := (fun x v => Host.reduce IntOp.andi x v reducesTo_S20000x4395_S_d0_1 h_S_) main_v6 main_c_1
  let main_v8 : IVec S_ 1 := andi main_v3 main_v7
  let main_v9 : FVec F S2000x5000 .f32 := Host.absf main_arg2
  let main_cst_2 : FVec F S_ .f32 := constant S_ .f32 0x7F800000#32
  let main_v10 : FVec F S2000x5000 .f32 := broadcastInDim S2000x5000 ![] bcast_S_S2000x5000 main_cst_2
  let main_v11 : IVec S2000x5000 1 := cmpf .olt main_v9 main_v10
  let main_c_3 : IVec S_ 1 := constantI S_ 1 1#1
  let main_v12 : IVec S_ 1 := (fun x v => Host.reduce IntOp.andi x v reducesTo_S2000x5000_S_d0_1 h_S_) main_v11 main_c_3
  let main_v13 : IVec S_ 1 := andi main_v8 main_v12
  let main_v14 : FVec F S20000x5000 .f32 := Host.absf main_arg3
  let main_cst_4 : FVec F S_ .f32 := constant S_ .f32 0x7F800000#32
  let main_v15 : FVec F S20000x5000 .f32 := broadcastInDim S20000x5000 ![] bcast_S_S20000x5000 main_cst_4
  let main_v16 : IVec S20000x5000 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S5000x383 : Shape := ⟨2, ![5000, 383]⟩
abbrev S20000x4395 : Shape := ⟨2, ![20000, 4395]⟩
abbrev S2000x5000 : Shape := ⟨2, ![2000, 5000]⟩
abbrev S20000x5000 : Shape := ⟨2, ![20000, 5000]⟩
abbrev S383x128 : Shape := ⟨2, ![383, 128]⟩
abbrev S128 : Shape := ⟨1, ![128]⟩
abbrev S4395x128 : Shape := ⟨2, ![4395, 128]⟩
abbrev S2000x128 : Shape := ⟨2, ![2000, 128]⟩
abbrev S5000x128 : Shape := ⟨2, ![5000, 128]⟩
abbrev S128x64 : Shape := ⟨2, ![128, 64]⟩
abbrev S64 : Shape := ⟨1, ![64]⟩
abbrev S64x64 : Shape := ⟨2, ![64, 64]⟩
abbrev S400000 : Shape := ⟨1, ![400000]⟩
abbrev S200x5000 : Shape := ⟨2, ![200, 5000]⟩
abbrev S200x128 : Shape := ⟨2, ![200, 128]⟩
abbrev S20000x128 : Shape := ⟨2, ![20000, 128]⟩
abbrev S400x5000 : Shape := ⟨2, ![400, 5000]⟩
abbrev S400x128 : Shape := ⟨2, ![400, 128]⟩
abbrev S1000x383 : Shape := ⟨2, ![1000, 383]⟩
abbrev S1000x128 : Shape := ⟨2, ![1000, 128]⟩
abbrev S400x4395 : Shape := ⟨2, ![400, 4395]⟩
abbrev S1x128 : Shape := ⟨2, ![1, 128]⟩
abbrev S_ : Shape := ⟨0, ![]⟩
abbrev S25000x128 : Shape := ⟨2, ![25000, 128]⟩
abbrev S400000x1 : Shape := ⟨2, ![400000, 1]⟩
abbrev S400000x128 : Shape := ⟨2, ![400000, 128]⟩
abbrev S25000 : Shape := ⟨1, ![25000]⟩
abbrev S25000x1 : Shape := ⟨2, ![25000, 1]⟩
abbrev S1x64 : Shape := ⟨2, ![1, 64]⟩
abbrev S25000x64 : Shape := ⟨2, ![25000, 64]⟩
abbrev S1000x64 : Shape := ⟨2, ![1000, 64]⟩
abbrev S400000x64 : Shape := ⟨2, ![400000, 64]⟩

abbrev nBuf : Space → Nat
  | .hbm => 97
  | .vmem => 39
  | .smem => 0
  | _ => 0

abbrev bufTy : (tb : Table) → Fin (tcTables nBuf tb) → BufTy
  | .hbm, ⟨0, _⟩ => ⟨S5000x383, .f32⟩
  | .hbm, ⟨1, _⟩ => ⟨S20000x4395, .f32⟩
  | .hbm, ⟨2, _⟩ => ⟨S2000x5000, .f32⟩
  | .hbm, ⟨3, _⟩ => ⟨S20000x5000, .f32⟩
  | .hbm, ⟨4, _⟩ => ⟨S383x128, .f32⟩
  | .hbm, ⟨5, _⟩ => ⟨S128, .f32⟩
  | .hbm, ⟨6, _⟩ => ⟨S4395x128, .f32⟩
  | .hbm, ⟨7, _⟩ => ⟨S128, .f32⟩
  | .hbm, ⟨8, _⟩ => ⟨S2000x128, .f32⟩
  | .hbm, ⟨9, _⟩ => ⟨S5000x128, .f32⟩
  | .hbm, ⟨10, _⟩ => ⟨S128x64, .f32⟩
  | .hbm, ⟨11, _⟩ => ⟨S128x64, .f32⟩
  | .hbm, ⟨12, _⟩ => ⟨S64, .f32⟩
  | .hbm, ⟨13, _⟩ => ⟨S64x64, .f32⟩
  | .hbm, ⟨14, _⟩ => ⟨S64x64, .f32⟩
  | .hbm, ⟨15, _⟩ => ⟨S64, .f32⟩
  | .hbm, ⟨16, _⟩ => ⟨S400000, .i32⟩
  | .hbm, ⟨17, _⟩ => ⟨S400000, .i32⟩
  | .hbm, ⟨18, _⟩ => ⟨S5000x128, .f32⟩
  | .hbm, ⟨19, _⟩ => ⟨S20000x128, .f32⟩
  | .hbm, ⟨20, _⟩ => ⟨S5000x128, .f32⟩
  | .hbm, ⟨21, _⟩ => ⟨S20000x128, .f32⟩
  | .hbm, ⟨22, _⟩ => ⟨S1x128, .f32⟩
  | .hbm, ⟨23, _⟩ => ⟨S5000x128, .f32⟩
  | .hbm, ⟨24, _⟩ => ⟨S5000x128, .f32⟩
  | .hbm, ⟨25, _⟩ => ⟨S_, .f32⟩
  | .hbm, ⟨26, _⟩ => ⟨S5000x128, .f32⟩
  | .hbm, ⟨27, _⟩ => ⟨S5000x128, .f32⟩
  | .hbm, ⟨28, _⟩ => ⟨S_, .f32⟩
  | .hbm, ⟨29, _⟩ => ⟨S5000x128, .f32⟩
  | .hbm, ⟨30, _⟩ => ⟨S5000x128, .f32⟩
  | .hbm, ⟨31, _⟩ => ⟨S5000x128, .f32⟩
  | .hbm, ⟨32, _⟩ => ⟨S1x128, .f32⟩
  | .hbm, ⟨33, _⟩ => ⟨S20000x128, .f32⟩
  | .hbm, ⟨34, _⟩ => ⟨S20000x128, .f32⟩
  | .hbm, ⟨35, _⟩ => ⟨S_, .f32⟩
  | .hbm, ⟨36, _⟩ => ⟨S20000x128, .f32⟩
  | .hbm, ⟨37, _⟩ => ⟨S20000x128, .f32⟩
  | .hbm, ⟨38, _⟩ => ⟨S_, .f32⟩
  | .hbm, ⟨39, _⟩ => ⟨S20000x128, .f32⟩
  | .hbm, ⟨40, _⟩ => ⟨S20000x128, .f32⟩
  | .hbm, ⟨41, _⟩ => ⟨S20000x128, .f32⟩
  | .hbm, ⟨42, _⟩ => ⟨S25000x128, .f32⟩
  | .hbm, ⟨43, _⟩ => ⟨S_, .i32⟩
  | .hbm, ⟨44, _⟩ => ⟨S400000, .i32⟩
  | .hbm, ⟨45, _⟩ => ⟨S400000, .i1⟩
  | .hbm, ⟨46, _⟩ => ⟨S_, .i32⟩
  | .hbm, ⟨47, _⟩ => ⟨S400000, .i32⟩
  | .hbm, ⟨48, _⟩ => ⟨S400000, .i32⟩
  | .hbm, ⟨49, _⟩ => ⟨S400000, .i32⟩
  | .hbm, ⟨50, _⟩ => ⟨S400000x1, .i32⟩
  | .hbm, ⟨51, _⟩ => ⟨S400000x128, .f32⟩
  | .hbm, ⟨52, _⟩ => ⟨S_, .f32⟩
  | .hbm, ⟨53, _⟩ => ⟨S25000x128, .f32⟩
  | .hbm, ⟨54, _⟩ => ⟨S400000x1, .i32⟩
  | .hbm, ⟨55, _⟩ => ⟨S25000x128, .f32⟩
  | .hbm, ⟨56, _⟩ => ⟨S_, .f32⟩
  | .hbm, ⟨57, _⟩ => ⟨S400000, .f32⟩
  | .hbm, ⟨58, _⟩ => ⟨S_, .f32⟩
  | .hbm, ⟨59, _⟩ => ⟨S25000, .f32⟩
  | .hbm, ⟨60, _⟩ => ⟨S400000x1, .i32⟩
  | .hbm, ⟨61, _⟩ => ⟨S25000, .f32⟩
  | .hbm, ⟨62, _⟩ => ⟨S_, .f32⟩
  | .hbm, ⟨63, _⟩ => ⟨S25000, .f32⟩
  | .hbm, ⟨64, _⟩ => ⟨S25000, .f32⟩
  | .hbm, ⟨65, _⟩ => ⟨S25000x1, .f32⟩
  | .hbm, ⟨66, _⟩ => ⟨S25000x128, .f32⟩
  | .hbm, ⟨67, _⟩ => ⟨S25000x128, .f32⟩
  | .hbm, ⟨68, _⟩ => ⟨S1x64, .f32⟩
  | .hbm, ⟨69, _⟩ => ⟨S25000x64, .f32⟩
  | .hbm, ⟨70, _⟩ => ⟨S_, .i32⟩
  | .hbm, ⟨71, _⟩ => ⟨S400000, .i32⟩
  | .hbm, ⟨72, _⟩ => ⟨S400000, .i1⟩
  | .hbm, ⟨73, _⟩ => ⟨S_, .i32⟩
  | .hbm, ⟨74, _⟩ => ⟨S400000, .i32⟩
  | .hbm, ⟨75, _⟩ => ⟨S400000, .i32⟩
  | .hbm, ⟨76, _⟩ => ⟨S400000, .i32⟩
  | .hbm, ⟨77, _⟩ => ⟨S400000x1, .i32⟩
  | .hbm, ⟨78, _⟩ => ⟨S400000x64, .f32⟩
  | .hbm, ⟨79, _⟩ => ⟨S_, .f32⟩
  | .hbm, ⟨80, _⟩ => ⟨S25000x64, .f32⟩
  | .hbm, ⟨81, _⟩ => ⟨S400000x1, .i32⟩
  | .hbm, ⟨82, _⟩ => ⟨S25000x64, .f32⟩
  | .hbm, ⟨83, _⟩ => ⟨S_, .f32⟩
  | .hbm, ⟨84, _⟩ => ⟨S400000, .f32⟩
  | .hbm, ⟨85, _⟩ => ⟨S_, .f32⟩
  | .hbm, ⟨86, _⟩ => ⟨S25000, .f32⟩
  | .hbm, ⟨87, _⟩ => ⟨S400000x1, .i32⟩
  | .hbm, ⟨88, _⟩ => ⟨S25000, .f32⟩
  | .hbm, ⟨89, _⟩ => ⟨S_, .f32⟩
  | .hbm, ⟨90, _⟩ => ⟨S25000, .f32⟩
  | .hbm, ⟨91, _⟩ => ⟨S25000, .f32⟩
  | .hbm, ⟨92, _⟩ => ⟨S25000x1, .f32⟩
  | .hbm, ⟨93, _⟩ => ⟨S25000x64, .f32⟩
  | .hbm, ⟨94, _⟩ => ⟨S25000x64, .f32⟩
  | .hbm, ⟨95, _⟩ => ⟨S1x64, .f32⟩
  | .hbm, ⟨96, _⟩ => ⟨S25000x64, .f32⟩
  | .local _ .vmem, ⟨0, _⟩ => ⟨S200x5000, .f32⟩
  | .local _ .vmem, ⟨1, _⟩ => ⟨S200x5000, .f32⟩
  | .local _ .vmem, ⟨2, _⟩ => ⟨S200x128, .f32⟩
  | .local _ .vmem, ⟨3, _⟩ => ⟨S200x128, .f32⟩
  | .local _ .vmem, ⟨4, _⟩ => ⟨S5000x128, .f32⟩
  | .local _ .vmem, ⟨5, _⟩ => ⟨S5000x128, .f32⟩
  | .local _ .vmem, ⟨6, _⟩ => ⟨S400x5000, .f32⟩
  | .local _ .vmem, ⟨7, _⟩ => ⟨S400x5000, .f32⟩
  | .local _ .vmem, ⟨8, _⟩ => ⟨S5000x128, .f32⟩
  | .local _ .vmem, ⟨9, _⟩ => ⟨S400x128, .f32⟩
  | .local _ .vmem, ⟨10, _⟩ => ⟨S400x128, .f32⟩
  | .local _ .vmem, ⟨11, _⟩ => ⟨S1000x383, .f32⟩
  | .local _ .vmem, ⟨12, _⟩ => ⟨S1000x383, .f32⟩
  | .local _ .vmem, ⟨13, _⟩ => ⟨S383x128, .f32⟩
  | .local _ .vmem, ⟨14, _⟩ => ⟨S1000x128, .f32⟩
  | .local _ .vmem, ⟨15, _⟩ => ⟨S1000x128, .f32⟩
  | .local _ .vmem, ⟨16, _⟩ => ⟨S400x4395, .f32⟩
  | .local _ .vmem, ⟨17, _⟩ => ⟨S400x4395, .f32⟩
  | .local _ .vmem, ⟨18, _⟩ => ⟨S4395x128, .f32⟩
  | .local _ .vmem, ⟨19, _⟩ => ⟨S400x128, .f32⟩
  | .local _ .vmem, ⟨20, _⟩ => ⟨S400x128, .f32⟩
  | .local _ .vmem, ⟨21, _⟩ => ⟨S1000x128, .f32⟩
  | .local _ .vmem, ⟨22, _⟩ => ⟨S1000x128, .f32⟩
  | .local _ .vmem, ⟨23, _⟩ => ⟨S1000x128, .f32⟩
  | .local _ .vmem, ⟨24, _⟩ => ⟨S1000x128, .f32⟩
  | .local _ .vmem, ⟨25, _⟩ => ⟨S128x64, .f32⟩
  | .local _ .vmem, ⟨26, _⟩ => ⟨S128x64, .f32⟩
  | .local _ .vmem, ⟨27, _⟩ => ⟨S1x64, .f32⟩
  | .local _ .vmem, ⟨28, _⟩ => ⟨S1000x64, .f32⟩
  | .local _ .vmem, ⟨29, _⟩ => ⟨S1000x64, .f32⟩
  | .local _ .vmem, ⟨30, _⟩ => ⟨S1000x64, .f32⟩
  | .local _ .vmem, ⟨31, _⟩ => ⟨S1000x64, .f32⟩
  | .local _ .vmem, ⟨32, _⟩ => ⟨S1000x64, .f32⟩
  | .local _ .vmem, ⟨33, _⟩ => ⟨S1000x64, .f32⟩
  | .local _ .vmem, ⟨34, _⟩ => ⟨S64x64, .f32⟩
  | .local _ .vmem, ⟨35, _⟩ => ⟨S64x64, .f32⟩
  | .local _ .vmem, ⟨36, _⟩ => ⟨S1x64, .f32⟩
  | .local _ .vmem, ⟨37, _⟩ => ⟨S1000x64, .f32⟩
  | .local _ .vmem, ⟨38, _⟩ => ⟨S1000x64, .f32⟩
  | _, _ => ⟨S5000x383, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_v8 : Ref sig .tc := ⟨.hbm, 27, rfl⟩
abbrev main_cst_0 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst_1 : Ref sig .tc := ⟨.hbm, 35, rfl⟩
abbrev main_v15 : Ref sig .tc := ⟨.hbm, 36, rfl⟩
abbrev main_v16 : Ref sig .tc := ⟨.hbm, 37, rfl⟩
abbrev main_cst_2 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_c : Ref sig .tc := ⟨.hbm, 43, rfl⟩
abbrev main_v21 : Ref sig .tc := ⟨.hbm, 44, rfl⟩
abbrev main_v22 : Ref sig .tc := ⟨.hbm, 45, rfl⟩
abbrev main_c_3 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_4 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst_5 : Ref sig .tc := ⟨.hbm, 56, rfl⟩
abbrev main_v31 : Ref sig .tc := ⟨.hbm, 57, rfl⟩
abbrev main_cst_6 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_7 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_c_8 : Ref sig .tc := ⟨.hbm, 70, rfl⟩
abbrev main_v42 : Ref sig .tc := ⟨.hbm, 71, rfl⟩
abbrev main_v43 : Ref sig .tc := ⟨.hbm, 72, rfl⟩
abbrev main_c_9 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_cst_10 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_cst_11 : Ref sig .tc := ⟨.hbm, 83, rfl⟩
abbrev main_v52 : Ref sig .tc := ⟨.hbm, 84, rfl⟩
abbrev main_cst_12 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_13 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg1_1 : Ref sig .tc := ⟨.vmem, 24, rfl⟩
abbrev cc4_stg2_0 : Ref sig .tc := ⟨.vmem, 25, rfl⟩
abbrev cc4_stg3_0 : Ref sig .tc := ⟨.vmem, 26, rfl⟩
abbrev cc4_stg4_0 : Ref sig .tc := ⟨.vmem, 27, rfl⟩
abbrev cc4_stg5_0 : Ref sig .tc := ⟨.vmem, 28, rfl⟩
abbrev cc4_stg5_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg1_1 : Ref sig .tc := ⟨.vmem, 33, rfl⟩
abbrev cc5_stg2_0 : Ref sig .tc := ⟨.vmem, 34, rfl⟩
abbrev cc5_stg3_0 : Ref sig .tc := ⟨.vmem, 35, rfl⟩
abbrev cc5_stg4_0 : Ref sig .tc := ⟨.vmem, 36, rfl⟩
abbrev cc5_stg5_0 : Ref sig .tc := ⟨.vmem, 37, rfl⟩
abbrev cc5_stg5_1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem1_1 : DmaSem sig := 23
abbrev cc4_sem2_0 : DmaSem sig := 24
abbrev cc4_sem3_0 : DmaSem sig := 25
abbrev cc4_sem4_0 : DmaSem sig := 26
abbrev cc4_sem5_0 : DmaSem sig := 27
abbrev cc4_sem5_1 : DmaSem sig := 28
abbrev cc5_sem0_0 : DmaSem sig := 29
abbrev cc5_sem0_1 : DmaSem sig := 30
abbrev cc5_sem1_0 : DmaSem sig := 31
abbrev cc5_sem1_1 : DmaSem sig := 32
abbrev cc5_sem2_0 : DmaSem sig := 33
abbrev cc5_sem3_0 : DmaSem sig := 34
abbrev cc5_sem4_0 : DmaSem sig := 35
abbrev cc5_sem5_0 : DmaSem sig := 36
abbrev cc5_sem5_1 : DmaSem sig := 37

abbrev nD : Nat := 1
abbrev τ : Topo := Topo.v7x

variable {F : FTy → Type} [FloatOps F]

abbrev grid0 : Pipeline.Grid := ⟨1, ![10], ![false]⟩

def k0_cond2 (i : grid0.Coords) : BitVec 1 :=
  let arg0 : BitVec 32 := BitVec.ofNat 32 (i 0).val
  let c9_i32 : BitVec 32 := 9#32
  let v13 : BitVec 1 := Scalar.cmpi .eq arg0 c9_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S200x5000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S200x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S5000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x5000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S5000x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S400x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x383 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S383x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S400x4395 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S4395x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S400x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S1000x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S1000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S64x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S64x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S1000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S200x5000_S200x5000_0_0 : ∀ a, (![0, 0] : Fin 2 → Nat) a + S200x5000.size a ≤ S200x5000.size a
  h_S200x5000 : 0 < S200x5000.numel
  bitsLt_bf16_f32 : FTy.bits .bf16 < FTy.bits .f32
  inb_S200x128_S200x128_0_0 : ∀ a, (![0, 0] : Fin 2 → Nat) a + S200x128.size a ≤ S200x128.size a
  h_S200x128 : 0 < S200x128.numel
  inb_S400x5000_S400x5000_0_0 : ∀ a, (![0, 0] : Fin 2 → Nat) a + S400x5000.size a ≤ S400x5000.size a
  h_S400x5000 : 0 < S400x5000.numel
  inb_S400x128_S400x128_0_0 : ∀ a, (![0, 0] : Fin 2 → Nat) a + S400x128.size a ≤ S400x128.size a
  h_S400x128 : 0 < S400x128.numel
  inb_S1000x383_S1000x383_0_0 : ∀ a, (![0, 0] : Fin 2 → Nat) a + S1000x383.size a ≤ S1000x383.size a
  h_S1000x383 : 0 < S1000x383.numel
  inb_S383x128_S383x128_0_0 : ∀ a, (![0, 0] : Fin 2 → Nat) a + S383x128.size a ≤ S383x128.size a
  h_S383x128 : 0 < S383x128.numel
  inb_S1000x128_S1000x128_0_0 : ∀ a, (![0, 0] : Fin 2 → Nat) a + S1000x128.size a ≤ S1000x128.size a
  h_S1000x128 : 0 < S1000x128.numel
  inb_S400x4395_S400x4395_0_0 : ∀ a, (![0, 0] : Fin 2 → Nat) a + S400x4395.size a ≤ S400x4395.size a
  h_S400x4395 : 0 < S400x4395.numel
  inb_S4395x128_S4395x128_0_0 : ∀ a, (![0, 0] : Fin 2 → Nat) a + S4395x128.size a ≤ S4395x128.size a
  h_S4395x128 : 0 < S4395x128.numel
  bcast_S128_S1x128_1 : S128.BroadcastsInDim S1x128 (![1] : Fin 1 → Fin S1x128.rank)
  bcast_S1x128_S5000x128_0_1 : S1x128.BroadcastsInDim S5000x128 (![0, 1] : Fin 2 → Fin S5000x128.rank)
  bcast_S_S5000x128 : S_.BroadcastsInDim S5000x128 (![] : Fin 0 → Fin S5000x128.rank)
  bcast_S1x128_S20000x128_0_1 : S1x128.BroadcastsInDim S20000x128 (![0, 1] : Fin 2 → Fin S20000x128.rank)
  bcast_S_S20000x128 : S_.BroadcastsInDim S20000x128 (![] : Fin 0 → Fin S20000x128.rank)
  concatenates_S5000x128_S20000x128_S25000x128_d0 : Shape.Concatenates [S5000x128, S20000x128] S25000x128 0
  bcast_S_S400000 : S_.BroadcastsInDim S400000 (![] : Fin 0 → Fin S400000.rank)
  bcast_S400000_S400000x1_0 : S400000.BroadcastsInDim S400000x1 (![0] : Fin 1 → Fin S400000x1.rank)
  bcast_S_S25000x128 : S_.BroadcastsInDim S25000x128 (![] : Fin 0 → Fin S25000x128.rank)
  bcast_S_S25000 : S_.BroadcastsInDim S25000 (![] : Fin 0 → Fin S25000.rank)
  bcast_S25000_S25000x1_0 : S25000.BroadcastsInDim S25000x1 (![0] : Fin 1 → Fin S25000x1.rank)
  bcast_S25000x1_S25000x128_0_1 : S25000x1.BroadcastsInDim S25000x128 (![0, 1] : Fin 2 → Fin S25000x128.rank)
  shapeCasts_S64_S1x64 : S64.ShapeCasts S1x64
  shapeCasts_S1000x128_S1000x128 : S1000x128.ShapeCasts S1000x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1000x64 : S1x64.Broadcasts S1000x64
  inb_S1000x64_S1000x64_0_0 : ∀ a, (![0, 0] : Fin 2 → Nat) a + S1000x64.size a ≤ S1000x64.size a
  h_S1000x64 : 0 < S1000x64.numel
  bcast_S_S25000x64 : S_.BroadcastsInDim S25000x64 (![] : Fin 0 → Fin S25000x64.rank)
  bcast_S25000x1_S25000x64_0_1 : S25000x1.BroadcastsInDim S25000x64 (![0, 1] : Fin 2 → Fin S25000x64.rank)
  shapeCasts_S1000x64_S1000x64 : S1000x64.ShapeCasts S1000x64
  inb_S64x64_S64x64_0_0 : ∀ a, (![0, 0] : Fin 2 → Nat) a + S64x64.size a ≤ S64x64.size a
  h_S64x64 : 0 < S64x64.numel
  dot_S200x5000_S200x128_S5000x128_0_0_1_1_n_n_wf : DotDims.WF S200x5000 S200x128 S5000x128 [0] [0] [1] [1] [] []
  dot_S400x5000_S5000x128_S400x128_1_0_0_1_n_n_wf : DotDims.WF S400x5000 S5000x128 S400x128 [1] [0] [0] [1] [] []
  dot_S1000x383_S383x128_S1000x128_1_0_0_1_n_n_wf : DotDims.WF S1000x383 S383x128 S1000x128 [1] [0] [0] [1] [] []
  dot_S400x4395_S4395x128_S400x128_1_0_0_1_n_n_wf : DotDims.WF S400x4395 S4395x128 S400x128 [1] [0] [0] [1] [] []
  gather_S25000x128_S400000x1_S400000x128_1_0_n_n_0_1_1128_wf : GatherDims.WF S25000x128 S400000x1 S400000x128 [1] [0] [] [0] [] 1 ![1, 128]
  scatter_S25000x128_S400000x1_S400000x128_1_0_0_1_wf : ScatterDims.WF S25000x128 S400000x1 S400000x128 [1] [0] [0] 1
  scatter_S25000_S400000x1_S400000_n_0_0_1_wf : ScatterDims.WF S25000 S400000x1 S400000 [] [0] [0] 1
  dot_S1000x128_S128x64_S1000x64_1_0_0_1_n_n_wf : DotDims.WF S1000x128 S128x64 S1000x64 [1] [0] [0] [1] [] []
  gather_S25000x64_S400000x1_S400000x64_1_0_n_n_0_1_164_wf : GatherDims.WF S25000x64 S400000x1 S400000x64 [1] [0] [] [0] [] 1 ![1, 64]
  scatter_S25000x64_S400000x1_S400000x64_1_0_0_1_wf : ScatterDims.WF S25000x64 S400000x1 S400000x64 [1] [0] [0] 1
  dot_S1000x64_S64x64_S1000x64_1_0_0_1_n_n_wf : DotDims.WF S1000x64 S64x64 S1000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x5000.size a ≤ S2000x5000.size a
  hwx0_0 : ∀ i : grid0.Coords, EltTy.bits .f32 = 32 ∨ (Rect.block (s := S2000x5000) S200x5000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x128.size a ≤ S2000x128.size a
  hwx0_1 : ∀ i : grid0.Coords, EltTy.bits .f32 = 32 ∨ (Rect.block (s := S2000x128) S200x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S5000x128.size a
  hwx0_2 : ∀ i : grid0.Coords, EltTy.bits .f32 = 32 ∨ (Rect.block (s := S5000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x5000.size a ≤ S20000x5000.size a
  hwx1_0 : ∀ i : grid1.Coords, EltTy.bits .f32 = 32 ∨ (Rect.block (s := S20000x5000) S400x5000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S5000x128.size a
  hwx1_1 : ∀ i : grid1.Coords, EltTy.bits .f32 = 32 ∨ (Rect.block (s := S5000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x128.size a ≤ S20000x128.size a
  hwx1_2 : ∀ i : grid1.Coords, EltTy.bits .f32 = 32 ∨ (Rect.block (s := S20000x128) S400x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x383.size a ≤ S5000x383.size a
  hwx2_0 : ∀ i : grid2.Coords, EltTy.bits .f32 = 32 ∨ (Rect.block (s := S5000x383) S1000x383.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S383x128.size a ≤ S383x128.size a
  hwx2_1 : ∀ i : grid2.Coords, EltTy.bits .f32 = 32 ∨ (Rect.block (s := S383x128) S383x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x128.size a ≤ S5000x128.size a
  hwx2_2 : ∀ i : grid2.Coords, EltTy.bits .f32 = 32 ∨ (Rect.block (s := S5000x128) S1000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S400x4395.size a ≤ S20000x4395.size a
  hwx3_0 : ∀ i : grid3.Coords, EltTy.bits .f32 = 32 ∨ (Rect.block (s := S20000x4395) S400x4395.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S4395x128.size a ≤ S4395x128.size a
  hwx3_1 : ∀ i : grid3.Coords, EltTy.bits .f32 = 32 ∨ (Rect.block (s := S4395x128) S4395x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S400x128.size a ≤ S20000x128.size a
  hwx3_2 : ∀ i : grid3.Coords, EltTy.bits .f32 = 32 ∨ (Rect.block (s := S20000x128) S400x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1000x128.size a ≤ S25000x128.size a
  hwx4_0 : ∀ i : grid4.Coords, EltTy.bits .f32 = 32 ∨ (Rect.block (s := S25000x128) S1000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1000x128.size a ≤ S25000x128.size a
  hwx4_1 : ∀ i : grid4.Coords, EltTy.bits .f32 = 32 ∨ (Rect.block (s := S25000x128) S1000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x64.size a ≤ S128x64.size a
  hwx4_2 : ∀ i : grid4.Coords, EltTy.bits .f32 = 32 ∨ (Rect.block (s := S128x64) S128x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x64.size a ≤ S128x64.size a
  hwx4_3 : ∀ i : grid4.Coords, EltTy.bits .f32 = 32 ∨ (Rect.block (s := S128x64) S128x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S1000x64.size a ≤ S25000x64.size a
  hwx4_5 : ∀ i : grid4.Coords, EltTy.bits .f32 = 32 ∨ (Rect.block (s := S25000x64) S1000x64.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1000x64.size a ≤ S25000x64.size a
  hwx5_0 : ∀ i : grid5.Coords, EltTy.bits .f32 = 32 ∨ (Rect.block (s := S25000x64) S1000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1000x64.size a ≤ S25000x64.size a
  hwx5_1 : ∀ i : grid5.Coords, EltTy.bits .f32 = 32 ∨ (Rect.block (s := S25000x64) S1000x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64x64.size a ≤ S64x64.size a
  hwx5_2 : ∀ i : grid5.Coords, EltTy.bits .f32 = 32 ∨ (Rect.block (s := S64x64) S64x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64x64.size a ≤ S64x64.size a
  hwx5_3 : ∀ i : grid5.Coords, EltTy.bits .f32 = 32 ∨ (Rect.block (s := S64x64) S64x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S1000x64.size a ≤ S25000x64.size a
  hwx5_5 : ∀ i : grid5.Coords, EltTy.bits .f32 = 32 ∨ (Rect.block (s := S25000x64) S1000x64.size (cc5_transform_5 i) (hinb5_5 i)).WholeWords (EltTy.packing .f32)

variable [Facts₀]

def dot_S200x5000_S200x128_S5000x128_0_0_1_1_n_n : DotDims S200x5000 S200x128 S5000x128 where
  lhsContracting := [0]
  rhsContracting := [0]
  lhsNonContracting := [1]
  rhsNonContracting := [1]
  lhsBatch := []
  rhsBatch := []
  wf := dot_S200x5000_S200x128_S5000x128_0_0_1_1_n_n_wf
def dot_S400x5000_S5000x128_S400x128_1_0_0_1_n_n : DotDims S400x5000 S5000x128 S400x128 where
  lhsContracting := [1]
  rhsContracting := [0]
  lhsNonContracting := [0]
  rhsNonContracting := [1]
  lhsBatch := []
  rhsBatch := []
  wf := dot_S400x5000_S5000x128_S400x128_1_0_0_1_n_n_wf
def dot_S1000x383_S383x128_S1000x128_1_0_0_1_n_n : DotDims S1000x383 S383x128 S1000x128 where
  lhsContracting := [1]
  rhsContracting := [0]
  lhsNonContracting := [0]
  rhsNonContracting := [1]
  lhsBatch := []
  rhsBatch := []
  wf := dot_S1000x383_S383x128_S1000x128_1_0_0_1_n_n_wf
def dot_S400x4395_S4395x128_S400x128_1_0_0_1_n_n : DotDims S400x4395 S4395x128 S400x128 where
  lhsContracting := [1]
  rhsContracting := [0]
  lhsNonContracting := [0]
  rhsNonContracting := [1]
  lhsBatch := []
  rhsBatch := []
  wf := dot_S400x4395_S4395x128_S400x128_1_0_0_1_n_n_wf
def gather_S25000x128_S400000x1_S400000x128_1_0_n_n_0_1_1128 : GatherDims S25000x128 S400000x1 S400000x128 where
  offsetDims := [1]
  collapsedSliceDims := [0]
  operandBatchingDims := []
  startIndicesBatchingDims := []
  startIndexMap := [0]
  indexVectorDim := 1
  sliceSizes := ![1, 128]
  wf := gather_S25000x128_S400000x1_S400000x128_1_0_n_n_0_1_1128_wf
def scatter_S25000x128_S400000x1_S400000x128_1_0_0_1 : ScatterDims S25000x128 S400000x1 S400000x128 where
  updateWindowDims := [1]
  insertedWindowDims := [0]
  scatterDimsToOperandDims := [0]
  indexVectorDim := 1
  wf := scatter_S25000x128_S400000x1_S400000x128_1_0_0_1_wf
def scatter_S25000_S400000x1_S400000_n_0_0_1 : ScatterDims S25000 S400000x1 S400000 where
  updateWindowDims := []
  insertedWindowDims := [0]
  scatterDimsToOperandDims := [0]
  indexVectorDim := 1
  wf := scatter_S25000_S400000x1_S400000_n_0_0_1_wf
def dot_S1000x128_S128x64_S1000x64_1_0_0_1_n_n : DotDims S1000x128 S128x64 S1000x64 where
  lhsContracting := [1]
  rhsContracting := [0]
  lhsNonContracting := [0]
  rhsNonContracting := [1]
  lhsBatch := []
  rhsBatch := []
  wf := dot_S1000x128_S128x64_S1000x64_1_0_0_1_n_n_wf
def gather_S25000x64_S400000x1_S400000x64_1_0_n_n_0_1_164 : GatherDims S25000x64 S400000x1 S400000x64 where
  offsetDims := [1]
  collapsedSliceDims := [0]
  operandBatchingDims := []
  startIndicesBatchingDims := []
  startIndexMap := [0]
  indexVectorDim := 1
  sliceSizes := ![1, 64]
  wf := gather_S25000x64_S400000x1_S400000x64_1_0_n_n_0_1_164_wf
def scatter_S25000x64_S400000x1_S400000x64_1_0_0_1 : ScatterDims S25000x64 S400000x1 S400000x64 where
  updateWindowDims := [1]
  insertedWindowDims := [0]
  scatterDimsToOperandDims := [0]
  indexVectorDim := 1
  wf := scatter_S25000x64_S400000x1_S400000x64_1_0_0_1_wf
def dot_S1000x64_S64x64_S1000x64_1_0_0_1_n_n : DotDims S1000x64 S64x64 S1000x64 where
  lhsContracting := [1]
  rhsContracting := [0]
  lhsNonContracting := [0]
  rhsNonContracting := [1]
  lhsBatch := []
  rhsBatch := []
  wf := dot_S1000x64_S64x64_S1000x64_1_0_0_1_n_n_wf

abbrev win0_0 : Pipeline.Window sig grid0 :=
  Pipeline.Window.ofSpec (Memref.whole main_arg2) S200x5000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg8) S200x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x128.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg3) S400x5000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg9) S5000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S400x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg0) S1000x383.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S383x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v2) S1000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_arg1) S400x4395.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S4395x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v3) S400x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v20) S1000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v39) S1000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg10) S128x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg11) S128x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v40) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v41) S1000x64.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v41) S1000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v60) S1000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg13) S64x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg14) S64x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v61) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v62) S1000x64.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S5000x383 : Shape := ⟨2, ![5000, 383]⟩
abbrev S20000x4395 : Shape := ⟨2, ![20000, 4395]⟩
abbrev S2000x5000 : Shape := ⟨2, ![2000, 5000]⟩
abbrev S20000x5000 : Shape := ⟨2, ![20000, 5000]⟩
abbrev S383x128 : Shape := ⟨2, ![383, 128]⟩
abbrev S128 : Shape := ⟨1, ![128]⟩
abbrev S4395x128 : Shape := ⟨2, ![4395, 128]⟩
abbrev S2000x128 : Shape := ⟨2, ![2000, 128]⟩
abbrev S5000x128 : Shape := ⟨2, ![5000, 128]⟩
abbrev S128x64 : Shape := ⟨2, ![128, 64]⟩
abbrev S64 : Shape := ⟨1, ![64]⟩
abbrev S64x64 : Shape := ⟨2, ![64, 64]⟩
abbrev S400000 : Shape := ⟨1, ![400000]⟩
abbrev S5000x2000 : Shape := ⟨2, ![5000, 2000]⟩
abbrev S20000x128 : Shape := ⟨2, ![20000, 128]⟩
abbrev S1x128 : Shape := ⟨2, ![1, 128]⟩
abbrev S_ : Shape := ⟨0, ![]⟩
abbrev S25000x128 : Shape := ⟨2, ![25000, 128]⟩
abbrev S400000x1 : Shape := ⟨2, ![400000, 1]⟩
abbrev S400000x128 : Shape := ⟨2, ![400000, 128]⟩
abbrev S25000 : Shape := ⟨1, ![25000]⟩
abbrev S25000x1 : Shape := ⟨2, ![25000, 1]⟩
abbrev S25000x64 : Shape := ⟨2, ![25000, 64]⟩
abbrev S1x64 : Shape := ⟨2, ![1, 64]⟩
abbrev S400000x64 : Shape := ⟨2, ![400000, 64]⟩

abbrev nBuf : Space → Nat
  | .hbm => 109
  | .vmem => 0
  | .smem => 0
  | _ => 0

abbrev bufTy : (tb : Table) → Fin (tcTables nBuf tb) → BufTy
  | .hbm, ⟨0, _⟩ => ⟨S5000x383, .f32⟩
  | .hbm, ⟨1, _⟩ => ⟨S20000x4395, .f32⟩
  | .hbm, ⟨2, _⟩ => ⟨S2000x5000, .f32⟩
  | .hbm, ⟨3, _⟩ => ⟨S20000x5000, .f32⟩
  | .hbm, ⟨4, _⟩ => ⟨S383x128, .f32⟩
  | .hbm, ⟨5, _⟩ => ⟨S128, .f32⟩
  | .hbm, ⟨6, _⟩ => ⟨S4395x128, .f32⟩
  | .hbm, ⟨7, _⟩ => ⟨S128, .f32⟩
  | .hbm, ⟨8, _⟩ => ⟨S2000x128, .f32⟩
  | .hbm, ⟨9, _⟩ => ⟨S5000x128, .f32⟩
  | .hbm, ⟨10, _⟩ => ⟨S128x64, .f32⟩
  | .hbm, ⟨11, _⟩ => ⟨S128x64, .f32⟩
  | .hbm, ⟨12, _⟩ => ⟨S64, .f32⟩
  | .hbm, ⟨13, _⟩ => ⟨S64x64, .f32⟩
  | .hbm, ⟨14, _⟩ => ⟨S64x64, .f32⟩
  | .hbm, ⟨15, _⟩ => ⟨S64, .f32⟩
  | .hbm, ⟨16, _⟩ => ⟨S400000, .i32⟩
  | .hbm, ⟨17, _⟩ => ⟨S400000, .i32⟩
  | .hbm, ⟨18, _⟩ => ⟨S5000x2000, .f32⟩
  | .hbm, ⟨19, _⟩ => ⟨S5000x128, .f32⟩
  | .hbm, ⟨20, _⟩ => ⟨S20000x128, .f32⟩
  | .hbm, ⟨21, _⟩ => ⟨S5000x128, .f32⟩
  | .hbm, ⟨22, _⟩ => ⟨S1x128, .f32⟩
  | .hbm, ⟨23, _⟩ => ⟨S5000x128, .f32⟩
  | .hbm, ⟨24, _⟩ => ⟨S5000x128, .f32⟩
  | .hbm, ⟨25, _⟩ => ⟨S_, .f32⟩
  | .hbm, ⟨26, _⟩ => ⟨S5000x128, .f32⟩
  | .hbm, ⟨27, _⟩ => ⟨S5000x128, .f32⟩
  | .hbm, ⟨28, _⟩ => ⟨S_, .f32⟩
  | .hbm, ⟨29, _⟩ => ⟨S5000x128, .f32⟩
  | .hbm, ⟨30, _⟩ => ⟨S5000x128, .f32⟩
  | .hbm, ⟨31, _⟩ => ⟨S5000x128, .f32⟩
  | .hbm, ⟨32, _⟩ => ⟨S20000x128, .f32⟩
  | .hbm, ⟨33, _⟩ => ⟨S1x128, .f32⟩
  | .hbm, ⟨34, _⟩ => ⟨S20000x128, .f32⟩
  | .hbm, ⟨35, _⟩ => ⟨S20000x128, .f32⟩
  | .hbm, ⟨36, _⟩ => ⟨S_, .f32⟩
  | .hbm, ⟨37, _⟩ => ⟨S20000x128, .f32⟩
  | .hbm, ⟨38, _⟩ => ⟨S20000x128, .f32⟩
  | .hbm, ⟨39, _⟩ => ⟨S_, .f32⟩
  | .hbm, ⟨40, _⟩ => ⟨S20000x128, .f32⟩
  | .hbm, ⟨41, _⟩ => ⟨S20000x128, .f32⟩
  | .hbm, ⟨42, _⟩ => ⟨S20000x128, .f32⟩
  | .hbm, ⟨43, _⟩ => ⟨S25000x128, .f32⟩
  | .hbm, ⟨44, _⟩ => ⟨S_, .i32⟩
  | .hbm, ⟨45, _⟩ => ⟨S400000, .i32⟩
  | .hbm, ⟨46, _⟩ => ⟨S400000, .i1⟩
  | .hbm, ⟨47, _⟩ => ⟨S_, .i32⟩
  | .hbm, ⟨48, _⟩ => ⟨S400000, .i32⟩
  | .hbm, ⟨49, _⟩ => ⟨S400000, .i32⟩
  | .hbm, ⟨50, _⟩ => ⟨S400000, .i32⟩
  | .hbm, ⟨51, _⟩ => ⟨S400000x1, .i32⟩
  | .hbm, ⟨52, _⟩ => ⟨S400000x128, .f32⟩
  | .hbm, ⟨53, _⟩ => ⟨S_, .f32⟩
  | .hbm, ⟨54, _⟩ => ⟨S25000x128, .f32⟩
  | .hbm, ⟨55, _⟩ => ⟨S400000x1, .i32⟩
  | .hbm, ⟨56, _⟩ => ⟨S25000x128, .f32⟩
  | .hbm, ⟨57, _⟩ => ⟨S_, .f32⟩
  | .hbm, ⟨58, _⟩ => ⟨S400000, .f32⟩
  | .hbm, ⟨59, _⟩ => ⟨S_, .f32⟩
  | .hbm, ⟨60, _⟩ => ⟨S25000, .f32⟩
  | .hbm, ⟨61, _⟩ => ⟨S400000x1, .i32⟩
  | .hbm, ⟨62, _⟩ => ⟨S25000, .f32⟩
  | .hbm, ⟨63, _⟩ => ⟨S_, .f32⟩
  | .hbm, ⟨64, _⟩ => ⟨S25000, .f32⟩
  | .hbm, ⟨65, _⟩ => ⟨S25000, .f32⟩
  | .hbm, ⟨66, _⟩ => ⟨S25000x1, .f32⟩
  | .hbm, ⟨67, _⟩ => ⟨S25000x128, .f32⟩
  | .hbm, ⟨68, _⟩ => ⟨S25000x128, .f32⟩
  | .hbm, ⟨69, _⟩ => ⟨S25000x64, .f32⟩
  | .hbm, ⟨70, _⟩ => ⟨S25000x64, .f32⟩
  | .hbm, ⟨71, _⟩ => ⟨S25000x64, .f32⟩
  | .hbm, ⟨72, _⟩ => ⟨S1x64, .f32⟩
  | .hbm, ⟨73, _⟩ => ⟨S25000x64, .f32⟩
  | .hbm, ⟨74, _⟩ => ⟨S25000x64, .f32⟩
  | .hbm, ⟨75, _⟩ => ⟨S_, .f32⟩
  | .hbm, ⟨76, _⟩ => ⟨S25000x64, .f32⟩
  | .hbm, ⟨77, _⟩ => ⟨S25000x64, .f32⟩
  | .hbm, ⟨78, _⟩ => ⟨S_, .i32⟩
  | .hbm, ⟨79, _⟩ => ⟨S400000, .i32⟩
  | .hbm, ⟨80, _⟩ => ⟨S400000, .i1⟩
  | .hbm, ⟨81, _⟩ => ⟨S_, .i32⟩
  | .hbm, ⟨82, _⟩ => ⟨S400000, .i32⟩
  | .hbm, ⟨83, _⟩ => ⟨S400000, .i32⟩
  | .hbm, ⟨84, _⟩ => ⟨S400000, .i32⟩
  | .hbm, ⟨85, _⟩ => ⟨S400000x1, .i32⟩
  | .hbm, ⟨86, _⟩ => ⟨S400000x64, .f32⟩
  | .hbm, ⟨87, _⟩ => ⟨S_, .f32⟩
  | .hbm, ⟨88, _⟩ => ⟨S25000x64, .f32⟩
  | .hbm, ⟨89, _⟩ => ⟨S400000x1, .i32⟩
  | .hbm, ⟨90, _⟩ => ⟨S25000x64, .f32⟩
  | .hbm, ⟨91, _⟩ => ⟨S_, .f32⟩
  | .hbm, ⟨92, _⟩ => ⟨S400000, .f32⟩
  | .hbm, ⟨93, _⟩ => ⟨S_, .f32⟩
  | .hbm, ⟨94, _⟩ => ⟨S25000, .f32⟩
  | .hbm, ⟨95, _⟩ => ⟨S400000x1, .i32⟩
  | .hbm, ⟨96, _⟩ => ⟨S25000, .f32⟩
  | .hbm, ⟨97, _⟩ => ⟨S_, .f32⟩
  | .hbm, ⟨98, _⟩ => ⟨S25000, .f32⟩
  | .hbm, ⟨99, _⟩ => ⟨S25000, .f32⟩
  | .hbm, ⟨100, _⟩ => ⟨S25000x1, .f32⟩
  | .hbm, ⟨101, _⟩ => ⟨S25000x64, .f32⟩
  | .hbm, ⟨102, _⟩ => ⟨S25000x64, .f32⟩
  | .hbm, ⟨103, _⟩ => ⟨S25000x64, .f32⟩
  | .hbm, ⟨104, _⟩ => ⟨S25000x64, .f32⟩
  | .hbm, ⟨105, _⟩ => ⟨S25000x64, .f32⟩
  | .hbm, ⟨106, _⟩ => ⟨S1x64, .f32⟩
  | .hbm, ⟨107, _⟩ => ⟨S25000x64, .f32⟩
  | .hbm, ⟨108, _⟩ => ⟨S25000x64, .f32⟩
  | _, _ => ⟨S5000x383, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_v8 : Ref sig .tc := ⟨.hbm, 27, rfl⟩
abbrev main_cst_0 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_1 : Ref sig .tc := ⟨.hbm, 36, rfl⟩
abbrev main_v16 : Ref sig .tc := ⟨.hbm, 37, rfl⟩
abbrev main_v17 : Ref sig .tc := ⟨.hbm, 38, rfl⟩
abbrev main_cst_2 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_c : Ref sig .tc := ⟨.hbm, 44, rfl⟩
abbrev main_v22 : Ref sig .tc := ⟨.hbm, 45, rfl⟩
abbrev main_v23 : Ref sig .tc := ⟨.hbm, 46, rfl⟩
abbrev main_c_3 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_4 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst_5 : Ref sig .tc := ⟨.hbm, 57, rfl⟩
abbrev main_v32 : Ref sig .tc := ⟨.hbm, 58, rfl⟩
abbrev main_cst_6 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_cst_7 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_call0_cst : Ref sig .tc := ⟨.hbm, 75, rfl⟩
abbrev main_call0_v0 : Ref sig .tc := ⟨.hbm, 76, rfl⟩
abbrev main_v47 : Ref sig .tc := ⟨.hbm, 77, rfl⟩
abbrev main_c_8 : Ref sig .tc := ⟨.hbm, 78, rfl⟩
abbrev main_v48 : Ref sig .tc := ⟨.hbm, 79, rfl⟩
abbrev main_v49 : Ref sig .tc := ⟨.hbm, 80, rfl⟩
abbrev main_c_9 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_cst_10 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_cst_11 : Ref sig .tc := ⟨.hbm, 91, rfl⟩
abbrev main_v58 : Ref sig .tc := ⟨.hbm, 92, rfl⟩
abbrev main_cst_12 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_cst_13 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩

abbrev nD : Nat := 1
abbrev τ : Topo := Topo.v7x

variable {F : FTy → Type} [FloatOps F]

class Facts₀ : Prop where
  transposes_S2000x5000_S5000x2000_1_0 : S2000x5000.Transposes [1, 0] S5000x2000
  bcast_S128_S1x128_1 : S128.BroadcastsInDim S1x128 (![1] : Fin 1 → Fin S1x128.rank)
  bcast_S1x128_S5000x128_0_1 : S1x128.BroadcastsInDim S5000x128 (![0, 1] : Fin 2 → Fin S5000x128.rank)
  bcast_S_S5000x128 : S_.BroadcastsInDim S5000x128 (![] : Fin 0 → Fin S5000x128.rank)
  bcast_S1x128_S20000x128_0_1 : S1x128.BroadcastsInDim S20000x128 (![0, 1] : Fin 2 → Fin S20000x128.rank)
  bcast_S_S20000x128 : S_.BroadcastsInDim S20000x128 (![] : Fin 0 → Fin S20000x128.rank)
  concatenates_S5000x128_S20000x128_S25000x128_d0 : Shape.Concatenates [S5000x128, S20000x128] S25000x128 0
  bcast_S_S400000 : S_.BroadcastsInDim S400000 (![] : Fin 0 → Fin S400000.rank)
  bcast_S400000_S400000x1_0 : S400000.BroadcastsInDim S400000x1 (![0] : Fin 1 → Fin S400000x1.rank)
  bcast_S_S25000x128 : S_.BroadcastsInDim S25000x128 (![] : Fin 0 → Fin S25000x128.rank)
  bcast_S_S25000 : S_.BroadcastsInDim S25000 (![] : Fin 0 → Fin S25000.rank)
  bcast_S25000_S25000x1_0 : S25000.BroadcastsInDim S25000x1 (![0] : Fin 1 → Fin S25000x1.rank)
  bcast_S25000x1_S25000x128_0_1 : S25000x1.BroadcastsInDim S25000x128 (![0, 1] : Fin 2 → Fin S25000x128.rank)
  bcast_S64_S1x64_1 : S64.BroadcastsInDim S1x64 (![1] : Fin 1 → Fin S1x64.rank)
  bcast_S1x64_S25000x64_0_1 : S1x64.BroadcastsInDim S25000x64 (![0, 1] : Fin 2 → Fin S25000x64.rank)
  bcast_S_S25000x64 : S_.BroadcastsInDim S25000x64 (![] : Fin 0 → Fin S25000x64.rank)
  bcast_S25000x1_S25000x64_0_1 : S25000x1.BroadcastsInDim S25000x64 (![0, 1] : Fin 2 → Fin S25000x64.rank)
  dot_S5000x2000_S2000x128_S5000x128_1_0_0_1_n_n_wf : DotDims.WF S5000x2000 S2000x128 S5000x128 [1] [0] [0] [1] [] []
  dot_S20000x5000_S5000x128_S20000x128_1_0_0_1_n_n_wf : DotDims.WF S20000x5000 S5000x128 S20000x128 [1] [0] [0] [1] [] []
  dot_S5000x383_S383x128_S5000x128_1_0_0_1_n_n_wf : DotDims.WF S5000x383 S383x128 S5000x128 [1] [0] [0] [1] [] []
  dot_S20000x4395_S4395x128_S20000x128_1_0_0_1_n_n_wf : DotDims.WF S20000x4395 S4395x128 S20000x128 [1] [0] [0] [1] [] []
  gather_S25000x128_S400000x1_S400000x128_1_0_n_n_0_1_1128_wf : GatherDims.WF S25000x128 S400000x1 S400000x128 [1] [0] [] [0] [] 1 ![1, 128]
  scatter_S25000x128_S400000x1_S400000x128_1_0_0_1_wf : ScatterDims.WF S25000x128 S400000x1 S400000x128 [1] [0] [0] 1
  scatter_S25000_S400000x1_S400000_n_0_0_1_wf : ScatterDims.WF S25000 S400000x1 S400000 [] [0] [0] 1
  dot_S25000x128_S128x64_S25000x64_1_0_0_1_n_n_wf : DotDims.WF S25000x128 S128x64 S25000x64 [1] [0] [0] [1] [] []
  gather_S25000x64_S400000x1_S400000x64_1_0_n_n_0_1_164_wf : GatherDims.WF S25000x64 S400000x1 S400000x64 [1] [0] [] [0] [] 1 ![1, 64]
  scatter_S25000x64_S400000x1_S400000x64_1_0_0_1_wf : ScatterDims.WF S25000x64 S400000x1 S400000x64 [1] [0] [0] 1
  dot_S25000x64_S64x64_S25000x64_1_0_0_1_n_n_wf : DotDims.WF S25000x64 S64x64 S25000x64 [1] [0] [0] [1] [] []

variable [Facts₀]

def dot_S5000x2000_S2000x128_S5000x128_1_0_0_1_n_n : DotDims S5000x2000 S2000x128 S5000x128 where
  lhsContracting := [1]
  rhsContracting := [0]
  lhsNonContracting := [0]
  rhsNonContracting := [1]
  lhsBatch := []
  rhsBatch := []
  wf := dot_S5000x2000_S2000x128_S5000x128_1_0_0_1_n_n_wf
def dot_S20000x5000_S5000x128_S20000x128_1_0_0_1_n_n : DotDims S20000x5000 S5000x128 S20000x128 where
  lhsContracting := [1]
  rhsContracting := [0]
  lhsNonContracting := [0]
  rhsNonContracting := [1]
  lhsBatch := []
  rhsBatch := []
  wf := dot_S20000x5000_S5000x128_S20000x128_1_0_0_1_n_n_wf
def dot_S5000x383_S383x128_S5000x128_1_0_0_1_n_n : DotDims S5000x383 S383x128 S5000x128 where
  lhsContracting := [1]
  rhsContracting := [0]
  lhsNonContracting := [0]
  rhsNonContracting := [1]
  lhsBatch := []
  rhsBatch := []
  wf := dot_S5000x383_S383x128_S5000x128_1_0_0_1_n_n_wf
def dot_S20000x4395_S4395x128_S20000x128_1_0_0_1_n_n : DotDims S20000x4395 S4395x128 S20000x128 where
  lhsContracting := [1]
  rhsContracting := [0]
  lhsNonContracting := [0]
  rhsNonContracting := [1]
  lhsBatch := []
  rhsBatch := []
  wf := dot_S20000x4395_S4395x128_S20000x128_1_0_0_1_n_n_wf
def gather_S25000x128_S400000x1_S400000x128_1_0_n_n_0_1_1128 : GatherDims S25000x128 S400000x1 S400000x128 where
  offsetDims := [1]
  collapsedSliceDims := [0]
  operandBatchingDims := []
  startIndicesBatchingDims := []
  startIndexMap := [0]
  indexVectorDim := 1
  sliceSizes := ![1, 128]
  wf := gather_S25000x128_S400000x1_S400000x128_1_0_n_n_0_1_1128_wf
def scatter_S25000x128_S400000x1_S400000x128_1_0_0_1 : ScatterDims S25000x128 S400000x1 S400000x128 where
  updateWindowDims := [1]
  insertedWindowDims := [0]
  scatterDimsToOperandDims := [0]
  indexVectorDim := 1
  wf := scatter_S25000x128_S400000x1_S400000x128_1_0_0_1_wf
def scatter_S25000_S400000x1_S400000_n_0_0_1 : ScatterDims S25000 S400000x1 S400000 where
  updateWindowDims := []
  insertedWindowDims := [0]
  scatterDimsToOperandDims := [0]
  indexVectorDim := 1
  wf := scatter_S25000_S400000x1_S400000_n_0_0_1_wf
def dot_S25000x128_S128x64_S25000x64_1_0_0_1_n_n : DotDims S25000x128 S128x64 S25000x64 where
  lhsContracting := [1]
  rhsContracting := [0]
  lhsNonContracting := [0]
  rhsNonContracting := [1]
  lhsBatch := []
  rhsBatch := []
  wf := dot_S25000x128_S128x64_S25000x64_1_0_0_1_n_n_wf
def gather_S25000x64_S400000x1_S400000x64_1_0_n_n_0_1_164 : GatherDims S25000x64 S400000x1 S400000x64 where
  offsetDims := [1]
  collapsedSliceDims := [0]
  operandBatchingDims := []
  startIndicesBatchingDims := []
  startIndexMap := [0]
  indexVectorDim := 1
  sliceSizes := ![1, 64]
  wf := gather_S25000x64_S400000x1_S400000x64_1_0_n_n_0_1_164_wf
def scatter_S25000x64_S400000x1_S400000x64_1_0_0_1 : ScatterDims S25000x64 S400000x1 S400000x64 where
  updateWindowDims := [1]
  insertedWindowDims := [0]
  scatterDimsToOperandDims := [0]
  indexVectorDim := 1
  wf := scatter_S25000x64_S400000x1_S400000x64_1_0_0_1_wf
def dot_S25000x64_S64x64_S25000x64_1_0_0_1_n_n : DotDims S25000x64 S64x64 S25000x64 where
  lhsContracting := [1]
  rhsContracting := [0]
  lhsNonContracting := [0]
  rhsNonContracting := [1]
  lhsBatch := []
  rhsBatch := []
  wf := dot_S25000x64_S64x64_S25000x64_1_0_0_1_n_n_wf

class Facts : Prop extends Facts₀ where

variable [Facts]
-- ==== Proof.KI.R0.lean ====
/- Region 0: the product miRNA_disᵀ · W1 ([2000, 5000] transposed by [2000, 128]), accumulated over ten blocks of 200 rows
   in a scratch buffer. One grid point loads a block of 200 rows of each matrix, multiplies the transposed left block by
   the right block and adds the product to the scratch; the first point fills the scratch with zeros before that, and the
   last point copies the scratch into the output's staging buffer, which is written back there and nowhere else. Here:
   the body's run in its three cases (first point, middle points, last point) with what the scratch and the output's
   buffer end at; the closed forms of the two conditions and of the output window's idle points over the grid; the
   accumulator point by point; the proof data of the pipeline, whose invariant carries the scratch from point to point;
   the body obligation at every point; and the passage of the scratch from the scoped buffers into the invariant and back.
   Everything holds at any float instance. -/
import proofs.«115049_j15814069584107_1_alg».proof.Proof.Gen.KernelIdeal.Launch
import proofs.«115049_j15814069584107_1_alg».proof.Proof.Gen.KernelIdeal.Skeleton
import proofs.«115049_j15814069584107_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a whole-buffer rectangle. -/
theorem hz0 : (![0, 0] : Fin 2 → Nat) = fun _ => 0 := funext fun a => by fin_cases a <;> rfl

/-- The first conditional's test (is this the first point?), from the grid coordinates. -/
abbrev cond0_a (i : grid0.Coords) : Prop :=
  Scalar.cmpi .ne (Scalar.extui (Scalar.cmpi .eq (BitVec.ofNat 32 (i 0).val) 0#32)) 0#32 = 1#1
/-- The second conditional's test (is this the last point?). -/
abbrev cond0_b (i : grid0.Coords) : Prop := k0_cond2 i = 1#1

/-! ## The body's run, case by case -/

set_option maxHeartbeats 1000000 in
/-- The body at the first point, on whole memrefs: the two input blocks at `x0`, `x1`, the output's staging buffer at
    `x2` (not touched: the last point alone copies into it), the scratch at anything. The scratch is filled with zeros and
    the first product is added to them: it ends at `k0_pay2 x0 x1 k0_pay1`. -/
theorem kernelRun0_A (c : Dev nD) (i : grid0.Coords) (arg1 : Memref sig .tc .vmem S200x5000 .f32) (harg1 : arg1.IsWhole) (arg2 : Memref sig .tc .vmem S200x128 .f32) (harg2 : arg2.IsWhole) (arg3 : Memref sig .tc .vmem S5000x128 .f32) (harg3 : arg3.IsWhole) (arg4 : Memref sig .tc .vmem S5000x128 .f32) (harg4 : arg4.IsWhole)
    (hc0 : cond0_a i) (hc1 : ¬cond0_b i)
    (x0 : Vec F S200x5000 .f32) (x1 : Vec F S200x128 .f32) (x2 : Vec F S5000x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (k0_pay2 x0 x1 k0_pay1)) -∗ K ⟨⟩))
      ⊢ wp frame (wpE (defs₀ (F := F)) Variants.none c none) E (cc0__mm_trans_kernel i arg1 harg1 arg2 harg2 arg3 harg3 arg4 harg4) K := by
  simp only [cc0__mm_trans_kernel_eq_skeleton]; unfold cc0__mm_trans_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  sl_unfold_run_names
  rw [View.read_writes_eq_canon _ _ _ (fun y => ⟨_, List.mem_cons_self, View.mem_set_unit_zero hz0 inb_S5000x128_S5000x128_0_0 y⟩)]
  rw [View.canon_cons_unit_zero (S := S5000x128) hz0, View.readCov_unit_zero (S := S5000x128) _ hz0]
  simp only [View.readAt_eq_ld, View.ld_unit_zero (S := S200x5000) hz0, View.ld_unit_zero (S := S200x128) hz0, View.ld_unit_zero (S := S5000x128) hz0]

set_option maxHeartbeats 1000000 in
/-- The body at a middle point: neither conditional holds. The scratch, found at `a`, ends at `k0_pay2 x0 x1 a` (the
    product of the transposed left block and the right block, added to `a`); the output's staging buffer is not touched. -/
theorem kernelRun0_B (c : Dev nD) (i : grid0.Coords) (arg1 : Memref sig .tc .vmem S200x5000 .f32) (harg1 : arg1.IsWhole) (arg2 : Memref sig .tc .vmem S200x128 .f32) (harg2 : arg2.IsWhole) (arg3 : Memref sig .tc .vmem S5000x128 .f32) (harg3 : arg3.IsWhole) (arg4 : Memref sig .tc .vmem S5000x128 .f32) (harg4 : arg4.IsWhole)
    (hc0 : ¬cond0_a i) (hc1 : ¬cond0_b i)
    (x0 : Vec F S200x5000 .f32) (x1 : Vec F S200x128 .f32) (x2 : Vec F S5000x128 .f32) (a : Vec F S5000x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare a
        ∗ (iprop(owns (c : Thread nD τ) arg1 fullShare x0 ∗ owns (c : Thread nD τ) arg2 fullShare x1 ∗ owns (c : Thread nD τ) arg3 fullShare x2 ∗ owns (c : Thread nD τ) arg4 fullShare (k0_pay2 x0 x1 a)) -∗ K ⟨⟩))
      ⊢ wp frame (wpE (defs₀ (F := F)) Variants.none c none) E (cc0__mm_trans_kernel i arg1 harg1 arg2 harg2 arg3 harg3 arg4 harg4) K := by
  simp only [cc0__mm_trans_kernel_eq_skeleton]; unfold cc0__mm_trans_kernel_skel
  unfold owns
  iintro ⟨⟨%f0, %hf0, H0⟩, ⟨%f1, %hf1, H1⟩, ⟨%f2, %hf2, H2⟩, ⟨%f3, %hf3, H3⟩, Hk⟩
  subst hf0 hf1 hf2 hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  sl_unfold_run_names
  rw [View.read_writes_eq_canon _ _ _ (fun y => ⟨_, List.mem_cons_self, View.mem_set_unit_zero hz0 inb_S5000x128_S5000x128_0_0 y⟩)]
  rw [View.canon_cons_unit_zero (S := S5000x128) hz0]
  simp only [View.readAt_eq_ld, View.ld_unit_zero (S := S200x5000) hz0, View.ld_unit_zero (S := S200x128) hz0, View.ld_unit_zero (S := S5000x128) hz0]

set_option maxHeartbeats 1000000 in
/-- The body at the last point: the second conditional holds. The scratch, found at `a`, ends at `k0_pay2 x0 x1 a`, and
    that is copied into the output's staging buffer, whatever it held. -/
theorem kernelRun0_C (c : Dev nD) (i : grid0.Coords) (arg1 : Memref sig .tc .vmem S200x5000 .f32) (harg1 : arg1.IsWhole) (arg2 : Memref sig .tc .vmem S200x128 .f32) (harg2 : arg2.IsWhole) (arg3 : Memref sig .tc .vmem S5000x128 .f32) (harg3 : arg3.IsWhole) (arg4 : Memref sig .tc .vmem S5000x128 .f32) (harg4 : arg4.IsWhole)
    (hc0 : ¬cond0_a i) (hc1 : cond0_b i)
    (x0 : Vec F S200x5000 .f32) (x1 : Vec F S200x128 .f32) (a : Vec F S5000x128 .f32) (E : Set ℕ) (K : PUnit → sProp 𝕄) :
    iprop(owns (c : Thread nD τ) arg1 fullShare x0 ∗ owns (c : Thread nD τ) arg2 fullShare x1 ∗ (∃ d, owns (c : Thread nD τ) arg3 fullShare d) ∗ owns (c : Thread nD τ) arg4 fullShare a
        ∗ (iprop(owns (c : Thread nD τ) arg1 fullShare x0 ∗ owns (c : Thread nD τ) arg2 fullShare x1 ∗ owns (c : Thread nD τ) arg3 fullShare (k0_pay2 x0 x1 a) ∗ owns (c : Thread nD τ) arg4 fullShare (k0_pay2 x0 x1 a)) -∗ K ⟨⟩))
      ⊢ wp frame (wpE (defs₀ (F := F)) Variants.none c none) E (cc0__mm_trans_kernel i arg1 harg1 arg2 harg2 arg3 harg3 arg4 harg4) K := by
  simp only [cc0__mm_trans_kernel_eq_skeleton]; unfold cc0__mm_trans_kernel_skel
  unfold owns
  iintro ⟨⟨%f0, %hf0, H0⟩, ⟨%f1, %hf1, H1⟩, ⟨%d2, %f2, -, H2⟩, ⟨%f3, %hf3, H3⟩, Hk⟩
  subst hf0 hf1 hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    rw [View.read_writes_eq_canon _ _ _ (fun y => ⟨_, List.mem_cons_self, View.mem_set_unit_zero hz0 inb_S5000x128_S5000x128_0_0 y⟩)]
    rw [View.canon_cons_unit_zero (S := S5000x128) hz0, View.readCov_unit_zero (S := S5000x128) _ hz0]
    simp only [View.readAt_eq_ld, View.ld_unit_zero (S := S200x5000) hz0, View.ld_unit_zero (S := S200x128) hz0, View.ld_unit_zero (S := S5000x128) hz0]
  iexists _; isplitr
  swap; · iexact H3
  ipureintro
  sl_unfold_run_names
  rw [View.read_writes_eq_canon _ _ _ (fun y => ⟨_, List.mem_cons_self, View.mem_set_unit_zero hz0 inb_S5000x128_S5000x128_0_0 y⟩)]
  rw [View.canon_cons_unit_zero (S := S5000x128) hz0]
  simp only [View.readAt_eq_ld, View.ld_unit_zero (S := S200x5000) hz0, View.ld_unit_zero (S := S200x128) hz0, View.ld_unit_zero (S := S5000x128) hz0]

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left matrix's staging buffer holds the point's block of 200 rows. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The right matrix's staging buffer holds the point's block of 200 rows. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The conditions and the idle points, over the grid -/

/-- The first conditional holds at the first point only. -/
theorem hcond0_a : ∀ t : Fin cfg0.N, cond0_a (grid0.coords t) ↔ t.val % 10 = 0 :=
  (by decide +kernel : ∀ t : Fin grid0.N, cond0_a (grid0.coords t) ↔ t.val % 10 = 0)
/-- The second conditional holds at the last point only. -/
theorem hcond0_b : ∀ t : Fin cfg0.N, cond0_b (grid0.coords t) ↔ t.val % 10 = 9 :=
  (by decide +kernel : ∀ t : Fin grid0.N, cond0_b (grid0.coords t) ↔ t.val % 10 = 9)
/-- The output window is idle (its staging buffer is handed back as found) at every point but the last. -/
theorem idleAt0_2 : ∀ t : Fin cfg0.N, cfg0.idle 2 (grid0.coords t) = true ↔ ¬ t.val % 10 = 9 :=
  (by decide +kernel : ∀ t : Fin grid0.N, cfg0.idle 2 (grid0.coords t) = true ↔ ¬ t.val % 10 = 9)

/-! ## The accumulator, point by point -/

/-- The scratch's contents after point `n`: after the first point the product of the first two blocks added to the zero
    fill; after each later point the product of that point's two blocks added to what the point before left. (Past the
    grid nothing more is added.) -/
def acc0 (c : Dev nD) : ℕ → Vec F S5000x128 .f32
  | 0 => k0_pay2 (iblk0 V c 0 t0_0) (iblk0 V c 1 t0_0) k0_pay1
  | n + 1 => if h : n + 1 < cfg0.N then k0_pay2 (iblk0 V c 0 ⟨n + 1, h⟩) (iblk0 V c 1 ⟨n + 1, h⟩) (acc0 c n) else acc0 c n

theorem acc0_zero (c : Dev nD) : acc0 V c 0 = k0_pay2 (iblk0 V c 0 t0_0) (iblk0 V c 1 t0_0) k0_pay1 := rfl

theorem acc0_succ (c : Dev nD) (n : ℕ) (h : n + 1 < cfg0.N) :
    acc0 V c (n + 1) = k0_pay2 (iblk0 V c 0 ⟨n + 1, h⟩) (iblk0 V c 1 ⟨n + 1, h⟩) (acc0 V c n) := by
  rw [acc0, dif_pos h]

/-- At the first point, spelled with the point. -/
theorem acc0_first (c : Dev nD) (t : Fin cfg0.N) (h : t.val = 0) :
    acc0 V c 0 = k0_pay2 (iblk0 V c 0 t) (iblk0 V c 1 t) k0_pay1 := by
  obtain rfl : t = t0_0 := Fin.ext h
  rfl

/-- At a later point, spelled with the point. -/
theorem acc0_at (c : Dev nD) (t : Fin cfg0.N) (n : ℕ) (h : t.val = n + 1) :
    acc0 V c (n + 1) = k0_pay2 (iblk0 V c 0 t) (iblk0 V c 1 t) (acc0 V c n) := by
  obtain ⟨tv, ht⟩ := t
  dsimp only at h
  subst h
  exact acc0_succ V c n ht

/-! ## The proof data -/

/-- The invariant before point `j`: the generator register at some state; this call's scratch — before the first point at
    anything, before point `n + 1` at what point `n` left —; every other scoped buffer at some contents. -/
def phi0 (c : Dev nD) : ℕ → sProp 𝕄
  | 0 => iprop((∃ r, prngReg c r) ∗ (∃ d : Vec F S5000x128 .f32, owns (c : Thread nD τ) (Memref.whole cc0_scratch0 : Memref sig .tc .vmem S5000x128 .f32) fullShare d) ∗ Pipeline.scopedRestBut (Ix := Unit) (Name := ℕ) (U := UR sig nD τ) (Lvl := ℕ) (Val := Elt F) spec0 c [cc0_scratch0])
  | n + 1 => iprop((∃ r, prngReg c r) ∗ owns (c : Thread nD τ) (Memref.whole cc0_scratch0 : Memref sig .tc .vmem S5000x128 .f32) fullShare (acc0 V c n) ∗ Pipeline.scopedRestBut (Ix := Unit) (Name := ℕ) (U := UR sig nD τ) (Lvl := ℕ) (Val := Elt F) spec0 c [cc0_scratch0])

theorem phi0_zero (c : Dev nD) : phi0 V c 0 =
    iprop((∃ r, prngReg c r) ∗ (∃ d : Vec F S5000x128 .f32, owns (c : Thread nD τ) (Memref.whole cc0_scratch0 : Memref sig .tc .vmem S5000x128 .f32) fullShare d) ∗ Pipeline.scopedRestBut (Ix := Unit) (Name := ℕ) (U := UR sig nD τ) (Lvl := ℕ) (Val := Elt F) spec0 c [cc0_scratch0]) := rfl
theorem phi0_succ (c : Dev nD) (n : ℕ) : phi0 V c (n + 1) =
    iprop((∃ r, prngReg c r) ∗ owns (c : Thread nD τ) (Memref.whole cc0_scratch0 : Memref sig .tc .vmem S5000x128 .f32) fullShare (acc0 V c n) ∗ Pipeline.scopedRestBut (Ix := Unit) (Name := ℕ) (U := UR sig nD τ) (Lvl := ℕ) (Val := Elt F) spec0 c [cc0_scratch0]) := rfl

/-- The proof data of the pipeline on core `c`: the arrays as the region finds them; after the body each input's buffer at
    its block, and the output's — consulted at the last point only, the one point that is not idle for it — at what the
    scratch holds after the last point; the invariant carries the scratch from point to point; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => acc0 V c 9
  Φ j := phi0 V c j.val
  q _ := fullShare
  owed _ := 0

theorem A_eq0 (c : Dev nD) (w : Fin cfg0.W) : (dat0 V c).A w = V c (Pipeline.arrRef spec0 w) := by
  dsimp only [dat0]
theorem q_eq0 (c : Dev nD) (w : Fin cfg0.W) : (dat0 V c).q w = fullShare := by dsimp only [dat0]
theorem owed_eq0 (c : Dev nD) (t : Fin (cfg0.N + 1)) : (dat0 V c).owed t = 0 := by dsimp only [dat0]
theorem recorded_eq0 (c : Dev nD) (t : Fin (cfg0.N + 1)) : (dat0 V c).recorded t = Set.univ := by dsimp only [dat0]
theorem Φ_eq0 (c : Dev nD) (j : Fin (cfg0.N + 1)) : (dat0 V c).Φ j = phi0 V c j.val := by dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = acc0 V c 9 := by dsimp only [dat0]
theorem after0_2_last (c : Dev nD) (t : Fin cfg0.N) (ht : t.val = 9) : (dat0 V c).after 2 t = acc0 V c 9 := after0_2 V c t

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns: the output's buffer as found where the window is idle, at the accumulated product at the last point. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ (dat0 V c).leavesExact 2 t)

set_option maxHeartbeats 1000000 in
/-- The body at any point. The inputs' buffers hold their blocks; the closed forms of the two conditions say which of the
    three cases the point is in; the invariant hands the scratch over at what the point before left and takes it back at
    what this point leaves; the output's buffer is handed back as found, except at the last point, where it receives the
    accumulated product. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl, after0_0, after0_1,
    show (dat0 V c).Φ t.castSucc = phi0 V c t.val from rfl, show (dat0 V c).Φ t.succ = phi0 V c (t.val + 1) from rfl]
  have hN : t.val < 10 := lt_of_lt_of_eq t.isLt (show cfg0.N = 10 from N_0)
  by_cases h0 : t.val = 0
  · -- the first point: zero fill, then the first product
    have hidle : cfg0.idle 2 (grid0.coords t) = true := (idleAt0_2 t).mpr (by omega)
    have hfl : (cfg0.win 2).flush t = false := Bool.eq_false_iff.mpr fun h => by have := (flush0_2 t).mp h; omega
    rw [Dat.leavesExact_idle _ 2 t hidle hfl, show phi0 V c t.val = phi0 V c 0 from congrArg _ h0,
      show phi0 V c (t.val + 1) = phi0 V c (0 + 1) from congrArg (fun n => phi0 V c (n + 1)) h0]
    rw [phi0_zero V c, phi0_succ V c 0, acc0_first V c t h0]
    iintro ⟨⟨Hp, ⟨%ds, Hs⟩, Hr⟩, Ho, ⟨%d0, H0⟩, ⟨%d1, H1⟩, ⟨%d2, H2⟩⟩
    iapply (kernelRun0_A c (grid0.coords t) _ _ _ _ _ _ _ _ ((hcond0_a t).mpr (by omega)) (fun h => by have := (hcond0_b t).mp h; omega)
      (iblk0 V c 0 t) (iblk0 V c 1 t) ((dat0 V c).before 2 t d2) Set.univ _)
    isplitl [H0]; · iexact H0
    isplitl [H1]; · iexact H1
    isplitl [H2]; · iexact H2
    isplitl [Hs]; · iexists ds; iexact Hs
    iintro ⟨H0, H1, H2, Hs⟩
    isplitl [Hp Hs Hr]
    · isplitl [Hp]; · iexact Hp
      isplitl [Hs]; · iexact Hs
      iexact Hr
    isplitl [Ho]; · iexact Ho
    isplitl [H0]; · iexact H0
    isplitl [H1]; · iexact H1
    iexists d2; iexact H2
  · obtain ⟨n, hn⟩ : ∃ n, t.val = n + 1 := ⟨t.val - 1, by omega⟩
    rw [show phi0 V c t.val = phi0 V c (n + 1) from congrArg _ hn,
      show phi0 V c (t.val + 1) = phi0 V c ((n + 1) + 1) from congrArg (fun k => phi0 V c (k + 1)) hn]
    rw [phi0_succ V c (n + 1), phi0_succ V c n, acc0_at V c t n hn]
    by_cases h9 : t.val = 9
    · -- the last point: one more product, then the copy into the output's buffer
      rw [show (dat0 V c).leavesExact 2 t = owns (c : Thread nD τ) (st0_2 t) fullShare ((dat0 V c).after 2 t) from by
        unfold Dat.leavesExact
        rw [show cfg0.idle 2 (grid0.coords t) = false from Bool.eq_false_iff.mpr fun h => (idleAt0_2 t).mp h (by omega)], after0_2]
      rw [show acc0 V c 9 = k0_pay2 (iblk0 V c 0 t) (iblk0 V c 1 t) (acc0 V c n) from by
        rw [show (9 : ℕ) = n + 1 from by omega]; exact acc0_at V c t n hn]
      iintro ⟨⟨Hp, Hs, Hr⟩, Ho, ⟨%d0, H0⟩, ⟨%d1, H1⟩, ⟨%d2, H2⟩⟩
      iapply (kernelRun0_C c (grid0.coords t) _ _ _ _ _ _ _ _ (fun h => by have := (hcond0_a t).mp h; omega) ((hcond0_b t).mpr (by omega))
        (iblk0 V c 0 t) (iblk0 V c 1 t) (acc0 V c n) Set.univ _)
      isplitl [H0]; · iexact H0
      isplitl [H1]; · iexact H1
      isplitl [H2]; · iexists _; iexact H2
      isplitl [Hs]; · iexact Hs
      iintro ⟨H0, H1, H2, Hs⟩
      isplitl [Hp Hs Hr]
      · isplitl [Hp]; · iexact Hp
        isplitl [Hs]; · iexact Hs
        iexact Hr
      isplitl [Ho]; · iexact Ho
      isplitl [H0]; · iexact H0
      isplitl [H1]; · iexact H1
      iexact H2
    · -- a middle point: one more product
      have hidle : cfg0.idle 2 (grid0.coords t) = true := (idleAt0_2 t).mpr (by omega)
      have hfl : (cfg0.win 2).flush t = false := Bool.eq_false_iff.mpr fun h => by have := (flush0_2 t).mp h; omega
      rw [Dat.leavesExact_idle _ 2 t hidle hfl]
      iintro ⟨⟨Hp, Hs, Hr⟩, Ho, ⟨%d0, H0⟩, ⟨%d1, H1⟩, ⟨%d2, H2⟩⟩
      iapply (kernelRun0_B c (grid0.coords t) _ _ _ _ _ _ _ _ (fun h => by have := (hcond0_a t).mp h; omega) (fun h => by have := (hcond0_b t).mp h; omega)
        (iblk0 V c 0 t) (iblk0 V c 1 t) ((dat0 V c).before 2 t d2) (acc0 V c n) Set.univ _)
      isplitl [H0]; · iexact H0
      isplitl [H1]; · iexact H1
      isplitl [H2]; · iexact H2
      isplitl [Hs]; · iexact Hs
      iintro ⟨H0, H1, H2, Hs⟩
      isplitl [Hp Hs Hr]
      · isplitl [Hp]; · iexact Hp
        isplitl [Hs]; · iexact Hs
        iexact Hr
      isplitl [Ho]; · iexact Ho
      isplitl [H0]; · iexact H0
      isplitl [H1]; · iexact H1
      iexists d2; iexact H2

/-- The body obligation of the pipeline, at every point. -/
theorem body_obligation0 (c : Dev nD) : BodyObligation (dat0 (F := F) V c) (defs₀ (F := F)) Variants.none () Set.univ := fun t => by
  rw [bigSep_W0, bigSep_W0]
  exact sound_body0 V c t

/-! ## Into the invariant and out of it -/

/-- Into the invariant before the first point: the scoped rest split at this call's scratch, which is at some contents. -/
theorem hin0 (c : Dev nD) (P : sProp 𝕄) :
    iprop((∃ r, prngReg c r) ∗ P ∗ Pipeline.scopedRest (Ix := Unit) (Name := ℕ) (U := UR sig nD τ) (Lvl := ℕ) (Val := Elt F) spec0 c) ⊢ (dat0 V c).Φ 0 := by
  rw [show (dat0 V c).Φ 0 = phi0 V c 0 from rfl, scopedRest0_split c]
  rw [phi0_zero V c]
  iintro ⟨Hp, -, ⟨%f, Hs⟩, Hr⟩
  isplitl [Hp]; · iexact Hp
  isplitl [Hs]
  · iexists f
    rw [owns_whole (c : Thread nD τ) cc0_scratch0 fullShare f]
    iexact Hs
  iexact Hr

/-- Out of the invariant after the last point: the scratch, whatever the accumulation left in it, goes back among the
    scoped buffers at some contents. -/
theorem hout0 (c : Dev nD) :
    (dat0 V c).Φ (Fin.last cfg0.N) ⊢ iprop((∃ r, prngReg c r) ∗ emp ∗ Pipeline.scopedRest (Ix := Unit) (Name := ℕ) (U := UR sig nD τ) (Lvl := ℕ) (Val := Elt F) spec0 c) := by
  rw [show (dat0 V c).Φ (Fin.last cfg0.N) = phi0 V c (9 + 1) from
        (Φ_eq0 V c (Fin.last cfg0.N)).trans (congrArg (phi0 V c) N_0), scopedRest0_split c]
  rw [phi0_succ V c 9]
  iintro ⟨Hp, Hs, Hr⟩
  isplitl [Hp]; · iexact Hp
  isplitr; · iempintro
  isplitl [Hs]
  · iexists (acc0 V c 9)
    rw [← owns_whole (c : Thread nD τ) cc0_scratch0 fullShare (acc0 V c 9)]
    iexact Hs
  iexact Hr

end Cert.KernelIdeal.Hand

end
-- ==== Proof.KI.R1.lean ====
/- Region 1: the product gene_dis · W4 ([20000, 5000] by [5000, 128]), fifty blocks of 400 rows.
   One grid point multiplies one block of rows of the left matrix by the whole right matrix and stores the
   block of rows of the product. Here: what a block is when read off the arrays the region finds, that the two input
   staging buffers hold their blocks at every point (the right matrix's is fetched once and then kept), what the body
   leaves in the output's staging buffer as a function of the two input blocks, the body's run, the proof data of the
   pipeline, and the body obligation at every point. Everything holds at any float instance. -/
import proofs.«115049_j15814069584107_1_alg».proof.Proof.Gen.KernelIdeal.Launch
import proofs.«115049_j15814069584107_1_alg».proof.Proof.Gen.KernelIdeal.Skeleton
import proofs.«115049_j15814069584107_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The left matrix's staging buffer holds the point's block of rows. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The right matrix's staging buffer holds the whole matrix at every point: fetched at the first, its block index never moves. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body loads and stores through. -/
abbrev r1_a : Rect S400x5000 := Rect.unit (s := S400x5000) ![0, 0] S400x5000.size inb_S400x5000_S400x5000_0_0
abbrev r1_b : Rect S5000x128 := Rect.unit (s := S5000x128) ![0, 0] S5000x128.size inb_S5000x128_S5000x128_0_0
abbrev r1_o : Rect S400x128 := Rect.unit (s := S400x128) ![0, 0] S400x128.size inb_S400x128_S400x128_0_0

/-- The output's staging buffer after the body: its one whole-buffer store of the product of the two loaded blocks. -/
def out1_2 (x0 : Vec F S400x5000 .f32) (x1 : Vec F S5000x128 .f32) : Vec F S400x128 .f32 :=
  View.canon [⟨r1_o, k1_pay1 (View.ld x0 r1_a) (View.ld x1 r1_b)⟩]

/-- The store covers the buffer. -/
theorem cover1_2 (p0 : Vec F S400x128 .f32) (y : S400x128.Idx) :
    ∃ pc ∈ ([⟨r1_o, p0⟩] : List (View.Piece (Elt F) S400x128 .f32)), y ∈ pc.1.set :=
  View.cover_of_tiled [⟨r1_o, p0⟩] S400x128.size (by rfl) y

set_option maxHeartbeats 1000000 in
/-- The body on whole staging buffers, the inputs' at contents `x0`, `x1` and the output's at anything, returns the
    inputs' as they were and the output's at `out1_2 x0 x1`. -/
theorem sound_kernel1 (c : Dev nD) (E : Set ℕ) (i : grid1.Coords) (arg1 : Memref sig .tc .vmem S400x5000 .f32) (harg1 : arg1.IsWhole) (arg2 : Memref sig .tc .vmem S5000x128 .f32) (harg2 : arg2.IsWhole) (arg3 : Memref sig .tc .vmem S400x128 .f32) (harg3 : arg3.IsWhole)
    (x0 : Vec F S400x5000 .f32) (x1 : Vec F S5000x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__mm_kernel i arg1 harg1 arg2 harg2 arg3 harg3) K := by
  simp only [cc1__mm_kernel_eq_skeleton]; unfold cc1__mm_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of the pipeline on core `c`: the arrays as the region finds them; after the body at point `t` each
    input's buffer at its block and the output's at the product of the two blocks; the invariant is the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the body's run applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.R2.lean ====
/- Region 2: the product d_features · Wd ([5000, 383] by [383, 128]), five blocks of 1000 rows.
   One grid point multiplies one block of rows of the left matrix by the whole right matrix and stores the
   block of rows of the product. Here: what a block is when read off the arrays the region finds, that the two input
   staging buffers hold their blocks at every point (the right matrix's is fetched once and then kept), what the body
   leaves in the output's staging buffer as a function of the two input blocks, the body's run, the proof data of the
   pipeline, and the body obligation at every point. Everything holds at any float instance. -/
import proofs.«115049_j15814069584107_1_alg».proof.Proof.Gen.KernelIdeal.Launch
import proofs.«115049_j15814069584107_1_alg».proof.Proof.Gen.KernelIdeal.Skeleton
import proofs.«115049_j15814069584107_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The left matrix's staging buffer holds the point's block of rows. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The right matrix's staging buffer holds the whole matrix at every point: fetched at the first, its block index never moves. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The whole-buffer rectangles the body loads and stores through. -/
abbrev r2_a : Rect S1000x383 := Rect.unit (s := S1000x383) ![0, 0] S1000x383.size inb_S1000x383_S1000x383_0_0
abbrev r2_b : Rect S383x128 := Rect.unit (s := S383x128) ![0, 0] S383x128.size inb_S383x128_S383x128_0_0
abbrev r2_o : Rect S1000x128 := Rect.unit (s := S1000x128) ![0, 0] S1000x128.size inb_S1000x128_S1000x128_0_0

/-- The output's staging buffer after the body: its one whole-buffer store of the product of the two loaded blocks. -/
def out2_2 (x0 : Vec F S1000x383 .f32) (x1 : Vec F S383x128 .f32) : Vec F S1000x128 .f32 :=
  View.canon [⟨r2_o, k2_pay1 (View.ld x0 r2_a) (View.ld x1 r2_b)⟩]

/-- The store covers the buffer. -/
theorem cover2_2 (p0 : Vec F S1000x128 .f32) (y : S1000x128.Idx) :
    ∃ pc ∈ ([⟨r2_o, p0⟩] : List (View.Piece (Elt F) S1000x128 .f32)), y ∈ pc.1.set :=
  View.cover_of_tiled [⟨r2_o, p0⟩] S1000x128.size (by rfl) y

set_option maxHeartbeats 1000000 in
/-- The body on whole staging buffers, the inputs' at contents `x0`, `x1` and the output's at anything, returns the
    inputs' as they were and the output's at `out2_2 x0 x1`. -/
theorem sound_kernel2 (c : Dev nD) (E : Set ℕ) (i : grid2.Coords) (arg1 : Memref sig .tc .vmem S1000x383 .f32) (harg1 : arg1.IsWhole) (arg2 : Memref sig .tc .vmem S383x128 .f32) (harg2 : arg2.IsWhole) (arg3 : Memref sig .tc .vmem S1000x128 .f32) (harg3 : arg3.IsWhole)
    (x0 : Vec F S1000x383 .f32) (x1 : Vec F S383x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__mm_kernel i arg1 harg1 arg2 harg2 arg3 harg3) K := by
  simp only [cc2__mm_kernel_eq_skeleton]; unfold cc2__mm_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The proof data of the pipeline on core `c`: the arrays as the region finds them; after the body at point `t` each
    input's buffer at its block and the output's at the product of the two blocks; the invariant is the scoped rest and the
    generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so the body's run applies; the invariant and what the
    core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.R3.lean ====
/- Region 3: the product g_features · Wg ([20000, 4395] by [4395, 128]), fifty blocks of 400 rows.
   One grid point multiplies one block of rows of the left matrix by the whole right matrix and stores the
   block of rows of the product. Here: what a block is when read off the arrays the region finds, that the two input
   staging buffers hold their blocks at every point (the right matrix's is fetched once and then kept), what the body
   leaves in the output's staging buffer as a function of the two input blocks, the body's run, the proof data of the
   pipeline, and the body obligation at every point. Everything holds at any float instance. -/
import proofs.«115049_j15814069584107_1_alg».proof.Proof.Gen.KernelIdeal.Launch
import proofs.«115049_j15814069584107_1_alg».proof.Proof.Gen.KernelIdeal.Skeleton
import proofs.«115049_j15814069584107_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The left matrix's staging buffer holds the point's block of rows. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- The right matrix's staging buffer holds the whole matrix at every point: fetched at the first, its block index never moves. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The whole-buffer rectangles the body loads and stores through. -/
abbrev r3_a : Rect S400x4395 := Rect.unit (s := S400x4395) ![0, 0] S400x4395.size inb_S400x4395_S400x4395_0_0
abbrev r3_b : Rect S4395x128 := Rect.unit (s := S4395x128) ![0, 0] S4395x128.size inb_S4395x128_S4395x128_0_0
abbrev r3_o : Rect S400x128 := Rect.unit (s := S400x128) ![0, 0] S400x128.size inb_S400x128_S400x128_0_0

/-- The output's staging buffer after the body: its one whole-buffer store of the product of the two loaded blocks. -/
def out3_2 (x0 : Vec F S400x4395 .f32) (x1 : Vec F S4395x128 .f32) : Vec F S400x128 .f32 :=
  View.canon [⟨r3_o, k3_pay1 (View.ld x0 r3_a) (View.ld x1 r3_b)⟩]

/-- The store covers the buffer. -/
theorem cover3_2 (p0 : Vec F S400x128 .f32) (y : S400x128.Idx) :
    ∃ pc ∈ ([⟨r3_o, p0⟩] : List (View.Piece (Elt F) S400x128 .f32)), y ∈ pc.1.set :=
  View.cover_of_tiled [⟨r3_o, p0⟩] S400x128.size (by rfl) y

set_option maxHeartbeats 1000000 in
/-- The body on whole staging buffers, the inputs' at contents `x0`, `x1` and the output's at anything, returns the
    inputs' as they were and the output's at `out3_2 x0 x1`. -/
theorem sound_kernel3 (c : Dev nD) (E : Set ℕ) (i : grid3.Coords) (arg1 : Memref sig .tc .vmem S400x4395 .f32) (harg1 : arg1.IsWhole) (arg2 : Memref sig .tc .vmem S4395x128 .f32) (harg2 : arg2.IsWhole) (arg3 : Memref sig .tc .vmem S400x128 .f32) (harg3 : arg3.IsWhole)
    (x0 : Vec F S400x4395 .f32) (x1 : Vec F S4395x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__mm_kernel i arg1 harg1 arg2 harg2 arg3 harg3) K := by
  simp only [cc3__mm_kernel_eq_skeleton]; unfold cc3__mm_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The proof data of the pipeline on core `c`: the arrays as the region finds them; after the body at point `t` each
    input's buffer at its block and the output's at the product of the two blocks; the invariant is the scoped rest and the
    generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' buffers hold their blocks, so the body's run applies; the invariant and what the
    core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ (grid3.coords t) _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.R4.lean ====
/- Region 4: the first graph layer's linear step with its rectifier, h·Ws1 + neigh·Wn1 + b1 then max with 0, twenty-five blocks of 1000 node rows.
   One grid point takes a block of 1000 node rows and the same rows of the neighbour means, multiplies each by its
   weight matrix, adds the two products and the bias row, takes the maximum with zero, and stores the block of rows of the
   result. Here: the blocks read off the arrays the region finds, the five input staging buffers at their blocks at every
   point (the weights and the bias are fetched once and kept), the output buffer after the body as a function of the five
   input blocks, the body's run, the pipeline's proof data and the body obligation. Everything holds at any float instance. -/
import proofs.«115049_j15814069584107_1_alg».proof.Proof.Gen.KernelIdeal.Launch
import proofs.«115049_j15814069584107_1_alg».proof.Proof.Gen.KernelIdeal.Skeleton
import proofs.«115049_j15814069584107_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- the node rows' staging buffer holds its block at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- the neighbour means' staging buffer holds its block at every point, fetched there or not. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- the self weights' staging buffer holds its block at every point, fetched there or not. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
/-- the neighbour weights' staging buffer holds its block at every point, fetched there or not. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
/-- the bias row's staging buffer holds its block at every point, fetched there or not. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- The whole-buffer rectangles the body loads and stores through. -/
abbrev r4_h : Rect S1000x128 := Rect.unit (s := S1000x128) ![0, 0] S1000x128.size inb_S1000x128_S1000x128_0_0
abbrev r4_w : Rect S128x64 := Rect.unit (s := S128x64) ![0, 0] S128x64.size inb_S128x64_S128x64_0_0
abbrev r4_b : Rect S1x64 := Rect.unit (s := S1x64) ![0, 0] S1x64.size inb_S1x64_S1x64_0_0
abbrev r4_o : Rect S1000x64 := Rect.unit (s := S1000x64) ![0, 0] S1000x64.size inb_S1000x64_S1000x64_0_0

/-- The output's staging buffer after the body: its one whole-buffer store, of the five loaded blocks. -/
def out4_5 (x0 : Vec F S1000x128 .f32) (x1 : Vec F S1000x128 .f32) (x2 : Vec F S128x64 .f32) (x3 : Vec F S128x64 .f32) (x4 : Vec F S1x64 .f32) : Vec F S1000x64 .f32 :=
  View.canon [⟨r4_o, k4_pay1 (View.ld x0 r4_h) (View.ld x1 r4_h) (View.ld x2 r4_w) (View.ld x3 r4_w) (View.ld x4 r4_b)⟩]

/-- The store covers the buffer. -/
theorem cover4_5 (p0 : Vec F S1000x64 .f32) (y : S1000x64.Idx) :
    ∃ pc ∈ ([⟨r4_o, p0⟩] : List (View.Piece (Elt F) S1000x64 .f32)), y ∈ pc.1.set :=
  View.cover_of_tiled [⟨r4_o, p0⟩] S1000x64.size (by rfl) y

set_option maxHeartbeats 1000000 in
/-- The body on whole staging buffers, the inputs' at contents `x0 … x4` and the output's at anything, returns the
    inputs' as they were and the output's at `out4_5` of them. -/
theorem sound_kernel4 (c : Dev nD) (E : Set ℕ) (i : grid4.Coords) (arg1 : Memref sig .tc .vmem S1000x128 .f32) (harg1 : arg1.IsWhole) (arg2 : Memref sig .tc .vmem S1000x128 .f32) (harg2 : arg2.IsWhole) (arg3 : Memref sig .tc .vmem S128x64 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S1000x64 .f32) (harg6 : arg6.IsWhole)
    (x0 : Vec F S1000x128 .f32) (x1 : Vec F S1000x128 .f32) (x2 : Vec F S128x64 .f32) (x3 : Vec F S128x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out4_5 x0 x1 x2 x3 x4)) -∗ K ⟨⟩))
      ⊢ wp frame (wpE (defs₀ (F := F)) Variants.none c none) E (cc4__sage_lin_kernel i arg1 harg1 arg2 harg2 arg3 harg3 arg4 harg4 arg5 harg5 arg6 harg6) K := by
  simp only [cc4__sage_lin_kernel_eq_skeleton]; unfold cc4__sage_lin_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4_5 _)

/-- The proof data of the pipeline on core `c`: the arrays as the region finds them; after the body at point `t` each
    input's buffer at its block and the output's at `out4_5` of the five blocks; the invariant is the scoped rest and the
    generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = out4_5 (iblk4 V c 0 t) (iblk4 V c 1 t) (iblk4 V c 2 t) (iblk4 V c 3 t) (iblk4 V c 4 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

/-- The body at any point: the inputs' buffers hold their blocks, so the body's run applies; the invariant and what the
    core owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ (grid4.coords t) _ _ _ _ _ _ _ _ _ _ _ _ (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the pipeline, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.R5.lean ====
/- Region 5: the second graph layer's linear step, h1·Ws2 + neigh·Wn2 + b2, twenty-five blocks of 1000 node rows.
   One grid point takes a block of 1000 node rows and the same rows of the neighbour means, multiplies each by its
   weight matrix, adds the two products and the bias row, and stores the block of rows of the
   result. Here: the blocks read off the arrays the region finds, the five input staging buffers at their blocks at every
   point (the weights and the bias are fetched once and kept), the output buffer after the body as a function of the five
   input blocks, the body's run, the pipeline's proof data and the body obligation. Everything holds at any float instance. -/
import proofs.«115049_j15814069584107_1_alg».proof.Proof.Gen.KernelIdeal.Launch
import proofs.«115049_j15814069584107_1_alg».proof.Proof.Gen.KernelIdeal.Skeleton
import proofs.«115049_j15814069584107_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- the node rows' staging buffer holds its block at every point, fetched there or not. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- the neighbour means' staging buffer holds its block at every point, fetched there or not. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
/-- the self weights' staging buffer holds its block at every point, fetched there or not. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
/-- the neighbour weights' staging buffer holds its block at every point, fetched there or not. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
/-- the bias row's staging buffer holds its block at every point, fetched there or not. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- The whole-buffer rectangles the body loads and stores through. -/
abbrev r5_h : Rect S1000x64 := Rect.unit (s := S1000x64) ![0, 0] S1000x64.size inb_S1000x64_S1000x64_0_0
abbrev r5_w : Rect S64x64 := Rect.unit (s := S64x64) ![0, 0] S64x64.size inb_S64x64_S64x64_0_0
abbrev r5_b : Rect S1x64 := Rect.unit (s := S1x64) ![0, 0] S1x64.size inb_S1x64_S1x64_0_0
abbrev r5_o : Rect S1000x64 := Rect.unit (s := S1000x64) ![0, 0] S1000x64.size inb_S1000x64_S1000x64_0_0

/-- The output's staging buffer after the body: its one whole-buffer store, of the five loaded blocks. -/
def out5_5 (x0 : Vec F S1000x64 .f32) (x1 : Vec F S1000x64 .f32) (x2 : Vec F S64x64 .f32) (x3 : Vec F S64x64 .f32) (x4 : Vec F S1x64 .f32) : Vec F S1000x64 .f32 :=
  View.canon [⟨r5_o, k5_pay1 (View.ld x0 r5_h) (View.ld x1 r5_h) (View.ld x2 r5_w) (View.ld x3 r5_w) (View.ld x4 r5_b)⟩]

/-- The store covers the buffer. -/
theorem cover5_5 (p0 : Vec F S1000x64 .f32) (y : S1000x64.Idx) :
    ∃ pc ∈ ([⟨r5_o, p0⟩] : List (View.Piece (Elt F) S1000x64 .f32)), y ∈ pc.1.set :=
  View.cover_of_tiled [⟨r5_o, p0⟩] S1000x64.size (by rfl) y

set_option maxHeartbeats 1000000 in
/-- The body on whole staging buffers, the inputs' at contents `x0 … x4` and the output's at anything, returns the
    inputs' as they were and the output's at `out5_5` of them. -/
theorem sound_kernel5 (c : Dev nD) (E : Set ℕ) (i : grid5.Coords) (arg1 : Memref sig .tc .vmem S1000x64 .f32) (harg1 : arg1.IsWhole) (arg2 : Memref sig .tc .vmem S1000x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S1000x64 .f32) (harg6 : arg6.IsWhole)
    (x0 : Vec F S1000x64 .f32) (x1 : Vec F S1000x64 .f32) (x2 : Vec F S64x64 .f32) (x3 : Vec F S64x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out5_5 x0 x1 x2 x3 x4)) -∗ K ⟨⟩))
      ⊢ wp frame (wpE (defs₀ (F := F)) Variants.none c none) E (cc5__sage_lin_kernel i arg1 harg1 arg2 harg2 arg3 harg3 arg4 harg4 arg5 harg5 arg6 harg6) K := by
  simp only [cc5__sage_lin_kernel_eq_skeleton]; unfold cc5__sage_lin_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-- The proof data of the pipeline on core `c`: the arrays as the region finds them; after the body at point `t` each
    input's buffer at its block and the output's at `out5_5` of the five blocks; the invariant is the scoped rest and the
    generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-- What the body is called with at point `t`, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the inputs' buffers hold their blocks, so the body's run applies; the invariant and what the
    core owes pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ (grid5.coords t) _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the pipeline, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI.Run.lean ====
/- The run of the whole program: six kernel regions and, between the last three, two stretches of host operations.
   The contents of a core's buffers at the nine boundaries between the items are a fold from the launch memory: a
   region replaces its windows' arrays by what its write-backs leave (an input's array is left as entered) and keeps
   every other buffer; a host stretch applies its operations in order. Each region is a segment of the program over the
   thread state "every unscoped buffer whole at the boundary's contents, the generator register at some state, nothing
   owed"; the segments chain, the launch theorem runs them from any memory with zero counters, and every final memory
   holds each unscoped buffer at the last boundary's contents. No item writes an argument array, so each argument reads
   back through the fold to the launch memory; each region's output reads back, at the boundary after the region, to
   what its write-backs leave. Everything holds at any float instance. -/
import proofs.«115049_j15814069584107_1_alg».proof.Proof.Gen.KernelIdeal.Regions
import proofs.«115049_j15814069584107_1_alg».proof.Proof.KI.R0
import proofs.«115049_j15814069584107_1_alg».proof.Proof.KI.R1
import proofs.«115049_j15814069584107_1_alg».proof.Proof.KI.R2
import proofs.«115049_j15814069584107_1_alg».proof.Proof.KI.R3
import proofs.«115049_j15814069584107_1_alg».proof.Proof.KI.R4
import proofs.«115049_j15814069584107_1_alg».proof.Proof.KI.R5
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary: a fold through the program -/

/-- Core `c`'s buffers at launch (region 0's entry). -/
abbrev W0 : Dev nD → Valuation τ sig (Elt F) := fun c b => (s₀ m ρ).mem ((c : Dev nD), b)
/-- The same read at the TensorCore's references (what region 0's proof data take). -/
abbrev V0 : (c : Dev nD) → (b : Ref sig .tc) → Buf (Elt F) ((c : Thread nD τ).loc b) := fun c b => W0 m ρ c b

/-- At region 0's exit: its windows' arrays at what the pipeline leaves (an input's as entered, the output's write-backs
    folded), every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
/-- A buffer region 0 does not stage is unchanged across it. -/
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the TensorCore's references. -/
abbrev V1 : (c : Dev nD) → (b : Ref sig .tc) → Buf (Elt F) ((c : Thread nD τ).loc b) := fun c b => W1 m ρ c b
/-- At region 0's exit each of its arrays holds what the pipeline leaves and every other buffer what it held at entry. -/
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)
/-- The output of region 0 at the boundary after it: what its write-backs leave. -/
theorem W1_main_v0 (c : Dev nD) : W1 m ρ c (Proc.devRef .tc main_v0) = (dat0 (V0 m ρ) c).arrAt 2 cfg0.N :=
  W1_arr m ρ c 2
/-- Across region 0 every buffer but its output keeps its contents: a buffer no window stages bypasses the region, and an
    input window's array is left as entered. -/
theorem W1_of_ne_out (c : Dev nD) (b : Ref sig .tc) (hb : b ≠ main_v0) :
    W1 m ρ c (Proc.devRef .tc b) = W0 m ρ c (Proc.devRef .tc b) := by
  by_cases h : ∀ w, Pipeline.arrRef spec0 w ≠ b
  · exact W1_of_ne m ρ c b h
  · obtain ⟨w, hw⟩ := not_forall.mp h
    obtain rfl : Pipeline.arrRef spec0 w = b := not_not.mp hw
    match w with
    | ⟨0, _⟩ => exact (W1_arr m ρ c 0).trans (((dat0 (V0 m ρ) c).arrAt_in 0 rfl _).trans (A_eq0 (V0 m ρ) c 0))
    | ⟨1, _⟩ => exact (W1_arr m ρ c 1).trans (((dat0 (V0 m ρ) c).arrAt_in 1 rfl _).trans (A_eq0 (V0 m ρ) c 1))
    | ⟨2, _⟩ => exact absurd rfl hb

/-- At region 1's exit: its windows' arrays at what the pipeline leaves (an input's as entered, the output's write-backs
    folded), every other buffer as entered. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
/-- A buffer region 1 does not stage is unchanged across it. -/
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
/-- The same read at the TensorCore's references. -/
abbrev V2 : (c : Dev nD) → (b : Ref sig .tc) → Buf (Elt F) ((c : Thread nD τ).loc b) := fun c b => W2 m ρ c b
/-- At region 1's exit each of its arrays holds what the pipeline leaves and every other buffer what it held at entry. -/
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)
/-- The output of region 1 at the boundary after it: what its write-backs leave. -/
theorem W2_main_v1 (c : Dev nD) : W2 m ρ c (Proc.devRef .tc main_v1) = (dat1 (V1 m ρ) c).arrAt 2 cfg1.N :=
  W2_arr m ρ c 2
/-- Across region 1 every buffer but its output keeps its contents: a buffer no window stages bypasses the region, and an
    input window's array is left as entered. -/
theorem W2_of_ne_out (c : Dev nD) (b : Ref sig .tc) (hb : b ≠ main_v1) :
    W2 m ρ c (Proc.devRef .tc b) = W1 m ρ c (Proc.devRef .tc b) := by
  by_cases h : ∀ w, Pipeline.arrRef spec1 w ≠ b
  · exact W2_of_ne m ρ c b h
  · obtain ⟨w, hw⟩ := not_forall.mp h
    obtain rfl : Pipeline.arrRef spec1 w = b := not_not.mp hw
    match w with
    | ⟨0, _⟩ => exact (W2_arr m ρ c 0).trans (((dat1 (V1 m ρ) c).arrAt_in 0 rfl _).trans (A_eq1 (V1 m ρ) c 0))
    | ⟨1, _⟩ => exact (W2_arr m ρ c 1).trans (((dat1 (V1 m ρ) c).arrAt_in 1 rfl _).trans (A_eq1 (V1 m ρ) c 1))
    | ⟨2, _⟩ => exact absurd rfl hb

/-- At region 2's exit: its windows' arrays at what the pipeline leaves (an input's as entered, the output's write-backs
    folded), every other buffer as entered. -/
def W3 (c : Dev nD) : Valuation τ sig (Elt F) :=
  Pipeline.withArrays spec2 c (W2 m ρ c) fun w => (dat2 (V2 m ρ) c).arrAt w cfg2.N
theorem W3_arr (c : Dev nD) (w : Fin cfg2.W) :
    W3 m ρ c (Proc.devRef .tc (Pipeline.arrRef spec2 w)) = (dat2 (V2 m ρ) c).arrAt w cfg2.N := by
  unfold W3; exact Pipeline.withArrays_arr spec2 launch2.win.arr_inj c _ _ w
/-- A buffer region 2 does not stage is unchanged across it. -/
theorem W3_of_ne (c : Dev nD) (b : Ref sig .tc) (hb : ∀ w, Pipeline.arrRef spec2 w ≠ b) :
    W3 m ρ c (Proc.devRef .tc b) = W2 m ρ c (Proc.devRef .tc b) := by
  unfold W3; exact Pipeline.withArrays_of_ne spec2 c _ _ b hb
/-- The same read at the TensorCore's references. -/
abbrev V3 : (c : Dev nD) → (b : Ref sig .tc) → Buf (Elt F) ((c : Thread nD τ).loc b) := fun c b => W3 m ρ c b
/-- At region 2's exit each of its arrays holds what the pipeline leaves and every other buffer what it held at entry. -/
theorem hF2 (c : Dev nD) (w : Fin cfg2.W) : (dat2 (V2 m ρ) c).arrAt w cfg2.N = V3 m ρ c (Pipeline.arrRef spec2 w) :=
  (W3_arr m ρ c w).symm
theorem hrest2 (c : Dev nD) : ∀ b, b ∉ Finset.univ.image (Pipeline.arrRef spec2) → V3 m ρ c b = V2 m ρ c b :=
  fun b hb => W3_of_ne m ρ c b fun w e => hb (Finset.mem_image.mpr ⟨w, Finset.mem_univ _, e⟩)
/-- The output of region 2 at the boundary after it: what its write-backs leave. -/
theorem W3_main_v2 (c : Dev nD) : W3 m ρ c (Proc.devRef .tc main_v2) = (dat2 (V2 m ρ) c).arrAt 2 cfg2.N :=
  W3_arr m ρ c 2
/-- Across region 2 every buffer but its output keeps its contents: a buffer no window stages bypasses the region, and an
    input window's array is left as entered. -/
theorem W3_of_ne_out (c : Dev nD) (b : Ref sig .tc) (hb : b ≠ main_v2) :
    W3 m ρ c (Proc.devRef .tc b) = W2 m ρ c (Proc.devRef .tc b) := by
  by_cases h : ∀ w, Pipeline.arrRef spec2 w ≠ b
  · exact W3_of_ne m ρ c b h
  · obtain ⟨w, hw⟩ := not_forall.mp h
    obtain rfl : Pipeline.arrRef spec2 w = b := not_not.mp hw
    match w with
    | ⟨0, _⟩ => exact (W3_arr m ρ c 0).trans (((dat2 (V2 m ρ) c).arrAt_in 0 rfl _).trans (A_eq2 (V2 m ρ) c 0))
    | ⟨1, _⟩ => exact (W3_arr m ρ c 1).trans (((dat2 (V2 m ρ) c).arrAt_in 1 rfl _).trans (A_eq2 (V2 m ρ) c 1))
    | ⟨2, _⟩ => exact absurd rfl hb

/-- At region 3's exit: its windows' arrays at what the pipeline leaves (an input's as entered, the output's write-backs
    folded), every other buffer as entered. -/
def W4 (c : Dev nD) : Valuation τ sig (Elt F) :=
  Pipeline.withArrays spec3 c (W3 m ρ c) fun w => (dat3 (V3 m ρ) c).arrAt w cfg3.N
theorem W4_arr (c : Dev nD) (w : Fin cfg3.W) :
    W4 m ρ c (Proc.devRef .tc (Pipeline.arrRef spec3 w)) = (dat3 (V3 m ρ) c).arrAt w cfg3.N := by
  unfold W4; exact Pipeline.withArrays_arr spec3 launch3.win.arr_inj c _ _ w
/-- A buffer region 3 does not stage is unchanged across it. -/
theorem W4_of_ne (c : Dev nD) (b : Ref sig .tc) (hb : ∀ w, Pipeline.arrRef spec3 w ≠ b) :
    W4 m ρ c (Proc.devRef .tc b) = W3 m ρ c (Proc.devRef .tc b) := by
  unfold W4; exact Pipeline.withArrays_of_ne spec3 c _ _ b hb
/-- The same read at the TensorCore's references. -/
abbrev V4 : (c : Dev nD) → (b : Ref sig .tc) → Buf (Elt F) ((c : Thread nD τ).loc b) := fun c b => W4 m ρ c b
/-- At region 3's exit each of its arrays holds what the pipeline leaves and every other buffer what it held at entry. -/
theorem hF3 (c : Dev nD) (w : Fin cfg3.W) : (dat3 (V3 m ρ) c).arrAt w cfg3.N = V4 m ρ c (Pipeline.arrRef spec3 w) :=
  (W4_arr m ρ c w).symm
theorem hrest3 (c : Dev nD) : ∀ b, b ∉ Finset.univ.image (Pipeline.arrRef spec3) → V4 m ρ c b = V3 m ρ c b :=
  fun b hb => W4_of_ne m ρ c b fun w e => hb (Finset.mem_image.mpr ⟨w, Finset.mem_univ _, e⟩)
/-- The output of region 3 at the boundary after it: what its write-backs leave. -/
theorem W4_main_v3 (c : Dev nD) : W4 m ρ c (Proc.devRef .tc main_v3) = (dat3 (V3 m ρ) c).arrAt 2 cfg3.N :=
  W4_arr m ρ c 2
/-- Across region 3 every buffer but its output keeps its contents: a buffer no window stages bypasses the region, and an
    input window's array is left as entered. -/
theorem W4_of_ne_out (c : Dev nD) (b : Ref sig .tc) (hb : b ≠ main_v3) :
    W4 m ρ c (Proc.devRef .tc b) = W3 m ρ c (Proc.devRef .tc b) := by
  by_cases h : ∀ w, Pipeline.arrRef spec3 w ≠ b
  · exact W4_of_ne m ρ c b h
  · obtain ⟨w, hw⟩ := not_forall.mp h
    obtain rfl : Pipeline.arrRef spec3 w = b := not_not.mp hw
    match w with
    | ⟨0, _⟩ => exact (W4_arr m ρ c 0).trans (((dat3 (V3 m ρ) c).arrAt_in 0 rfl _).trans (A_eq3 (V3 m ρ) c 0))
    | ⟨1, _⟩ => exact (W4_arr m ρ c 1).trans (((dat3 (V3 m ρ) c).arrAt_in 1 rfl _).trans (A_eq3 (V3 m ρ) c 1))
    | ⟨2, _⟩ => exact absurd rfl hb

/-- After the host stretch `hostOps4` (the next region's entry). -/
abbrev W5 : Dev nD → Valuation τ sig (Elt F) := fun c => StableHlo.after hostOps4 (W4 m ρ c)
/-- The same read at the TensorCore's references. -/
abbrev V5 : (c : Dev nD) → (b : Ref sig .tc) → Buf (Elt F) ((c : Thread nD τ).loc b) := fun c b => W5 m ρ c b
/-- A buffer no operation of `hostOps4` writes is unchanged across the stretch. -/
theorem W5_of (c : Dev nD) (b : Ref sig .tc) (hb : b ∉ hostOps4_W) :
    W5 m ρ c (Proc.devRef .tc b) = W4 m ρ c (Proc.devRef .tc b) :=
  StableHlo.after_of_writes_sub hostOps4 _ hostOps4_writes hb

/-- At region 4's exit: its windows' arrays at what the pipeline leaves (an input's as entered, the output's write-backs
    folded), every other buffer as entered. -/
def W6 (c : Dev nD) : Valuation τ sig (Elt F) :=
  Pipeline.withArrays spec4 c (W5 m ρ c) fun w => (dat4 (V5 m ρ) c).arrAt w cfg4.N
theorem W6_arr (c : Dev nD) (w : Fin cfg4.W) :
    W6 m ρ c (Proc.devRef .tc (Pipeline.arrRef spec4 w)) = (dat4 (V5 m ρ) c).arrAt w cfg4.N := by
  unfold W6; exact Pipeline.withArrays_arr spec4 launch4.win.arr_inj c _ _ w
/-- A buffer region 4 does not stage is unchanged across it. -/
theorem W6_of_ne (c : Dev nD) (b : Ref sig .tc) (hb : ∀ w, Pipeline.arrRef spec4 w ≠ b) :
    W6 m ρ c (Proc.devRef .tc b) = W5 m ρ c (Proc.devRef .tc b) := by
  unfold W6; exact Pipeline.withArrays_of_ne spec4 c _ _ b hb
/-- The same read at the TensorCore's references. -/
abbrev V6 : (c : Dev nD) → (b : Ref sig .tc) → Buf (Elt F) ((c : Thread nD τ).loc b) := fun c b => W6 m ρ c b
/-- At region 4's exit each of its arrays holds what the pipeline leaves and every other buffer what it held at entry. -/
theorem hF4 (c : Dev nD) (w : Fin cfg4.W) : (dat4 (V5 m ρ) c).arrAt w cfg4.N = V6 m ρ c (Pipeline.arrRef spec4 w) :=
  (W6_arr m ρ c w).symm
theorem hrest4 (c : Dev nD) : ∀ b, b ∉ Finset.univ.image (Pipeline.arrRef spec4) → V6 m ρ c b = V5 m ρ c b :=
  fun b hb => W6_of_ne m ρ c b fun w e => hb (Finset.mem_image.mpr ⟨w, Finset.mem_univ _, e⟩)
/-- The output of region 4 at the boundary after it: what its write-backs leave. -/
theorem W6_main_v41 (c : Dev nD) : W6 m ρ c (Proc.devRef .tc main_v41) = (dat4 (V5 m ρ) c).arrAt 5 cfg4.N :=
  W6_arr m ρ c 5
/-- Across region 4 every buffer but its output keeps its contents: a buffer no window stages bypasses the region, and an
    input window's array is left as entered. -/
theorem W6_of_ne_out (c : Dev nD) (b : Ref sig .tc) (hb : b ≠ main_v41) :
    W6 m ρ c (Proc.devRef .tc b) = W5 m ρ c (Proc.devRef .tc b) := by
  by_cases h : ∀ w, Pipeline.arrRef spec4 w ≠ b
  · exact W6_of_ne m ρ c b h
  · obtain ⟨w, hw⟩ := not_forall.mp h
    obtain rfl : Pipeline.arrRef spec4 w = b := not_not.mp hw
    match w with
    | ⟨0, _⟩ => exact (W6_arr m ρ c 0).trans (((dat4 (V5 m ρ) c).arrAt_in 0 rfl _).trans (A_eq4 (V5 m ρ) c 0))
    | ⟨1, _⟩ => exact (W6_arr m ρ c 1).trans (((dat4 (V5 m ρ) c).arrAt_in 1 rfl _).trans (A_eq4 (V5 m ρ) c 1))
    | ⟨2, _⟩ => exact (W6_arr m ρ c 2).trans (((dat4 (V5 m ρ) c).arrAt_in 2 rfl _).trans (A_eq4 (V5 m ρ) c 2))
    | ⟨3, _⟩ => exact (W6_arr m ρ c 3).trans (((dat4 (V5 m ρ) c).arrAt_in 3 rfl _).trans (A_eq4 (V5 m ρ) c 3))
    | ⟨4, _⟩ => exact (W6_arr m ρ c 4).trans (((dat4 (V5 m ρ) c).arrAt_in 4 rfl _).trans (A_eq4 (V5 m ρ) c 4))
    | ⟨5, _⟩ => exact absurd rfl hb

/-- After the host stretch `hostOps5` (the next region's entry). -/
abbrev W7 : Dev nD → Valuation τ sig (Elt F) := fun c => StableHlo.after hostOps5 (W6 m ρ c)
/-- The same read at the TensorCore's references. -/
abbrev V7 : (c : Dev nD) → (b : Ref sig .tc) → Buf (Elt F) ((c : Thread nD τ).loc b) := fun c b => W7 m ρ c b
/-- A buffer no operation of `hostOps5` writes is unchanged across the stretch. -/
theorem W7_of (c : Dev nD) (b : Ref sig .tc) (hb : b ∉ hostOps5_W) :
    W7 m ρ c (Proc.devRef .tc b) = W6 m ρ c (Proc.devRef .tc b) :=
  StableHlo.after_of_writes_sub hostOps5 _ hostOps5_writes hb

/-- At region 5's exit: its windows' arrays at what the pipeline leaves (an input's as entered, the output's write-backs
    folded), every other buffer as entered. -/
def W8 (c : Dev nD) : Valuation τ sig (Elt F) :=
  Pipeline.withArrays spec5 c (W7 m ρ c) fun w => (dat5 (V7 m ρ) c).arrAt w cfg5.N
theorem W8_arr (c : Dev nD) (w : Fin cfg5.W) :
    W8 m ρ c (Proc.devRef .tc (Pipeline.arrRef spec5 w)) = (dat5 (V7 m ρ) c).arrAt w cfg5.N := by
  unfold W8; exact Pipeline.withArrays_arr spec5 launch5.win.arr_inj c _ _ w
/-- A buffer region 5 does not stage is unchanged across it. -/
theorem W8_of_ne (c : Dev nD) (b : Ref sig .tc) (hb : ∀ w, Pipeline.arrRef spec5 w ≠ b) :
    W8 m ρ c (Proc.devRef .tc b) = W7 m ρ c (Proc.devRef .tc b) := by
  unfold W8; exact Pipeline.withArrays_of_ne spec5 c _ _ b hb
/-- The same read at the TensorCore's references. -/
abbrev V8 : (c : Dev nD) → (b : Ref sig .tc) → Buf (Elt F) ((c : Thread nD τ).loc b) := fun c b => W8 m ρ c b
/-- At region 5's exit each of its arrays holds what the pipeline leaves and every other buffer what it held at entry. -/
theorem hF5 (c : Dev nD) (w : Fin cfg5.W) : (dat5 (V7 m ρ) c).arrAt w cfg5.N = V8 m ρ c (Pipeline.arrRef spec5 w) :=
  (W8_arr m ρ c w).symm
theorem hrest5 (c : Dev nD) : ∀ b, b ∉ Finset.univ.image (Pipeline.arrRef spec5) → V8 m ρ c b = V7 m ρ c b :=
  fun b hb => W8_of_ne m ρ c b fun w e => hb (Finset.mem_image.mpr ⟨w, Finset.mem_univ _, e⟩)
/-- The output of region 5 at the boundary after it: what its write-backs leave. -/
theorem W8_main_v62 (c : Dev nD) : W8 m ρ c (Proc.devRef .tc main_v62) = (dat5 (V7 m ρ) c).arrAt 5 cfg5.N :=
  W8_arr m ρ c 5
/-- Across region 5 every buffer but its output keeps its contents: a buffer no window stages bypasses the region, and an
    input window's array is left as entered. -/
theorem W8_of_ne_out (c : Dev nD) (b : Ref sig .tc) (hb : b ≠ main_v62) :
    W8 m ρ c (Proc.devRef .tc b) = W7 m ρ c (Proc.devRef .tc b) := by
  by_cases h : ∀ w, Pipeline.arrRef spec5 w ≠ b
  · exact W8_of_ne m ρ c b h
  · obtain ⟨w, hw⟩ := not_forall.mp h
    obtain rfl : Pipeline.arrRef spec5 w = b := not_not.mp hw
    match w with
    | ⟨0, _⟩ => exact (W8_arr m ρ c 0).trans (((dat5 (V7 m ρ) c).arrAt_in 0 rfl _).trans (A_eq5 (V7 m ρ) c 0))
    | ⟨1, _⟩ => exact (W8_arr m ρ c 1).trans (((dat5 (V7 m ρ) c).arrAt_in 1 rfl _).trans (A_eq5 (V7 m ρ) c 1))
    | ⟨2, _⟩ => exact (W8_arr m ρ c 2).trans (((dat5 (V7 m ρ) c).arrAt_in 2 rfl _).trans (A_eq5 (V7 m ρ) c 2))
    | ⟨3, _⟩ => exact (W8_arr m ρ c 3).trans (((dat5 (V7 m ρ) c).arrAt_in 3 rfl _).trans (A_eq5 (V7 m ρ) c 3))
    | ⟨4, _⟩ => exact (W8_arr m ρ c 4).trans (((dat5 (V7 m ρ) c).arrAt_in 4 rfl _).trans (A_eq5 (V7 m ρ) c 4))
    | ⟨5, _⟩ => exact absurd rfl hb

/-! ### A buffer nothing has written yet holds its launch contents

At each boundary, a buffer that is the output of no earlier region and that no earlier host operation writes reads back
through the fold to the launch memory. No item writes an argument array, so every argument does at every boundary. -/

theorem W0_eq (c : Dev nD) (b : Ref sig .tc) : W0 m ρ c (Proc.devRef .tc b) = m ((c : Thread nD τ).loc b) := rfl
theorem W1_of_unwritten (c : Dev nD) (b : Ref sig .tc) (hb : b ∉ ([main_v0] : List (Ref sig .tc))) :
    W1 m ρ c (Proc.devRef .tc b) = m ((c : Thread nD τ).loc b) :=
  (W1_of_ne_out m ρ c b (List.ne_of_not_mem_cons hb)).trans (W0_eq m ρ c b)
theorem W2_of_unwritten (c : Dev nD) (b : Ref sig .tc) (hb : b ∉ ([main_v1, main_v0] : List (Ref sig .tc))) :
    W2 m ρ c (Proc.devRef .tc b) = m ((c : Thread nD τ).loc b) :=
  (W2_of_ne_out m ρ c b (List.ne_of_not_mem_cons hb)).trans (W1_of_unwritten m ρ c b (List.not_mem_of_not_mem_cons hb))
theorem W3_of_unwritten (c : Dev nD) (b : Ref sig .tc) (hb : b ∉ ([main_v2, main_v1, main_v0] : List (Ref sig .tc))) :
    W3 m ρ c (Proc.devRef .tc b) = m ((c : Thread nD τ).loc b) :=
  (W3_of_ne_out m ρ c b (List.ne_of_not_mem_cons hb)).trans (W2_of_unwritten m ρ c b (List.not_mem_of_not_mem_cons hb))
theorem W4_of_unwritten (c : Dev nD) (b : Ref sig .tc) (hb : b ∉ ([main_v3, main_v2, main_v1, main_v0] : List (Ref sig .tc))) :
    W4 m ρ c (Proc.devRef .tc b) = m ((c : Thread nD τ).loc b) :=
  (W4_of_ne_out m ρ c b (List.ne_of_not_mem_cons hb)).trans (W3_of_unwritten m ρ c b (List.not_mem_of_not_mem_cons hb))
theorem W5_of_unwritten (c : Dev nD) (b : Ref sig .tc) (hb : b ∉ ([main_v3, main_v2, main_v1, main_v0] : List (Ref sig .tc)))
    (h4 : b ∉ hostOps4_W) : W5 m ρ c (Proc.devRef .tc b) = m ((c : Thread nD τ).loc b) :=
  (W5_of m ρ c b h4).trans (W4_of_unwritten m ρ c b hb)
theorem W6_of_unwritten (c : Dev nD) (b : Ref sig .tc) (hb : b ∉ ([main_v41, main_v3, main_v2, main_v1, main_v0] : List (Ref sig .tc)))
    (h4 : b ∉ hostOps4_W) : W6 m ρ c (Proc.devRef .tc b) = m ((c : Thread nD τ).loc b) :=
  (W6_of_ne_out m ρ c b (List.ne_of_not_mem_cons hb)).trans (W5_of_unwritten m ρ c b (List.not_mem_of_not_mem_cons hb) h4)
theorem W7_of_unwritten (c : Dev nD) (b : Ref sig .tc) (hb : b ∉ ([main_v41, main_v3, main_v2, main_v1, main_v0] : List (Ref sig .tc)))
    (h4 : b ∉ hostOps4_W) (h5 : b ∉ hostOps5_W) : W7 m ρ c (Proc.devRef .tc b) = m ((c : Thread nD τ).loc b) :=
  (W7_of m ρ c b h5).trans (W6_of_unwritten m ρ c b hb h4)
theorem W8_of_unwritten (c : Dev nD) (b : Ref sig .tc) (hb : b ∉ ([main_v62, main_v41, main_v3, main_v2, main_v1, main_v0] : List (Ref sig .tc)))
    (h4 : b ∉ hostOps4_W) (h5 : b ∉ hostOps5_W) : W8 m ρ c (Proc.devRef .tc b) = m ((c : Thread nD τ).loc b) :=
  (W8_of_ne_out m ρ c b (List.ne_of_not_mem_cons hb)).trans (W7_of_unwritten m ρ c b (List.not_mem_of_not_mem_cons hb) h4 h5)

theorem W8_main_arg0 (c : Dev nD) : W8 m ρ c (Proc.devRef .tc main_arg0) = m ((c : Thread nD τ).loc main_arg0) :=
  W8_of_unwritten m ρ c main_arg0 (by decide) (by decide) (by decide)
theorem W8_main_arg1 (c : Dev nD) : W8 m ρ c (Proc.devRef .tc main_arg1) = m ((c : Thread nD τ).loc main_arg1) :=
  W8_of_unwritten m ρ c main_arg1 (by decide) (by decide) (by decide)
theorem W8_main_arg2 (c : Dev nD) : W8 m ρ c (Proc.devRef .tc main_arg2) = m ((c : Thread nD τ).loc main_arg2) :=
  W8_of_unwritten m ρ c main_arg2 (by decide) (by decide) (by decide)
theorem W8_main_arg3 (c : Dev nD) : W8 m ρ c (Proc.devRef .tc main_arg3) = m ((c : Thread nD τ).loc main_arg3) :=
  W8_of_unwritten m ρ c main_arg3 (by decide) (by decide) (by decide)
theorem W8_main_arg4 (c : Dev nD) : W8 m ρ c (Proc.devRef .tc main_arg4) = m ((c : Thread nD τ).loc main_arg4) :=
  W8_of_unwritten m ρ c main_arg4 (by decide) (by decide) (by decide)
theorem W8_main_arg5 (c : Dev nD) : W8 m ρ c (Proc.devRef .tc main_arg5) = m ((c : Thread nD τ).loc main_arg5) :=
  W8_of_unwritten m ρ c main_arg5 (by decide) (by decide) (by decide)
theorem W8_main_arg6 (c : Dev nD) : W8 m ρ c (Proc.devRef .tc main_arg6) = m ((c : Thread nD τ).loc main_arg6) :=
  W8_of_unwritten m ρ c main_arg6 (by decide) (by decide) (by decide)
theorem W8_main_arg7 (c : Dev nD) : W8 m ρ c (Proc.devRef .tc main_arg7) = m ((c : Thread nD τ).loc main_arg7) :=
  W8_of_unwritten m ρ c main_arg7 (by decide) (by decide) (by decide)
theorem W8_main_arg8 (c : Dev nD) : W8 m ρ c (Proc.devRef .tc main_arg8) = m ((c : Thread nD τ).loc main_arg8) :=
  W8_of_unwritten m ρ c main_arg8 (by decide) (by decide) (by decide)
theorem W8_main_arg9 (c : Dev nD) : W8 m ρ c (Proc.devRef .tc main_arg9) = m ((c : Thread nD τ).loc main_arg9) :=
  W8_of_unwritten m ρ c main_arg9 (by decide) (by decide) (by decide)
theorem W8_main_arg10 (c : Dev nD) : W8 m ρ c (Proc.devRef .tc main_arg10) = m ((c : Thread nD τ).loc main_arg10) :=
  W8_of_unwritten m ρ c main_arg10 (by decide) (by decide) (by decide)
theorem W8_main_arg11 (c : Dev nD) : W8 m ρ c (Proc.devRef .tc main_arg11) = m ((c : Thread nD τ).loc main_arg11) :=
  W8_of_unwritten m ρ c main_arg11 (by decide) (by decide) (by decide)
theorem W8_main_arg12 (c : Dev nD) : W8 m ρ c (Proc.devRef .tc main_arg12) = m ((c : Thread nD τ).loc main_arg12) :=
  W8_of_unwritten m ρ c main_arg12 (by decide) (by decide) (by decide)
theorem W8_main_arg13 (c : Dev nD) : W8 m ρ c (Proc.devRef .tc main_arg13) = m ((c : Thread nD τ).loc main_arg13) :=
  W8_of_unwritten m ρ c main_arg13 (by decide) (by decide) (by decide)
theorem W8_main_arg14 (c : Dev nD) : W8 m ρ c (Proc.devRef .tc main_arg14) = m ((c : Thread nD τ).loc main_arg14) :=
  W8_of_unwritten m ρ c main_arg14 (by decide) (by decide) (by decide)
theorem W8_main_arg15 (c : Dev nD) : W8 m ρ c (Proc.devRef .tc main_arg15) = m ((c : Thread nD τ).loc main_arg15) :=
  W8_of_unwritten m ρ c main_arg15 (by decide) (by decide) (by decide)
theorem W8_main_arg16 (c : Dev nD) : W8 m ρ c (Proc.devRef .tc main_arg16) = m ((c : Thread nD τ).loc main_arg16) :=
  W8_of_unwritten m ρ c main_arg16 (by decide) (by decide) (by decide)
theorem W8_main_arg17 (c : Dev nD) : W8 m ρ c (Proc.devRef .tc main_arg17) = m ((c : Thread nD τ).loc main_arg17) :=
  W8_of_unwritten m ρ c main_arg17 (by decide) (by decide) (by decide)

/-- The last region's output at the end of the program. -/
theorem W8_out (c : Dev nD) : W8 m ρ c (Proc.devRef .tc main_v62) = (dat5 (V7 m ρ) c).arrAt 5 cfg5.N := W8_main_v62 m ρ c

/-! ### The first four regions' outputs at the entry of the first host stretch: no later region stages or writes them -/

theorem W4_main_v0 (c : Dev nD) : W4 m ρ c (Proc.devRef .tc main_v0) = (dat0 (V0 m ρ) c).arrAt 2 cfg0.N :=
  (W4_of_ne_out m ρ c main_v0 (by decide)).trans <| (W3_of_ne_out m ρ c main_v0 (by decide)).trans <|
    (W2_of_ne_out m ρ c main_v0 (by decide)).trans (W1_main_v0 m ρ c)
theorem W4_main_v1 (c : Dev nD) : W4 m ρ c (Proc.devRef .tc main_v1) = (dat1 (V1 m ρ) c).arrAt 2 cfg1.N :=
  (W4_of_ne_out m ρ c main_v1 (by decide)).trans <| (W3_of_ne_out m ρ c main_v1 (by decide)).trans (W2_main_v1 m ρ c)
theorem W4_main_v2 (c : Dev nD) : W4 m ρ c (Proc.devRef .tc main_v2) = (dat2 (V2 m ρ) c).arrAt 2 cfg2.N :=
  (W4_of_ne_out m ρ c main_v2 (by decide)).trans (W3_main_v2 m ρ c)

/-! ## The proof data family and the thread state -/

/-- Every pipeline's proof data, each at its region's entry contents. -/
def pdats : (p : Fin 6) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
  | ⟨2, _⟩ => fun c => dat2 (V2 m ρ) c
  | ⟨3, _⟩ => fun c => dat3 (V3 m ρ) c
  | ⟨4, _⟩ => fun c => dat4 (V5 m ρ) c
  | ⟨5, _⟩ => fun c => dat5 (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and what it owes,
    nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last boundary's contents, the generator
    register at some state. -/
abbrev Tₙ (c : Dev nD) : sProp 𝕄 := iprop(StableHlo.held (c : Thread nD τ) (Pipeline.ucRefs τ sig) (W8 m ρ c) ∗ ∃ r, prngReg c r)

/-! ## The regions as segments -/

set_option backward.isDefEq.respectTransparency.types false in
/-- Region 0 over the thread state: entered from every unscoped buffer at `W0`, left at `W1`. Its arrays are split out of
    the unscoped buffers and put back at the exit contents; the generator register goes into the region's invariant and comes
    back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun c t => owed_eq0 (V0 m ρ) c t
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun w => q_eq0 (V0 m ρ) c w) (V0 m ρ c) fun w => A_eq0 (V0 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show ∀ t, (pdats m ρ 0 c).owed t = 0 from fun t => owed_eq0 (V0 m ρ) c t]
      icases HO with ⟨%W, HO⟩; iexists W; isplitr
      · ipureintro; exact fun _ _ => Or.inl ((Set.ext_iff.mp (recorded_eq0 (V0 m ρ) c 0) _).2 (Set.mem_univ _))
      iexact HO
    isplitl [Hp]; · iexact Hp
    iexact Hrest
  hin c := hin0 (V0 m ρ) c _
  hout c := by
    rw [Pipeline.ownSems0_none]
    exact hout0 (V0 m ρ) c
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun w => q_eq0 (V0 m ρ) c w)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show ∀ t, (pdats m ρ 0 c).owed t = 0 from fun t => owed_eq0 (V0 m ρ) c t]
    icases HO with ⟨%W, -, HO⟩; iexists W; iexact HO

set_option backward.isDefEq.respectTransparency.types false in
/-- Region 1 over the thread state: entered from every unscoped buffer at `W1`, left at `W2`. Its arrays are split out of
    the unscoped buffers and put back at the exit contents; the generator register goes into the region's invariant and comes
    back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W2`, left at `W3`. Its arrays are split out of
    the unscoped buffers and put back at the exit contents; the generator register goes into the region's invariant and comes
    back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V2 m ρ) c).loose
  hwaits := Pipeline.hwaits_of_owed_zero _ _ _ _ L lv 2 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec2 c (V2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V2 m ρ c) (V3 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W3`, left at `W4`. Its arrays are split out of
    the unscoped buffers and put back at the exit contents; the generator register goes into the region's invariant and comes
    back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V3 m ρ) c).loose
  hwaits := Pipeline.hwaits_of_owed_zero _ _ _ _ L lv 3 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec3 c (V3 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V3 m ρ c) (V4 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W5`, left at `W6`. Its arrays are split out of
    the unscoped buffers and put back at the exit contents; the generator register goes into the region's invariant and comes
    back; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V5 m ρ) c).loose
  hwaits := Pipeline.hwaits_of_owed_zero _ _ _ _ L lv 4 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec4 c (V5 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V5 m ρ c) (V6 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at `W7`, left at `W8`. Its arrays are split out of
    the unscoped buffers and put back at the exit contents; the generator register goes into the region's invariant and comes
    back; nothing is owed; the kernel has no semaphore of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V7 m ρ) c).loose
  hwaits := Pipeline.hwaits_of_owed_zero _ _ _ _ L lv 5 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec5 c (V7 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V7 m ρ c) (V8 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's eight segments in order: a region per kernel call, a host segment per stretch from its boundary's contents. -/
abbrev segs : List (Pipeline.Seg (pcfgs (F := F)) adm (pdats m ρ) () defs₀ 𝒱₀ L lv) :=
  [ .region (reg0 m ρ),
    .region (reg1 m ρ),
    .region (reg2 m ρ),
    .region (reg3 m ρ),
    .host (hseg hostOps4 hostOps4_sub hostOps4_fresh (W4 m ρ)),
    .region (reg4 m ρ),
    .host (hseg hostOps5 hostOps5_sub hostOps5_fresh (W6 m ρ)),
    .region (reg5 m ρ) ]
/-- The program is the run of the segments: it is the chain of its items, and the segments' run is that chain. -/
theorem main_run (c : Dev nD) : main (F := F) c = Pipeline.Seg.run (segs m ρ) := (main_chain c).trans (by chain_rfl)

set_option backward.isDefEq.respectTransparency.types false in
/-- The run: from any memory with zero counters every weakly fair execution of the program on the TensorCores terminates,
    nothing faulting, and every final memory holds each unscoped buffer of each core at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- The frame: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c =>
    ⟨(h c _ (mem_uc main_arg0 (by decide))).trans (W8_main_arg0 m ρ c),
      (h c _ (mem_uc main_arg1 (by decide))).trans (W8_main_arg1 m ρ c),
      (h c _ (mem_uc main_arg2 (by decide))).trans (W8_main_arg2 m ρ c),
      (h c _ (mem_uc main_arg3 (by decide))).trans (W8_main_arg3 m ρ c),
      (h c _ (mem_uc main_arg4 (by decide))).trans (W8_main_arg4 m ρ c),
      (h c _ (mem_uc main_arg5 (by decide))).trans (W8_main_arg5 m ρ c),
      (h c _ (mem_uc main_arg6 (by decide))).trans (W8_main_arg6 m ρ c),
      (h c _ (mem_uc main_arg7 (by decide))).trans (W8_main_arg7 m ρ c),
      (h c _ (mem_uc main_arg8 (by decide))).trans (W8_main_arg8 m ρ c),
      (h c _ (mem_uc main_arg9 (by decide))).trans (W8_main_arg9 m ρ c),
      (h c _ (mem_uc main_arg10 (by decide))).trans (W8_main_arg10 m ρ c),
      (h c _ (mem_uc main_arg11 (by decide))).trans (W8_main_arg11 m ρ c),
      (h c _ (mem_uc main_arg12 (by decide))).trans (W8_main_arg12 m ρ c),
      (h c _ (mem_uc main_arg13 (by decide))).trans (W8_main_arg13 m ρ c),
      (h c _ (mem_uc main_arg14 (by decide))).trans (W8_main_arg14 m ρ c),
      (h c _ (mem_uc main_arg15 (by decide))).trans (W8_main_arg15 m ρ c),
      (h c _ (mem_uc main_arg16 (by decide))).trans (W8_main_arg16 m ρ c),
      (h c _ (mem_uc main_arg17 (by decide))).trans (W8_main_arg17 m ρ c)⟩) (run m ρ)

end Cert.KernelIdeal.Hand

end
-- ==== Proof.KI.Val0.lean ====
/- Region 0's value at the extended reals: the result array of the first call, entry by entry. The body adds, at each of
   the ten grid points, the product of the transposed block of 200 rows of the left matrix (2000 by 5000) with the block
   of 200 rows of the right matrix (2000 by 128) to a scratch that the first point fills with zeros, and the last point
   copies the scratch into the one block of the 5000 by 128 result. So entry (i, j) of the result is the sum over the ten
   blocks t and the 200 rows r of a block of left (200 t + r, i) times right (200 t + r, j): the sum over all 2000 rows k
   of left (k, i) times right (k, j) — sums of extended reals commute and associate, so no finiteness is used. Here: the
   two stored values at an index (a change of float format is the identity, the product into a zero accumulator is the
   sum over its one contracted axis); the blocks read off the arrays; the scratch after each point, by induction on the
   point; ten blocks of 200 rows regrouped as 2000 rows; the one write-back, which covers the result array. -/
import proofs.«115049_j15814069584107_1_alg».proof.Proof.KI.R0
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)

/-! ## The two payloads at an index -/

/-- The dimension numbers of the body's product: both operands contracted over their rows. -/
abbrev D0 : DotDims S200x5000 S200x128 S5000x128 := dot_S200x5000_S200x128_S5000x128_0_0_1_1_n_n

theorem lhs0_0 (j : S5000x128.Idx) (q : D0.contr.Idx) : (D0.lhsIdx j q 0).val = (q ⟨0, by decide⟩).val :=
  D0.lhsIdx_val_of_single rfl j q
theorem lhs0_1 (j : S5000x128.Idx) (q : D0.contr.Idx) : (D0.lhsIdx j q 1).val = (j 0).val := by
  unfold DotDims.lhsIdx
  rw [dif_neg (show ¬(1 : Fin S200x5000.rank) ∈ D0.lhsBatch by decide), dif_pos (show (1 : Fin S200x5000.rank) ∈ D0.lhsNonContracting by decide)]
  rfl
theorem rhs0_0 (j : S5000x128.Idx) (q : D0.contr.Idx) : (D0.rhsIdx j q 0).val = (q ⟨0, by decide⟩).val :=
  D0.rhsIdx_val_of_single rfl j q
theorem rhs0_1 (j : S5000x128.Idx) (q : D0.contr.Idx) : (D0.rhsIdx j q 1).val = (j 1).val := by
  unfold DotDims.rhsIdx
  rw [dif_neg (show ¬(1 : Fin S200x128.rank) ∈ D0.rhsBatch by decide), dif_pos (show (1 : Fin S200x128.rank) ∈ D0.rhsNonContracting by decide)]
  rfl

/-- The zero fill reads zero everywhere. -/
theorem zeroFill0_apply (y : S5000x128.Idx) : k0_pay1 (F := Ideal) y = 0 := by
  unfold k0_pay1
  rw [shapeCast_self]
  exact Ideal.ofBits_zero_f32

/-- The accumulation at an index: entry (i, j) of the scratch gains the sum over the block's 200 rows r of
    left (r, i) times right (r, j). -/
theorem accum0_apply (x0 : Vec Ideal S200x5000 .f32) (x1 : Vec Ideal S200x128 .f32) (a : Vec Ideal S5000x128 .f32)
    (i : Fin 5000) (j : Fin 128) :
    k0_pay2 x0 x1 a (ix2 i j) = a (ix2 i j) + ∑ r : Fin 200, x0 (ix2 r i) * x1 (ix2 r j) := by
  unfold k0_pay2
  rw [shapeCast_self]
  refine (addf_apply _ _ _).trans ?_
  refine congrArg (a (ix2 i j) + ·) ?_
  simp only [matmul]
  refine (Ideal.matmul_constant_zero_apply D0 none _ _ (ix2 i j)).trans ?_
  rw [← Equiv.sum_comp (contrEquiv1 D0 200 rfl rfl).symm]
  refine Finset.sum_congr rfl fun r _ => ?_
  have hk := contrEquiv1_symm_val D0 200 rfl rfl r
  have el : D0.lhsIdx (ix2 i j) ((contrEquiv1 D0 200 rfl rfl).symm r) = ix2 r i := funext fun b => Fin.ext (by
    match b with
    | ⟨0, _⟩ => exact (lhs0_0 _ _).trans hk
    | ⟨1, _⟩ => exact lhs0_1 _ _)
  have er : D0.rhsIdx (ix2 i j) ((contrEquiv1 D0 200 rfl rfl).symm r) = ix2 r j := funext fun b => Fin.ext (by
    match b with
    | ⟨0, _⟩ => exact (rhs0_0 _ _).trans hk
    | ⟨1, _⟩ => exact rhs0_1 _ _)
  rw [el, er]
  rfl

variable (V : (c : Dev nD) → (b : Ref sig .tc) → Buf (Elt Ideal) ((c : Thread nD τ).loc b))

/-! ## The blocks, read off the arrays -/

/-- The left matrix (2000 by 5000) and the right matrix (2000 by 128) as the region finds them. -/
abbrev A0 (c : Dev nD) : Vec Ideal S2000x5000 .f32 := V c main_arg2
abbrev B0 (c : Dev nD) : Vec Ideal S2000x128 .f32 := V c main_arg8

/-- Row `r` of block `t`: row `200 t + r` of the matrix (kept below 2000 for every `t`, so that it is a total function). -/
def rowN (t : ℕ) (r : Fin 200) : Fin 2000 := ⟨(200 * t + r.val) % 2000, Nat.mod_lt _ (by decide)⟩

/-- The block index of both input windows at point `t` is (t, 0); the output window's is (0, 0). -/
theorem idx0_0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx0_1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx0_2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

/-- Block `t` of the left matrix at (r, i) is the matrix at (200 t + r, i). -/
theorem iblk0_0_apply (c : Dev nD) (t : Fin cfg0.N) (r : Fin 200) (i : Fin 5000) :
    (iblk0 V c 0 t : Vec Ideal S200x5000 .f32) (ix2 r i) = A0 V c (ix2 (rowN t.val r) i) := by
  have hN : t.val < 10 := lt_of_lt_of_eq t.isLt (show cfg0.N = 10 from N_0)
  have hi := idx0_0 t
  unfold iblk0
  rw [View.read_apply]
  show V c main_arg2 _ = V c main_arg2 _
  refine congrArg (V c main_arg2) ?_
  funext a
  apply Fin.ext
  match a with
  | ⟨0, _⟩ => show win0_0.index t 0 * 200 + 1 * r.val = (200 * t.val + r.val) % 2000; rw [hi.1]; omega
  | ⟨1, _⟩ => show win0_0.index t 1 * 5000 + 1 * i.val = i.val; rw [hi.2]; omega

/-- Block `t` of the right matrix at (r, j) is the matrix at (200 t + r, j). -/
theorem iblk0_1_apply (c : Dev nD) (t : Fin cfg0.N) (r : Fin 200) (j : Fin 128) :
    (iblk0 V c 1 t : Vec Ideal S200x128 .f32) (ix2 r j) = B0 V c (ix2 (rowN t.val r) j) := by
  have hN : t.val < 10 := lt_of_lt_of_eq t.isLt (show cfg0.N = 10 from N_0)
  have hi := idx0_1 t
  unfold iblk0
  rw [View.read_apply]
  show V c main_arg8 _ = V c main_arg8 _
  refine congrArg (V c main_arg8) ?_
  funext a
  apply Fin.ext
  match a with
  | ⟨0, _⟩ => show win0_1.index t 0 * 200 + 1 * r.val = (200 * t.val + r.val) % 2000; rw [hi.1]; omega
  | ⟨1, _⟩ => show win0_1.index t 1 * 128 + 1 * j.val = j.val; rw [hi.2]; omega

/-! ## The accumulator at an index -/

/-- What point `t` adds to entry (i, j): the products over the 200 rows of block `t`. -/
def term0 (c : Dev nD) (i : Fin 5000) (j : Fin 128) (t : ℕ) : EReal :=
  ∑ r : Fin 200, A0 V c (ix2 (rowN t r) i) * B0 V c (ix2 (rowN t r) j)

/-- One accumulation at an index, the blocks read off the arrays. -/
theorem step0_apply (c : Dev nD) (t : Fin cfg0.N) (a : Vec Ideal S5000x128 .f32) (i : Fin 5000) (j : Fin 128) :
    k0_pay2 (iblk0 V c 0 t) (iblk0 V c 1 t) a (ix2 i j) = a (ix2 i j) + term0 V c i j t.val := by
  refine (accum0_apply (iblk0 V c 0 t) (iblk0 V c 1 t) a i j).trans ?_
  refine congrArg (a (ix2 i j) + ·) ?_
  unfold term0
  refine Finset.sum_congr rfl fun r _ => ?_
  rw [iblk0_0_apply V c t r i, iblk0_1_apply V c t r j]

/-- After point `n` entry (i, j) of the scratch is the sum of what the points 0..n added. -/
theorem acc0_apply (c : Dev nD) (i : Fin 5000) (j : Fin 128) :
    ∀ n, n < cfg0.N → acc0 V c n (ix2 i j) = ∑ t ∈ Finset.range (n + 1), term0 V c i j t
  | 0, _ => by
    rw [acc0_zero]
    refine (step0_apply V c t0_0 (k0_pay1 (F := Ideal)) i j).trans ?_
    rw [zeroFill0_apply, zero_add, Finset.sum_range_one]
    rfl
  | n + 1, h => by
    rw [acc0_succ V c n h, step0_apply V c ⟨n + 1, h⟩ (acc0 V c n) i j, acc0_apply c i j n (Nat.lt_of_succ_lt h),
      Finset.sum_range_succ (fun t => term0 V c i j t) (n + 1)]

/-! ## Ten blocks of 200 rows are the 2000 rows -/

theorem regroup0 {M : Type} [AddCommMonoid M] (f : Fin 2000 → M) :
    ∑ t ∈ Finset.range 10, ∑ r : Fin 200, f (rowN t r) = ∑ k : Fin 2000, f k := by
  rw [Finset.sum_range (fun t => ∑ r : Fin 200, f (rowN t r)),
    ← Fintype.sum_prod_type' (fun (t : Fin 10) (r : Fin 200) => f (rowN t.val r)),
    ← Equiv.sum_comp (finProdFinEquiv : Fin 10 × Fin 200 ≃ Fin 2000) f]
  refine Finset.sum_congr rfl fun x _ => congrArg f (Fin.ext ?_)
  show (200 * x.1.val + x.2.val) % 2000 = x.2.val + 200 * x.1.val
  have := x.1.isLt; have := x.2.isLt; omega

/-! ## The result array -/

/-- The one write-back, at the last point, writes the accumulated product: block (0, 0) of the 5000 by 128 array, read
    through zero offsets, is the array. -/
theorem flushed0_eq (c : Dev nD) (t : Fin cfg0.N) (hf : (cfg0.win 2).flush t = true) :
    (dat0 V c).flushed 2 t = ((cfg0.win 2).blk t).view.read (Elt Ideal) (acc0 V c 9) := by
  show (cfg0.win 2).cut (grid0.coords t) ((dat0 V c).after 2 t) = _
  rw [after0_2]
  have hi := idx0_2 t
  have hz' : (fun a => win0_2.index t a * main_v0.ty.shape.size a) = fun _ => 0 := funext fun a => by
    match a with
    | ⟨0, _⟩ => show win0_2.index t 0 * 5000 = 0; rw [hi.1]
    | ⟨1, _⟩ => show win0_2.index t 1 * 128 = 0; rw [hi.2]
  exact (Memref.read_access_unit_zero (Elt Ideal) main_v0 hz' (fun a => by rw [congrFun hz' a]; simp) (acc0 V c 9)).symm

/-- So the result array ends holding what the scratch holds after the last point. -/
theorem final0 (c : Dev nD) : (dat0 V c).arrAt 2 cfg0.N = acc0 V c 9 :=
  (dat0 V c).arrAt_eq_of_cover 2 (acc0 V c 9) (flushed0_eq V c) fun i =>
    ⟨t0_9, (flush0_2 t0_9).mpr rfl, by
      show i ∈ ((View.whole main_v0).slice (win0_2.rect t0_9)).set
      rw [View.set_slice_whole, Rect.mem_set_unit]
      intro a
      have h0 : (i 0 : Nat) < 5000 := (i 0).isLt
      have h1 : (i 1 : Nat) < 128 := (i 1).isLt
      match a with
      | ⟨0, _⟩ => show win0_2.index t0_9 0 * win0_2.size 0 ≤ (i 0 : Nat) ∧ (i 0 : Nat) < win0_2.index t0_9 0 * win0_2.size 0 + win0_2.xsize (grid0.coords t0_9) 0
                  rw [show win0_2.index t0_9 0 * win0_2.size 0 = 0 from by decide +kernel, show win0_2.xsize (grid0.coords t0_9) 0 = 5000 from by decide +kernel]; omega
      | ⟨1, _⟩ => show win0_2.index t0_9 1 * win0_2.size 1 ≤ (i 1 : Nat) ∧ (i 1 : Nat) < win0_2.index t0_9 1 * win0_2.size 1 + win0_2.xsize (grid0.coords t0_9) 1
                  rw [show win0_2.index t0_9 1 * win0_2.size 1 = 0 from by decide +kernel, show win0_2.xsize (grid0.coords t0_9) 1 = 128 from by decide +kernel]; omega⟩

/-- Entry (i, j) of the result: the sum over all 2000 rows k of left (k, i) times right (k, j). -/
theorem final0_apply (c : Dev nD) (i : Fin 5000) (j : Fin 128) :
    ((dat0 (F := Ideal) V c).arrAt 2 cfg0.N : Vec Ideal S5000x128 .f32) (ix2 i j) = ∑ k : Fin 2000, A0 V c (ix2 k i) * B0 V c (ix2 k j) := by
  rw [final0 V c, acc0_apply V c i j 9 (by rw [show cfg0.N = 10 from N_0]; decide)]
  exact regroup0 (fun k => A0 V c (ix2 k i) * B0 V c (ix2 k j))

end Cert.KernelIdeal.HandValue

end
-- ==== Proof.KI.Val1.lean ====
/- Region 1 at the exact extended reals: the array it leaves is the matrix product of the two arrays it reads,
   [20000, 5000] by [5000, 128]. One grid point multiplies rows 400 t … 400 t + 399 of the left matrix by the whole right
   matrix; rounding the factors to a shorter float format is the identity on extended reals and the accumulator starts at
   zero, so an entry of the block is the plain sum over the contracted axis. The fifty blocks of rows tile the product
   array, so after the last point entry (i, j) is the sum over k of left (i, k) times right (k, j). No law of arithmetic
   is used: both sides are the same sum. -/
import proofs.«115049_j15814069584107_1_alg».proof.Proof.KI.R1
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem lhs1_0 (i : S400x128.Idx) (q : dot_S400x5000_S5000x128_S400x128_1_0_0_1_n_n.contr.Idx) :
    (dot_S400x5000_S5000x128_S400x128_1_0_0_1_n_n.lhsIdx i q 0).val = (i 0).val := by
  unfold DotDims.lhsIdx
  rw [dif_neg (show ¬(0 : Fin S400x5000.rank) ∈ dot_S400x5000_S5000x128_S400x128_1_0_0_1_n_n.lhsBatch by decide), dif_pos (show (0 : Fin S400x5000.rank) ∈ dot_S400x5000_S5000x128_S400x128_1_0_0_1_n_n.lhsNonContracting by decide)]
  rfl
theorem lhs1_1 (i : S400x128.Idx) (q : dot_S400x5000_S5000x128_S400x128_1_0_0_1_n_n.contr.Idx) :
    (dot_S400x5000_S5000x128_S400x128_1_0_0_1_n_n.lhsIdx i q 1).val = (q ⟨0, by decide⟩).val :=
  dot_S400x5000_S5000x128_S400x128_1_0_0_1_n_n.lhsIdx_val_of_single rfl i q
theorem rhs1_0 (i : S400x128.Idx) (q : dot_S400x5000_S5000x128_S400x128_1_0_0_1_n_n.contr.Idx) :
    (dot_S400x5000_S5000x128_S400x128_1_0_0_1_n_n.rhsIdx i q 0).val = (q ⟨0, by decide⟩).val :=
  dot_S400x5000_S5000x128_S400x128_1_0_0_1_n_n.rhsIdx_val_of_single rfl i q
theorem rhs1_1 (i : S400x128.Idx) (q : dot_S400x5000_S5000x128_S400x128_1_0_0_1_n_n.contr.Idx) :
    (dot_S400x5000_S5000x128_S400x128_1_0_0_1_n_n.rhsIdx i q 1).val = (i 1).val := by
  unfold DotDims.rhsIdx
  rw [dif_neg (show ¬(1 : Fin S5000x128.rank) ∈ dot_S400x5000_S5000x128_S400x128_1_0_0_1_n_n.rhsBatch by decide), dif_pos (show (1 : Fin S5000x128.rank) ∈ dot_S400x5000_S5000x128_S400x128_1_0_0_1_n_n.rhsNonContracting by decide)]
  rfl

/-- A product into the zero accumulator, read at an index: the row of the left factor against the column of the right
    one, summed over the contracted axis (a change of float format is the identity on extended reals). -/
theorem mm1_apply (l : FVec Ideal S400x5000 .bf16) (r : FVec Ideal S5000x128 .bf16) (p : Fin 400) (q : Fin 128) :
    matmul dot_S400x5000_S5000x128_S400x128_1_0_0_1_n_n none l r (constant (F := Ideal) S400x128 .f32 0x00000000#32) (ix2 p q)
      = ∑ k : Fin 5000, l (ix2 p k) * r (ix2 k q) := by
  refine (Ideal.matmul_constant_zero_apply dot_S400x5000_S5000x128_S400x128_1_0_0_1_n_n none l r (ix2 p q)).trans ?_
  rw [← Equiv.sum_comp (contrEquiv1 dot_S400x5000_S5000x128_S400x128_1_0_0_1_n_n 5000 rfl rfl).symm]
  refine Finset.sum_congr rfl fun k _ => ?_
  have hk := contrEquiv1_symm_val dot_S400x5000_S5000x128_S400x128_1_0_0_1_n_n 5000 rfl rfl k
  have el : dot_S400x5000_S5000x128_S400x128_1_0_0_1_n_n.lhsIdx (ix2 p q) ((contrEquiv1 dot_S400x5000_S5000x128_S400x128_1_0_0_1_n_n 5000 rfl rfl).symm k) = ix2 p k := funext fun a => Fin.ext (by
    match a with
    | ⟨0, _⟩ => exact lhs1_0 _ _
    | ⟨1, _⟩ => exact (lhs1_1 _ _).trans hk)
  have er : dot_S400x5000_S5000x128_S400x128_1_0_0_1_n_n.rhsIdx (ix2 p q) ((contrEquiv1 dot_S400x5000_S5000x128_S400x128_1_0_0_1_n_n 5000 rfl rfl).symm k) = ix2 k q := funext fun a => Fin.ext (by
    match a with
    | ⟨0, _⟩ => exact (rhs1_0 _ _).trans hk
    | ⟨1, _⟩ => exact rhs1_1 _ _)
  rw [el, er]

/-- The product block at an index: row `p` of the left block against column `q` of the right matrix. -/
theorem pay1_apply (x0 : Vec Ideal S400x5000 .f32) (x1 : Vec Ideal S5000x128 .f32) (p : Fin 400) (q : Fin 128) :
    k1_pay1 (F := Ideal) x0 x1 (ix2 p q) = ∑ k : Fin 5000, x0 (ix2 p k) * x1 (ix2 k q) := by
  unfold k1_pay1
  exact mm1_apply _ _ p q

theorem hz1 : (![0, 0] : Fin 2 → Nat) = fun _ => 0 := funext fun a => by fin_cases a <;> rfl

/-- The block indices over the grid: the row blocks move with the point, everything else stays at 0. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

theorem lt1 (t : Fin cfg1.N) : t.val < 50 := Nat.lt_of_lt_of_eq t.isLt N_1

/-- The left block at point `t` is rows `400 t … 400 t + 399` of the left matrix. -/
theorem read1_0 (c : Dev nD) (t : Fin cfg1.N) (p : Fin 400) (k : Fin 5000) :
    iblk1 V c 0 t (ix2 p k)
      = (V c main_arg3 : S20000x5000.Idx → EReal) (ix2 (⟨t.val * 400 + p.val, by have := lt1 t; have := p.isLt; omega⟩ : Fin 20000) k) := by
  obtain ⟨e0, e1, -⟩ := idx_facts1 t
  show V c main_arg3 (((cfg1.win 0).blk t).view.emb (ix2 p k)) = _
  refine congrArg (V c main_arg3) (funext fun a => Fin.ext ?_)
  match a with
  | ⟨0, _⟩ => show win1_0.index t (0 : Fin 2) * 400 + 1 * p.val = t.val * 400 + p.val; rw [e0]; omega
  | ⟨1, _⟩ => show win1_0.index t (1 : Fin 2) * 5000 + 1 * k.val = k.val; rw [e1]; omega

/-- The right block at every point is the whole right matrix. -/
theorem read1_1 (c : Dev nD) (t : Fin cfg1.N) (k : Fin 5000) (q : Fin 128) :
    iblk1 V c 1 t (ix2 k q)
      = (V c main_arg9 : S5000x128.Idx → EReal) (ix2 k q) := by
  obtain ⟨-, -, e2, e3, -⟩ := idx_facts1 t
  show V c main_arg9 (((cfg1.win 1).blk t).view.emb (ix2 k q)) = _
  refine congrArg (V c main_arg9) (funext fun a => Fin.ext ?_)
  match a with
  | ⟨0, _⟩ => show win1_1.index t (0 : Fin 2) * 5000 + 1 * k.val = k.val; rw [e2]; omega
  | ⟨1, _⟩ => show win1_1.index t (1 : Fin 2) * 128 + 1 * q.val = q.val; rw [e3]; omega

/-- The output block's element `(p, q)` sits at row `400 t + p`, column `q` of the product array. -/
theorem emb1_2 (t : Fin cfg1.N) (p : Fin 400) (q : Fin 128) :
    (((cfg1.win 2).blk t).view.emb (ix2 p q) : S20000x128.Idx) = ix2 (⟨t.val * 400 + p.val, by have := lt1 t; have := p.isLt; omega⟩ : Fin 20000) q := by
  obtain ⟨-, -, -, -, e4, e5⟩ := idx_facts1 t
  refine funext fun a => Fin.ext ?_
  match a with
  | ⟨0, _⟩ => show win1_2.index t (0 : Fin 2) * 400 + 1 * p.val = t.val * 400 + p.val; rw [e4]; omega
  | ⟨1, _⟩ => show win1_2.index t (1 : Fin 2) * 128 + 1 * q.val = q.val; rw [e5]; omega

/-- An index of the product array is in point `t`'s block iff each coordinate is in the block's range on its axis. -/
theorem mem_blk1 (t : Fin cfg1.N) (i : S20000x128.Idx) :
    i ∈ ((cfg1.win 2).blk t).view.set ↔ ∀ a : Fin 2, win1_2.index t a * S400x128.size a ≤ (i a).val ∧ (i a).val < win1_2.index t a * S400x128.size a + S400x128.size a := by
  show i ∈ ((View.whole main_v1).slice (win1_2.rect t)).set ↔ _
  rw [View.set_slice_whole, Rect.mem_set_unit]
  exact Iff.rfl

/-- Every index of the product array is in the block of the point its row falls in. -/
theorem cover1 (i : S20000x128.Idx) : ∃ t : Fin cfg1.N, (cfg1.win 2).flush t = true ∧ i ∈ ((cfg1.win 2).blk t).view.set := by
  have hi0 : (i 0).val < 20000 := idx2_lt0 i
  have hi1 : (i 1).val < 128 := idx2_lt1 i
  refine ⟨⟨(i 0).val / 400, by rw [show cfg1.N = 50 from N_1]; omega⟩, flush1_2 _, ?_⟩
  rw [mem_blk1]
  obtain ⟨-, -, -, -, e4, e5⟩ := idx_facts1 ⟨(i 0).val / 400, by rw [show cfg1.N = 50 from N_1]; omega⟩
  intro a
  match a with
  | ⟨0, _⟩ => show win1_2.index _ (0 : Fin 2) * 400 ≤ (i 0).val ∧ (i 0).val < win1_2.index _ (0 : Fin 2) * 400 + 400; rw [e4]; show (i 0).val / 400 * 400 ≤ (i 0).val ∧ (i 0).val < (i 0).val / 400 * 400 + 400; omega
  | ⟨1, _⟩ => show win1_2.index _ (1 : Fin 2) * 128 ≤ (i 1).val ∧ (i 1).val < win1_2.index _ (1 : Fin 2) * 128 + 128; rw [e5]; omega

/-- The arrays the region reads and the one it leaves, as functions on their literal index types. -/
abbrev inL1 (c : Dev nD) : S20000x5000.Idx → EReal := V c main_arg3
abbrev inR1 (c : Dev nD) : S5000x128.Idx → EReal := V c main_arg9
abbrev res1 (c : Dev nD) : S20000x128.Idx → EReal := (dat1 V c).arrAt 2 cfg1.N

/-- The matrix product entry by entry: entry `(i, j)` is row `i` of the left matrix against column `j` of the right one. -/
def prod1 (A : S20000x5000.Idx → EReal) (B : S5000x128.Idx → EReal) : S20000x128.Idx → EReal := fun i =>
  ∑ k : Fin 5000, A (ix2 (⟨(i 0).val, idx2_lt0 i⟩ : Fin 20000) k) * B (ix2 k (⟨(i 1).val, idx2_lt1 i⟩ : Fin 128))

/-- What point `t` writes back is block `t` of the product of the two arrays. -/
theorem flushed1_eq (c : Dev nD) (t : Fin cfg1.N) :
    (dat1 V c).flushed 2 t = ((cfg1.win 2).blk t).view.read (Elt Ideal) (prod1 (V c main_arg3) (V c main_arg9)) := by
  show (cfg1.win 2).cut (grid1.coords t) ((dat1 V c).after 2 t) = _
  rw [after1_2]
  unfold out1_2
  rw [View.canon_unit_zero hz1]
  simp only [View.ld_unit_zero (S := S400x5000) hz1, View.ld_unit_zero (S := S5000x128) hz1]
  refine funext fun (j : S400x128.Idx) => ?_
  obtain ⟨p, q, rfl⟩ : ∃ (p : Fin 400) (q : Fin 128), j = ix2 p q := ⟨j 0, j 1, eq_ix2 j⟩
  show k1_pay1 (iblk1 V c 0 t) (iblk1 V c 1 t) (ix2 p q) = prod1 (V c main_arg3) (V c main_arg9) (((cfg1.win 2).blk t).view.emb (ix2 p q))
  rw [emb1_2 t p q]
  refine (pay1_apply _ _ p q).trans ?_
  refine Finset.sum_congr rfl fun k _ => ?_
  rw [read1_0 V c t p k, read1_1 V c t k q]

/-- The product array after the region: the blocks of rows tile it. -/
theorem final1 (c : Dev nD) : (dat1 V c).arrAt 2 cfg1.N = prod1 (V c main_arg3) (V c main_arg9) :=
  (dat1 V c).arrAt_eq_of_cover 2 (prod1 (V c main_arg3) (V c main_arg9)) (fun t _ => flushed1_eq V c t) cover1

/-- Read at an index. -/
theorem final1_apply (c : Dev nD) (i : Fin 20000) (j : Fin 128) :
    res1 V c (ix2 i j) = ∑ k : Fin 5000, inL1 V c (ix2 i k) * inR1 V c (ix2 k j) := by
  show (dat1 V c).arrAt 2 cfg1.N (ix2 i j) = _
  rw [final1]
  rfl

/-- The same with the two arrays named: whatever they are known to be, the product is of those. -/
theorem final1_apply_of (c : Dev nD) (A : S20000x5000.Idx → EReal) (B : S5000x128.Idx → EReal) (hA : inL1 V c = A) (hB : inR1 V c = B)
    (i : Fin 20000) (j : Fin 128) : res1 V c (ix2 i j) = ∑ k : Fin 5000, A (ix2 i k) * B (ix2 k j) := by
  subst hA hB
  exact final1_apply V c i j

end Cert.KernelIdeal.HandValue

end
-- ==== Proof.KI.Val2.lean ====
/- Region 2 at the exact extended reals: the array it leaves is the matrix product of the two arrays it reads,
   [5000, 383] by [383, 128]. One grid point multiplies rows 1000 t … 1000 t + 999 of the left matrix by the whole right
   matrix; rounding the factors to a shorter float format is the identity on extended reals and the accumulator starts at
   zero, so an entry of the block is the plain sum over the contracted axis. The five blocks of rows tile the product
   array, so after the last point entry (i, j) is the sum over k of left (i, k) times right (k, j). No law of arithmetic
   is used: both sides are the same sum. -/
import proofs.«115049_j15814069584107_1_alg».proof.Proof.KI.R2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem lhs2_0 (i : S1000x128.Idx) (q : dot_S1000x383_S383x128_S1000x128_1_0_0_1_n_n.contr.Idx) :
    (dot_S1000x383_S383x128_S1000x128_1_0_0_1_n_n.lhsIdx i q 0).val = (i 0).val := by
  unfold DotDims.lhsIdx
  rw [dif_neg (show ¬(0 : Fin S1000x383.rank) ∈ dot_S1000x383_S383x128_S1000x128_1_0_0_1_n_n.lhsBatch by decide), dif_pos (show (0 : Fin S1000x383.rank) ∈ dot_S1000x383_S383x128_S1000x128_1_0_0_1_n_n.lhsNonContracting by decide)]
  rfl
theorem lhs2_1 (i : S1000x128.Idx) (q : dot_S1000x383_S383x128_S1000x128_1_0_0_1_n_n.contr.Idx) :
    (dot_S1000x383_S383x128_S1000x128_1_0_0_1_n_n.lhsIdx i q 1).val = (q ⟨0, by decide⟩).val :=
  dot_S1000x383_S383x128_S1000x128_1_0_0_1_n_n.lhsIdx_val_of_single rfl i q
theorem rhs2_0 (i : S1000x128.Idx) (q : dot_S1000x383_S383x128_S1000x128_1_0_0_1_n_n.contr.Idx) :
    (dot_S1000x383_S383x128_S1000x128_1_0_0_1_n_n.rhsIdx i q 0).val = (q ⟨0, by decide⟩).val :=
  dot_S1000x383_S383x128_S1000x128_1_0_0_1_n_n.rhsIdx_val_of_single rfl i q
theorem rhs2_1 (i : S1000x128.Idx) (q : dot_S1000x383_S383x128_S1000x128_1_0_0_1_n_n.contr.Idx) :
    (dot_S1000x383_S383x128_S1000x128_1_0_0_1_n_n.rhsIdx i q 1).val = (i 1).val := by
  unfold DotDims.rhsIdx
  rw [dif_neg (show ¬(1 : Fin S383x128.rank) ∈ dot_S1000x383_S383x128_S1000x128_1_0_0_1_n_n.rhsBatch by decide), dif_pos (show (1 : Fin S383x128.rank) ∈ dot_S1000x383_S383x128_S1000x128_1_0_0_1_n_n.rhsNonContracting by decide)]
  rfl

/-- A product into the zero accumulator, read at an index: the row of the left factor against the column of the right
    one, summed over the contracted axis (a change of float format is the identity on extended reals). -/
theorem mm2_apply (l : FVec Ideal S1000x383 .bf16) (r : FVec Ideal S383x128 .bf16) (p : Fin 1000) (q : Fin 128) :
    matmul dot_S1000x383_S383x128_S1000x128_1_0_0_1_n_n none l r (constant (F := Ideal) S1000x128 .f32 0x00000000#32) (ix2 p q)
      = ∑ k : Fin 383, l (ix2 p k) * r (ix2 k q) := by
  refine (Ideal.matmul_constant_zero_apply dot_S1000x383_S383x128_S1000x128_1_0_0_1_n_n none l r (ix2 p q)).trans ?_
  rw [← Equiv.sum_comp (contrEquiv1 dot_S1000x383_S383x128_S1000x128_1_0_0_1_n_n 383 rfl rfl).symm]
  refine Finset.sum_congr rfl fun k _ => ?_
  have hk := contrEquiv1_symm_val dot_S1000x383_S383x128_S1000x128_1_0_0_1_n_n 383 rfl rfl k
  have el : dot_S1000x383_S383x128_S1000x128_1_0_0_1_n_n.lhsIdx (ix2 p q) ((contrEquiv1 dot_S1000x383_S383x128_S1000x128_1_0_0_1_n_n 383 rfl rfl).symm k) = ix2 p k := funext fun a => Fin.ext (by
    match a with
    | ⟨0, _⟩ => exact lhs2_0 _ _
    | ⟨1, _⟩ => exact (lhs2_1 _ _).trans hk)
  have er : dot_S1000x383_S383x128_S1000x128_1_0_0_1_n_n.rhsIdx (ix2 p q) ((contrEquiv1 dot_S1000x383_S383x128_S1000x128_1_0_0_1_n_n 383 rfl rfl).symm k) = ix2 k q := funext fun a => Fin.ext (by
    match a with
    | ⟨0, _⟩ => exact (rhs2_0 _ _).trans hk
    | ⟨1, _⟩ => exact rhs2_1 _ _)
  rw [el, er]

/-- The product block at an index: row `p` of the left block against column `q` of the right matrix. -/
theorem pay2_apply (x0 : Vec Ideal S1000x383 .f32) (x1 : Vec Ideal S383x128 .f32) (p : Fin 1000) (q : Fin 128) :
    k2_pay1 (F := Ideal) x0 x1 (ix2 p q) = ∑ k : Fin 383, x0 (ix2 p k) * x1 (ix2 k q) := by
  unfold k2_pay1
  exact mm2_apply _ _ p q

theorem hz2 : (![0, 0] : Fin 2 → Nat) = fun _ => 0 := funext fun a => by fin_cases a <;> rfl

/-- The block indices over the grid: the row blocks move with the point, everything else stays at 0. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

theorem lt2 (t : Fin cfg2.N) : t.val < 5 := Nat.lt_of_lt_of_eq t.isLt N_2

/-- The left block at point `t` is rows `1000 t … 1000 t + 999` of the left matrix. -/
theorem read2_0 (c : Dev nD) (t : Fin cfg2.N) (p : Fin 1000) (k : Fin 383) :
    iblk2 V c 0 t (ix2 p k)
      = (V c main_arg0 : S5000x383.Idx → EReal) (ix2 (⟨t.val * 1000 + p.val, by have := lt2 t; have := p.isLt; omega⟩ : Fin 5000) k) := by
  obtain ⟨e0, e1, -⟩ := idx_facts2 t
  show V c main_arg0 (((cfg2.win 0).blk t).view.emb (ix2 p k)) = _
  refine congrArg (V c main_arg0) (funext fun a => Fin.ext ?_)
  match a with
  | ⟨0, _⟩ => show win2_0.index t (0 : Fin 2) * 1000 + 1 * p.val = t.val * 1000 + p.val; rw [e0]; omega
  | ⟨1, _⟩ => show win2_0.index t (1 : Fin 2) * 383 + 1 * k.val = k.val; rw [e1]; omega

/-- The right block at every point is the whole right matrix. -/
theorem read2_1 (c : Dev nD) (t : Fin cfg2.N) (k : Fin 383) (q : Fin 128) :
    iblk2 V c 1 t (ix2 k q)
      = (V c main_arg4 : S383x128.Idx → EReal) (ix2 k q) := by
  obtain ⟨-, -, e2, e3, -⟩ := idx_facts2 t
  show V c main_arg4 (((cfg2.win 1).blk t).view.emb (ix2 k q)) = _
  refine congrArg (V c main_arg4) (funext fun a => Fin.ext ?_)
  match a with
  | ⟨0, _⟩ => show win2_1.index t (0 : Fin 2) * 383 + 1 * k.val = k.val; rw [e2]; omega
  | ⟨1, _⟩ => show win2_1.index t (1 : Fin 2) * 128 + 1 * q.val = q.val; rw [e3]; omega

/-- The output block's element `(p, q)` sits at row `1000 t + p`, column `q` of the product array. -/
theorem emb2_2 (t : Fin cfg2.N) (p : Fin 1000) (q : Fin 128) :
    (((cfg2.win 2).blk t).view.emb (ix2 p q) : S5000x128.Idx) = ix2 (⟨t.val * 1000 + p.val, by have := lt2 t; have := p.isLt; omega⟩ : Fin 5000) q := by
  obtain ⟨-, -, -, -, e4, e5⟩ := idx_facts2 t
  refine funext fun a => Fin.ext ?_
  match a with
  | ⟨0, _⟩ => show win2_2.index t (0 : Fin 2) * 1000 + 1 * p.val = t.val * 1000 + p.val; rw [e4]; omega
  | ⟨1, _⟩ => show win2_2.index t (1 : Fin 2) * 128 + 1 * q.val = q.val; rw [e5]; omega

/-- An index of the product array is in point `t`'s block iff each coordinate is in the block's range on its axis. -/
theorem mem_blk2 (t : Fin cfg2.N) (i : S5000x128.Idx) :
    i ∈ ((cfg2.win 2).blk t).view.set ↔ ∀ a : Fin 2, win2_2.index t a * S1000x128.size a ≤ (i a).val ∧ (i a).val < win2_2.index t a * S1000x128.size a + S1000x128.size a := by
  show i ∈ ((View.whole main_v2).slice (win2_2.rect t)).set ↔ _
  rw [View.set_slice_whole, Rect.mem_set_unit]
  exact Iff.rfl

/-- Every index of the product array is in the block of the point its row falls in. -/
theorem cover2 (i : S5000x128.Idx) : ∃ t : Fin cfg2.N, (cfg2.win 2).flush t = true ∧ i ∈ ((cfg2.win 2).blk t).view.set := by
  have hi0 : (i 0).val < 5000 := idx2_lt0 i
  have hi1 : (i 1).val < 128 := idx2_lt1 i
  refine ⟨⟨(i 0).val / 1000, by rw [show cfg2.N = 5 from N_2]; omega⟩, flush2_2 _, ?_⟩
  rw [mem_blk2]
  obtain ⟨-, -, -, -, e4, e5⟩ := idx_facts2 ⟨(i 0).val / 1000, by rw [show cfg2.N = 5 from N_2]; omega⟩
  intro a
  match a with
  | ⟨0, _⟩ => show win2_2.index _ (0 : Fin 2) * 1000 ≤ (i 0).val ∧ (i 0).val < win2_2.index _ (0 : Fin 2) * 1000 + 1000; rw [e4]; show (i 0).val / 1000 * 1000 ≤ (i 0).val ∧ (i 0).val < (i 0).val / 1000 * 1000 + 1000; omega
  | ⟨1, _⟩ => show win2_2.index _ (1 : Fin 2) * 128 ≤ (i 1).val ∧ (i 1).val < win2_2.index _ (1 : Fin 2) * 128 + 128; rw [e5]; omega

/-- The arrays the region reads and the one it leaves, as functions on their literal index types. -/
abbrev inL2 (c : Dev nD) : S5000x383.Idx → EReal := V c main_arg0
abbrev inR2 (c : Dev nD) : S383x128.Idx → EReal := V c main_arg4
abbrev res2 (c : Dev nD) : S5000x128.Idx → EReal := (dat2 V c).arrAt 2 cfg2.N

/-- The matrix product entry by entry: entry `(i, j)` is row `i` of the left matrix against column `j` of the right one. -/
def prod2 (A : S5000x383.Idx → EReal) (B : S383x128.Idx → EReal) : S5000x128.Idx → EReal := fun i =>
  ∑ k : Fin 383, A (ix2 (⟨(i 0).val, idx2_lt0 i⟩ : Fin 5000) k) * B (ix2 k (⟨(i 1).val, idx2_lt1 i⟩ : Fin 128))

/-- What point `t` writes back is block `t` of the product of the two arrays. -/
theorem flushed2_eq (c : Dev nD) (t : Fin cfg2.N) :
    (dat2 V c).flushed 2 t = ((cfg2.win 2).blk t).view.read (Elt Ideal) (prod2 (V c main_arg0) (V c main_arg4)) := by
  show (cfg2.win 2).cut (grid2.coords t) ((dat2 V c).after 2 t) = _
  rw [after2_2]
  unfold out2_2
  rw [View.canon_unit_zero hz2]
  simp only [View.ld_unit_zero (S := S1000x383) hz2, View.ld_unit_zero (S := S383x128) hz2]
  refine funext fun (j : S1000x128.Idx) => ?_
  obtain ⟨p, q, rfl⟩ : ∃ (p : Fin 1000) (q : Fin 128), j = ix2 p q := ⟨j 0, j 1, eq_ix2 j⟩
  show k2_pay1 (iblk2 V c 0 t) (iblk2 V c 1 t) (ix2 p q) = prod2 (V c main_arg0) (V c main_arg4) (((cfg2.win 2).blk t).view.emb (ix2 p q))
  rw [emb2_2 t p q]
  refine (pay2_apply _ _ p q).trans ?_
  refine Finset.sum_congr rfl fun k _ => ?_
  rw [read2_0 V c t p k, read2_1 V c t k q]

/-- The product array after the region: the blocks of rows tile it. -/
theorem final2 (c : Dev nD) : (dat2 V c).arrAt 2 cfg2.N = prod2 (V c main_arg0) (V c main_arg4) :=
  (dat2 V c).arrAt_eq_of_cover 2 (prod2 (V c main_arg0) (V c main_arg4)) (fun t _ => flushed2_eq V c t) cover2

/-- Read at an index. -/
theorem final2_apply (c : Dev nD) (i : Fin 5000) (j : Fin 128) :
    res2 V c (ix2 i j) = ∑ k : Fin 383, inL2 V c (ix2 i k) * inR2 V c (ix2 k j) := by
  show (dat2 V c).arrAt 2 cfg2.N (ix2 i j) = _
  rw [final2]
  rfl

/-- The same with the two arrays named: whatever they are known to be, the product is of those. -/
theorem final2_apply_of (c : Dev nD) (A : S5000x383.Idx → EReal) (B : S383x128.Idx → EReal) (hA : inL2 V c = A) (hB : inR2 V c = B)
    (i : Fin 5000) (j : Fin 128) : res2 V c (ix2 i j) = ∑ k : Fin 383, A (ix2 i k) * B (ix2 k j) := by
  subst hA hB
  exact final2_apply V c i j

end Cert.KernelIdeal.HandValue

end
-- ==== Proof.KI.Val3.lean ====
/- Region 3 at the exact extended reals: the array it leaves is the matrix product of the two arrays it reads,
   [20000, 4395] by [4395, 128]. One grid point multiplies rows 400 t … 400 t + 399 of the left matrix by the whole right
   matrix; rounding the factors to a shorter float format is the identity on extended reals and the accumulator starts at
   zero, so an entry of the block is the plain sum over the contracted axis. The fifty blocks of rows tile the product
   array, so after the last point entry (i, j) is the sum over k of left (i, k) times right (k, j). No law of arithmetic
   is used: both sides are the same sum. -/
import proofs.«115049_j15814069584107_1_alg».proof.Proof.KI.R3
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem lhs3_0 (i : S400x128.Idx) (q : dot_S400x4395_S4395x128_S400x128_1_0_0_1_n_n.contr.Idx) :
    (dot_S400x4395_S4395x128_S400x128_1_0_0_1_n_n.lhsIdx i q 0).val = (i 0).val := by
  unfold DotDims.lhsIdx
  rw [dif_neg (show ¬(0 : Fin S400x4395.rank) ∈ dot_S400x4395_S4395x128_S400x128_1_0_0_1_n_n.lhsBatch by decide), dif_pos (show (0 : Fin S400x4395.rank) ∈ dot_S400x4395_S4395x128_S400x128_1_0_0_1_n_n.lhsNonContracting by decide)]
  rfl
theorem lhs3_1 (i : S400x128.Idx) (q : dot_S400x4395_S4395x128_S400x128_1_0_0_1_n_n.contr.Idx) :
    (dot_S400x4395_S4395x128_S400x128_1_0_0_1_n_n.lhsIdx i q 1).val = (q ⟨0, by decide⟩).val :=
  dot_S400x4395_S4395x128_S400x128_1_0_0_1_n_n.lhsIdx_val_of_single rfl i q
theorem rhs3_0 (i : S400x128.Idx) (q : dot_S400x4395_S4395x128_S400x128_1_0_0_1_n_n.contr.Idx) :
    (dot_S400x4395_S4395x128_S400x128_1_0_0_1_n_n.rhsIdx i q 0).val = (q ⟨0, by decide⟩).val :=
  dot_S400x4395_S4395x128_S400x128_1_0_0_1_n_n.rhsIdx_val_of_single rfl i q
theorem rhs3_1 (i : S400x128.Idx) (q : dot_S400x4395_S4395x128_S400x128_1_0_0_1_n_n.contr.Idx) :
    (dot_S400x4395_S4395x128_S400x128_1_0_0_1_n_n.rhsIdx i q 1).val = (i 1).val := by
  unfold DotDims.rhsIdx
  rw [dif_neg (show ¬(1 : Fin S4395x128.rank) ∈ dot_S400x4395_S4395x128_S400x128_1_0_0_1_n_n.rhsBatch by decide), dif_pos (show (1 : Fin S4395x128.rank) ∈ dot_S400x4395_S4395x128_S400x128_1_0_0_1_n_n.rhsNonContracting by decide)]
  rfl

/-- A product into the zero accumulator, read at an index: the row of the left factor against the column of the right
    one, summed over the contracted axis (a change of float format is the identity on extended reals). -/
theorem mm3_apply (l : FVec Ideal S400x4395 .bf16) (r : FVec Ideal S4395x128 .bf16) (p : Fin 400) (q : Fin 128) :
    matmul dot_S400x4395_S4395x128_S400x128_1_0_0_1_n_n none l r (constant (F := Ideal) S400x128 .f32 0x00000000#32) (ix2 p q)
      = ∑ k : Fin 4395, l (ix2 p k) * r (ix2 k q) := by
  refine (Ideal.matmul_constant_zero_apply dot_S400x4395_S4395x128_S400x128_1_0_0_1_n_n none l r (ix2 p q)).trans ?_
  rw [← Equiv.sum_comp (contrEquiv1 dot_S400x4395_S4395x128_S400x128_1_0_0_1_n_n 4395 rfl rfl).symm]
  refine Finset.sum_congr rfl fun k _ => ?_
  have hk := contrEquiv1_symm_val dot_S400x4395_S4395x128_S400x128_1_0_0_1_n_n 4395 rfl rfl k
  have el : dot_S400x4395_S4395x128_S400x128_1_0_0_1_n_n.lhsIdx (ix2 p q) ((contrEquiv1 dot_S400x4395_S4395x128_S400x128_1_0_0_1_n_n 4395 rfl rfl).symm k) = ix2 p k := funext fun a => Fin.ext (by
    match a with
    | ⟨0, _⟩ => exact lhs3_0 _ _
    | ⟨1, _⟩ => exact (lhs3_1 _ _).trans hk)
  have er : dot_S400x4395_S4395x128_S400x128_1_0_0_1_n_n.rhsIdx (ix2 p q) ((contrEquiv1 dot_S400x4395_S4395x128_S400x128_1_0_0_1_n_n 4395 rfl rfl).symm k) = ix2 k q := funext fun a => Fin.ext (by
    match a with
    | ⟨0, _⟩ => exact (rhs3_0 _ _).trans hk
    | ⟨1, _⟩ => exact rhs3_1 _ _)
  rw [el, er]

/-- The product block at an index: row `p` of the left block against column `q` of the right matrix. -/
theorem pay3_apply (x0 : Vec Ideal S400x4395 .f32) (x1 : Vec Ideal S4395x128 .f32) (p : Fin 400) (q : Fin 128) :
    k3_pay1 (F := Ideal) x0 x1 (ix2 p q) = ∑ k : Fin 4395, x0 (ix2 p k) * x1 (ix2 k q) := by
  unfold k3_pay1
  exact mm3_apply _ _ p q

theorem hz3 : (![0, 0] : Fin 2 → Nat) = fun _ => 0 := funext fun a => by fin_cases a <;> rfl

/-- The block indices over the grid: the row blocks move with the point, everything else stays at 0. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

theorem lt3 (t : Fin cfg3.N) : t.val < 50 := Nat.lt_of_lt_of_eq t.isLt N_3

/-- The left block at point `t` is rows `400 t … 400 t + 399` of the left matrix. -/
theorem read3_0 (c : Dev nD) (t : Fin cfg3.N) (p : Fin 400) (k : Fin 4395) :
    iblk3 V c 0 t (ix2 p k)
      = (V c main_arg1 : S20000x4395.Idx → EReal) (ix2 (⟨t.val * 400 + p.val, by have := lt3 t; have := p.isLt; omega⟩ : Fin 20000) k) := by
  obtain ⟨e0, e1, -⟩ := idx_facts3 t
  show V c main_arg1 (((cfg3.win 0).blk t).view.emb (ix2 p k)) = _
  refine congrArg (V c main_arg1) (funext fun a => Fin.ext ?_)
  match a with
  | ⟨0, _⟩ => show win3_0.index t (0 : Fin 2) * 400 + 1 * p.val = t.val * 400 + p.val; rw [e0]; omega
  | ⟨1, _⟩ => show win3_0.index t (1 : Fin 2) * 4395 + 1 * k.val = k.val; rw [e1]; omega

/-- The right block at every point is the whole right matrix. -/
theorem read3_1 (c : Dev nD) (t : Fin cfg3.N) (k : Fin 4395) (q : Fin 128) :
    iblk3 V c 1 t (ix2 k q)
      = (V c main_arg6 : S4395x128.Idx → EReal) (ix2 k q) := by
  obtain ⟨-, -, e2, e3, -⟩ := idx_facts3 t
  show V c main_arg6 (((cfg3.win 1).blk t).view.emb (ix2 k q)) = _
  refine congrArg (V c main_arg6) (funext fun a => Fin.ext ?_)
  match a with
  | ⟨0, _⟩ => show win3_1.index t (0 : Fin 2) * 4395 + 1 * k.val = k.val; rw [e2]; omega
  | ⟨1, _⟩ => show win3_1.index t (1 : Fin 2) * 128 + 1 * q.val = q.val; rw [e3]; omega

/-- The output block's element `(p, q)` sits at row `400 t + p`, column `q` of the product array. -/
theorem emb3_2 (t : Fin cfg3.N) (p : Fin 400) (q : Fin 128) :
    (((cfg3.win 2).blk t).view.emb (ix2 p q) : S20000x128.Idx) = ix2 (⟨t.val * 400 + p.val, by have := lt3 t; have := p.isLt; omega⟩ : Fin 20000) q := by
  obtain ⟨-, -, -, -, e4, e5⟩ := idx_facts3 t
  refine funext fun a => Fin.ext ?_
  match a with
  | ⟨0, _⟩ => show win3_2.index t (0 : Fin 2) * 400 + 1 * p.val = t.val * 400 + p.val; rw [e4]; omega
  | ⟨1, _⟩ => show win3_2.index t (1 : Fin 2) * 128 + 1 * q.val = q.val; rw [e5]; omega

/-- An index of the product array is in point `t`'s block iff each coordinate is in the block's range on its axis. -/
theorem mem_blk3 (t : Fin cfg3.N) (i : S20000x128.Idx) :
    i ∈ ((cfg3.win 2).blk t).view.set ↔ ∀ a : Fin 2, win3_2.index t a * S400x128.size a ≤ (i a).val ∧ (i a).val < win3_2.index t a * S400x128.size a + S400x128.size a := by
  show i ∈ ((View.whole main_v3).slice (win3_2.rect t)).set ↔ _
  rw [View.set_slice_whole, Rect.mem_set_unit]
  exact Iff.rfl

/-- Every index of the product array is in the block of the point its row falls in. -/
theorem cover3 (i : S20000x128.Idx) : ∃ t : Fin cfg3.N, (cfg3.win 2).flush t = true ∧ i ∈ ((cfg3.win 2).blk t).view.set := by
  have hi0 : (i 0).val < 20000 := idx2_lt0 i
  have hi1 : (i 1).val < 128 := idx2_lt1 i
  refine ⟨⟨(i 0).val / 400, by rw [show cfg3.N = 50 from N_3]; omega⟩, flush3_2 _, ?_⟩
  rw [mem_blk3]
  obtain ⟨-, -, -, -, e4, e5⟩ := idx_facts3 ⟨(i 0).val / 400, by rw [show cfg3.N = 50 from N_3]; omega⟩
  intro a
  match a with
  | ⟨0, _⟩ => show win3_2.index _ (0 : Fin 2) * 400 ≤ (i 0).val ∧ (i 0).val < win3_2.index _ (0 : Fin 2) * 400 + 400; rw [e4]; show (i 0).val / 400 * 400 ≤ (i 0).val ∧ (i 0).val < (i 0).val / 400 * 400 + 400; omega
  | ⟨1, _⟩ => show win3_2.index _ (1 : Fin 2) * 128 ≤ (i 1).val ∧ (i 1).val < win3_2.index _ (1 : Fin 2) * 128 + 128; rw [e5]; omega

/-- The arrays the region reads and the one it leaves, as functions on their literal index types. -/
abbrev inL3 (c : Dev nD) : S20000x4395.Idx → EReal := V c main_arg1
abbrev inR3 (c : Dev nD) : S4395x128.Idx → EReal := V c main_arg6
abbrev res3 (c : Dev nD) : S20000x128.Idx → EReal := (dat3 V c).arrAt 2 cfg3.N

/-- The matrix product entry by entry: entry `(i, j)` is row `i` of the left matrix against column `j` of the right one. -/
def prod3 (A : S20000x4395.Idx → EReal) (B : S4395x128.Idx → EReal) : S20000x128.Idx → EReal := fun i =>
  ∑ k : Fin 4395, A (ix2 (⟨(i 0).val, idx2_lt0 i⟩ : Fin 20000) k) * B (ix2 k (⟨(i 1).val, idx2_lt1 i⟩ : Fin 128))

/-- What point `t` writes back is block `t` of the product of the two arrays. -/
theorem flushed3_eq (c : Dev nD) (t : Fin cfg3.N) :
    (dat3 V c).flushed 2 t = ((cfg3.win 2).blk t).view.read (Elt Ideal) (prod3 (V c main_arg1) (V c main_arg6)) := by
  show (cfg3.win 2).cut (grid3.coords t) ((dat3 V c).after 2 t) = _
  rw [after3_2]
  unfold out3_2
  rw [View.canon_unit_zero hz3]
  simp only [View.ld_unit_zero (S := S400x4395) hz3, View.ld_unit_zero (S := S4395x128) hz3]
  refine funext fun (j : S400x128.Idx) => ?_
  obtain ⟨p, q, rfl⟩ : ∃ (p : Fin 400) (q : Fin 128), j = ix2 p q := ⟨j 0, j 1, eq_ix2 j⟩
  show k3_pay1 (iblk3 V c 0 t) (iblk3 V c 1 t) (ix2 p q) = prod3 (V c main_arg1) (V c main_arg6) (((cfg3.win 2).blk t).view.emb (ix2 p q))
  rw [emb3_2 t p q]
  refine (pay3_apply _ _ p q).trans ?_
  refine Finset.sum_congr rfl fun k _ => ?_
  rw [read3_0 V c t p k, read3_1 V c t k q]

/-- The product array after the region: the blocks of rows tile it. -/
theorem final3 (c : Dev nD) : (dat3 V c).arrAt 2 cfg3.N = prod3 (V c main_arg1) (V c main_arg6) :=
  (dat3 V c).arrAt_eq_of_cover 2 (prod3 (V c main_arg1) (V c main_arg6)) (fun t _ => flushed3_eq V c t) cover3

/-- Read at an index. -/
theorem final3_apply (c : Dev nD) (i : Fin 20000) (j : Fin 128) :
    res3 V c (ix2 i j) = ∑ k : Fin 4395, inL3 V c (ix2 i k) * inR3 V c (ix2 k j) := by
  show (dat3 V c).arrAt 2 cfg3.N (ix2 i j) = _
  rw [final3]
  rfl

/-- The same with the two arrays named: whatever they are known to be, the product is of those. -/
theorem final3_apply_of (c : Dev nD) (A : S20000x4395.Idx → EReal) (B : S4395x128.Idx → EReal) (hA : inL3 V c = A) (hB : inR3 V c = B)
    (i : Fin 20000) (j : Fin 128) : res3 V c (ix2 i j) = ∑ k : Fin 4395, A (ix2 i k) * B (ix2 k j) := by
  subst hA hB
  exact final3_apply V c i j

end Cert.KernelIdeal.HandValue

end
-- ==== Proof.Bridge.RefDots.lean ====
/- The reference's four matrix products, index by index: an array whose entry (i, j) is the sum over k of the products of the
   operands' entries IS the reference's product (its dot_general is that sum on the extended reals); for the first one the
   left operand is read transposed. -/
import proofs.«115049_j15814069584107_1_alg».proof.Proof.Gen.ReferenceIdeal.Read
import Idealize.ShloMosaic.Lib.ValueIdx

set_option maxRecDepth 16384

noncomputable section

namespace Cert.Proof.Bridge

open Cert.ReferenceIdeal Cert.ReferenceIdeal.Read
open Idealize.ShloMosaic Idealize.ShloMosaic.TcCoe Idealize.SL.Sem Idealize.ShloMosaic.ValueIdx

/-- An array whose entry (i, j) is ∑ₖ x3[i, k] · x9[k, j] is the reference's product `val_main_v2`. -/
theorem dot_eq_v2 (x3 : (⟨S20000x5000, .f32⟩ : BufTy).Contents (Elt Ideal)) (x9 : (⟨S5000x128, .f32⟩ : BufTy).Contents (Elt Ideal)) (out : (⟨S20000x128, .f32⟩ : BufTy).Contents (Elt Ideal))
    (h : ∀ (i : Fin 20000) (j : Fin 128), out (ix2 i j) = ∑ k : Fin 5000, x3 (ix2 i k) * x9 (ix2 k j)) :
    out = val_main_v2 (F := Ideal) x3 x9 := by
  funext idx
  obtain ⟨i, j, rfl⟩ : ∃ (i : Fin 20000) (j : Fin 128), idx = ix2 i j := ⟨idx 0, idx 1, eq_ix2 idx⟩
  rw [h, val_main_v2_apply]
  refine Finset.sum_congr rfl fun k _ => ?_
  have el : lidx_main_v2 (ix2 i j) k = ix2 i k := funext fun a => Fin.ext (by match a with | ⟨0, _⟩ => rfl | ⟨1, _⟩ => rfl)
  have er : ridx_main_v2 (ix2 i j) k = ix2 k j := funext fun a => Fin.ext (by match a with | ⟨0, _⟩ => rfl | ⟨1, _⟩ => rfl)
  rw [el, er]

/-- An array whose entry (i, j) is ∑ₖ x0[i, k] · x4[k, j] is the reference's product `val_main_v3`. -/
theorem dot_eq_v3 (x0 : (⟨S5000x383, .f32⟩ : BufTy).Contents (Elt Ideal)) (x4 : (⟨S383x128, .f32⟩ : BufTy).Contents (Elt Ideal)) (out : (⟨S5000x128, .f32⟩ : BufTy).Contents (Elt Ideal))
    (h : ∀ (i : Fin 5000) (j : Fin 128), out (ix2 i j) = ∑ k : Fin 383, x0 (ix2 i k) * x4 (ix2 k j)) :
    out = val_main_v3 (F := Ideal) x0 x4 := by
  funext idx
  obtain ⟨i, j, rfl⟩ : ∃ (i : Fin 5000) (j : Fin 128), idx = ix2 i j := ⟨idx 0, idx 1, eq_ix2 idx⟩
  rw [h, val_main_v3_apply]
  refine Finset.sum_congr rfl fun k _ => ?_
  have el : lidx_main_v3 (ix2 i j) k = ix2 i k := funext fun a => Fin.ext (by match a with | ⟨0, _⟩ => rfl | ⟨1, _⟩ => rfl)
  have er : ridx_main_v3 (ix2 i j) k = ix2 k j := funext fun a => Fin.ext (by match a with | ⟨0, _⟩ => rfl | ⟨1, _⟩ => rfl)
  rw [el, er]

/-- An array whose entry (i, j) is ∑ₖ x1[i, k] · x6[k, j] is the reference's product `val_main_v12`. -/
theorem dot_eq_v12 (x1 : (⟨S20000x4395, .f32⟩ : BufTy).Contents (Elt Ideal)) (x6 : (⟨S4395x128, .f32⟩ : BufTy).Contents (Elt Ideal)) (out : (⟨S20000x128, .f32⟩ : BufTy).Contents (Elt Ideal))
    (h : ∀ (i : Fin 20000) (j : Fin 128), out (ix2 i j) = ∑ k : Fin 4395, x1 (ix2 i k) * x6 (ix2 k j)) :
    out = val_main_v12 (F := Ideal) x1 x6 := by
  funext idx
  obtain ⟨i, j, rfl⟩ : ∃ (i : Fin 20000) (j : Fin 128), idx = ix2 i j := ⟨idx 0, idx 1, eq_ix2 idx⟩
  rw [h, val_main_v12_apply]
  refine Finset.sum_congr rfl fun k _ => ?_
  have el : lidx_main_v12 (ix2 i j) k = ix2 i k := funext fun a => Fin.ext (by match a with | ⟨0, _⟩ => rfl | ⟨1, _⟩ => rfl)
  have er : ridx_main_v12 (ix2 i j) k = ix2 k j := funext fun a => Fin.ext (by match a with | ⟨0, _⟩ => rfl | ⟨1, _⟩ => rfl)
  rw [el, er]

/-- An array whose entry (i, j) is ∑ₖ x2[k, i] · x8[k, j] is the reference's product of the transposed x2 with x8. -/
theorem dot_eq_v1 (x2 : (⟨S2000x5000, .f32⟩ : BufTy).Contents (Elt Ideal)) (x8 : (⟨S2000x128, .f32⟩ : BufTy).Contents (Elt Ideal)) (out : (⟨S5000x128, .f32⟩ : BufTy).Contents (Elt Ideal))
    (h : ∀ (i : Fin 5000) (j : Fin 128), out (ix2 i j) = ∑ k : Fin 2000, x2 (ix2 k i) * x8 (ix2 k j)) :
    out = val_main_v1 (F := Ideal) x2 x8 := by
  funext idx
  obtain ⟨i, j, rfl⟩ : ∃ (i : Fin 5000) (j : Fin 128), idx = ix2 i j := ⟨idx 0, idx 1, eq_ix2 idx⟩
  rw [h, val_main_v1_apply]
  refine Finset.sum_congr rfl fun k _ => ?_
  rw [val_main_v0_apply]
  have el : idx_main_v0 (lidx_main_v1 (ix2 i j) k) = ix2 k i := funext fun a => Fin.ext (by match a with | ⟨0, _⟩ => rfl | ⟨1, _⟩ => rfl)
  have er : ridx_main_v1 (ix2 i j) k = ix2 k j := funext fun a => Fin.ext (by match a with | ⟨0, _⟩ => rfl | ⟨1, _⟩ => rfl)
  rw [el, er]

end Cert.Proof.Bridge

end
-- ==== Proof.Bridge.K03.lean ====
/- The four matrix products: what regions 0–3 leave in their output arrays are the reference's four products of the launch arguments, and they are still there when the first stretch of host operations begins. -/
import proofs.«115049_j15814069584107_1_alg».proof.Proof.KI.Run
import proofs.«115049_j15814069584107_1_alg».proof.Proof.KI.Val0
import proofs.«115049_j15814069584107_1_alg».proof.Proof.KI.Val1
import proofs.«115049_j15814069584107_1_alg».proof.Proof.KI.Val2
import proofs.«115049_j15814069584107_1_alg».proof.Proof.KI.Val3
import proofs.«115049_j15814069584107_1_alg».proof.Proof.Bridge.RefDots

set_option maxRecDepth 16384

noncomputable section

namespace Cert.Proof.Bridge

open Cert.KernelIdeal Cert.KernelIdeal.Gen Cert.KernelIdeal.Hand Cert.KernelIdeal.HandValue
open Idealize.ShloMosaic Idealize.ShloMosaic.TcCoe Idealize.SL.Sem Idealize.ShloMosaic.ValueIdx

variable (m : (ℓ : Loc nD τ sig) → Buf (Elt Ideal) ℓ) (ρ : Dev nD → PrngReg) (c : Dev nD)

/-- What region 0 leaves in its output array is the reference's product of the same two launch arguments. -/
theorem E0 : W1 m ρ c (Proc.devRef .tc main_v0) = Cert.ReferenceIdeal.Read.val_main_v1 (F := Ideal) (m ((c : Thread nD τ).loc main_arg2)) (m ((c : Thread nD τ).loc main_arg8)) := by
  refine (W1_main_v0 m ρ c).trans (dot_eq_v1 _ _ _ fun i j => ?_)
  have ha : V0 m ρ c main_arg2 = (m ((c : Thread nD τ).loc main_arg2)) := W0_eq m ρ c main_arg2
  have hb : V0 m ρ c main_arg8 = (m ((c : Thread nD τ).loc main_arg8)) := W0_eq m ρ c main_arg8
  refine (final0_apply (V0 m ρ) c i j).trans ?_
  simp only [A0, B0, ha, hb]

/-- What region 1 leaves in its output array is the reference's product of the same two launch arguments. -/
theorem E1 : W2 m ρ c (Proc.devRef .tc main_v1) = Cert.ReferenceIdeal.Read.val_main_v2 (F := Ideal) (m ((c : Thread nD τ).loc main_arg3)) (m ((c : Thread nD τ).loc main_arg9)) := by
  refine (W2_main_v1 m ρ c).trans (dot_eq_v2 _ _ _ fun i j => ?_)
  have ha : V1 m ρ c main_arg3 = (m ((c : Thread nD τ).loc main_arg3)) := W1_of_unwritten m ρ c main_arg3 (by decide)
  have hb : V1 m ρ c main_arg9 = (m ((c : Thread nD τ).loc main_arg9)) := W1_of_unwritten m ρ c main_arg9 (by decide)
  refine (final1_apply (V1 m ρ) c i j).trans ?_
  simp only [inL1, inR1, ha, hb]

/-- What region 2 leaves in its output array is the reference's product of the same two launch arguments. -/
theorem E2 : W3 m ρ c (Proc.devRef .tc main_v2) = Cert.ReferenceIdeal.Read.val_main_v3 (F := Ideal) (m ((c : Thread nD τ).loc main_arg0)) (m ((c : Thread nD τ).loc main_arg4)) := by
  refine (W3_main_v2 m ρ c).trans (dot_eq_v3 _ _ _ fun i j => ?_)
  have ha : V2 m ρ c main_arg0 = (m ((c : Thread nD τ).loc main_arg0)) := W2_of_unwritten m ρ c main_arg0 (by decide)
  have hb : V2 m ρ c main_arg4 = (m ((c : Thread nD τ).loc main_arg4)) := W2_of_unwritten m ρ c main_arg4 (by decide)
  refine (final2_apply (V2 m ρ) c i j).trans ?_
  simp only [inL2, inR2, ha, hb]

/-- What region 3 leaves in its output array is the reference's product of the same two launch arguments. -/
theorem E3 : W4 m ρ c (Proc.devRef .tc main_v3) = Cert.ReferenceIdeal.Read.val_main_v12 (F := Ideal) (m ((c : Thread nD τ).loc main_arg1)) (m ((c : Thread nD τ).loc main_arg6)) := by
  refine (W4_main_v3 m ρ c).trans (dot_eq_v12 _ _ _ fun i j => ?_)
  have ha : V3 m ρ c main_arg1 = (m ((c : Thread nD τ).loc main_arg1)) := W3_of_unwritten m ρ c main_arg1 (by decide)
  have hb : V3 m ρ c main_arg6 = (m ((c : Thread nD τ).loc main_arg6)) := W3_of_unwritten m ρ c main_arg6 (by decide)
  refine (final3_apply (V3 m ρ) c i j).trans ?_
  simp only [inL3, inR3, ha, hb]

/-! ## The same four arrays when the host stretch begins (later regions write other arrays) -/

theorem B4_v0 : W4 m ρ c (Proc.devRef .tc main_v0) = Cert.ReferenceIdeal.Read.val_main_v1 (F := Ideal) (m ((c : Thread nD τ).loc main_arg2)) (m ((c : Thread nD τ).loc main_arg8)) :=
  (W4_of_ne_out m ρ c main_v0 (by decide)).trans ((W3_of_ne_out m ρ c main_v0 (by decide)).trans ((W2_of_ne_out m ρ c main_v0 (by decide)).trans (E0 m ρ c)))
theorem B4_v1 : W4 m ρ c (Proc.devRef .tc main_v1) = Cert.ReferenceIdeal.Read.val_main_v2 (F := Ideal) (m ((c : Thread nD τ).loc main_arg3)) (m ((c : Thread nD τ).loc main_arg9)) :=
  (W4_of_ne_out m ρ c main_v1 (by decide)).trans ((W3_of_ne_out m ρ c main_v1 (by decide)).trans (E1 m ρ c))
theorem B4_v2 : W4 m ρ c (Proc.devRef .tc main_v2) = Cert.ReferenceIdeal.Read.val_main_v3 (F := Ideal) (m ((c : Thread nD τ).loc main_arg0)) (m ((c : Thread nD τ).loc main_arg4)) :=
  (W4_of_ne_out m ρ c main_v2 (by decide)).trans (E2 m ρ c)
theorem B4_v3 : W4 m ρ c (Proc.devRef .tc main_v3) = Cert.ReferenceIdeal.Read.val_main_v12 (F := Ideal) (m ((c : Thread nD τ).loc main_arg1)) (m ((c : Thread nD τ).loc main_arg6)) := E3 m ρ c

end Cert.Proof.Bridge

end
-- ==== Proof.KI.Val4.lean ====
/- Region 4 at the exact extended reals: the array it leaves is, entry by entry, the larger of zero and
   first · Ws + second · Wn + bias, for the two [25000, 128] arrays it reads, the two [128, 64] weight matrices and the
   [1, 64] bias row. One grid point handles rows 1000 t … 1000 t + 999 of the two arrays against the whole weight matrices
   and the whole bias row; the casts to the same shape and to a shorter float format are identities on extended reals, the
   accumulators start at zero and the bias row is repeated down the rows, so an entry of the block is the two plain sums
   plus the bias entry, then the maximum with zero. The twenty-five blocks of rows tile the output array. No law of
   arithmetic is used: both sides are the same expression. -/
import proofs.«115049_j15814069584107_1_alg».proof.Proof.KI.R4
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz4 : (![0, 0] : Fin 2 → Nat) = fun _ => 0 := funext fun a => by fin_cases a <;> rfl

theorem lhs4_0 (i : S1000x64.Idx) (q : dot_S1000x128_S128x64_S1000x64_1_0_0_1_n_n.contr.Idx) :
    (dot_S1000x128_S128x64_S1000x64_1_0_0_1_n_n.lhsIdx i q 0).val = (i 0).val := by
  unfold DotDims.lhsIdx
  rw [dif_neg (show ¬(0 : Fin S1000x128.rank) ∈ dot_S1000x128_S128x64_S1000x64_1_0_0_1_n_n.lhsBatch by decide), dif_pos (show (0 : Fin S1000x128.rank) ∈ dot_S1000x128_S128x64_S1000x64_1_0_0_1_n_n.lhsNonContracting by decide)]
  rfl
theorem lhs4_1 (i : S1000x64.Idx) (q : dot_S1000x128_S128x64_S1000x64_1_0_0_1_n_n.contr.Idx) :
    (dot_S1000x128_S128x64_S1000x64_1_0_0_1_n_n.lhsIdx i q 1).val = (q ⟨0, by decide⟩).val :=
  dot_S1000x128_S128x64_S1000x64_1_0_0_1_n_n.lhsIdx_val_of_single rfl i q
theorem rhs4_0 (i : S1000x64.Idx) (q : dot_S1000x128_S128x64_S1000x64_1_0_0_1_n_n.contr.Idx) :
    (dot_S1000x128_S128x64_S1000x64_1_0_0_1_n_n.rhsIdx i q 0).val = (q ⟨0, by decide⟩).val :=
  dot_S1000x128_S128x64_S1000x64_1_0_0_1_n_n.rhsIdx_val_of_single rfl i q
theorem rhs4_1 (i : S1000x64.Idx) (q : dot_S1000x128_S128x64_S1000x64_1_0_0_1_n_n.contr.Idx) :
    (dot_S1000x128_S128x64_S1000x64_1_0_0_1_n_n.rhsIdx i q 1).val = (i 1).val := by
  unfold DotDims.rhsIdx
  rw [dif_neg (show ¬(1 : Fin S128x64.rank) ∈ dot_S1000x128_S128x64_S1000x64_1_0_0_1_n_n.rhsBatch by decide), dif_pos (show (1 : Fin S128x64.rank) ∈ dot_S1000x128_S128x64_S1000x64_1_0_0_1_n_n.rhsNonContracting by decide)]
  rfl

/-- A product into the zero accumulator, read at an index: the row of the left factor against the column of the right
    one, summed over the contracted axis (a change of float format is the identity on extended reals). -/
theorem mm4_apply (l : FVec Ideal S1000x128 .bf16) (r : FVec Ideal S128x64 .bf16) (p : Fin 1000) (q : Fin 64) :
    matmul dot_S1000x128_S128x64_S1000x64_1_0_0_1_n_n none l r (constant (F := Ideal) S1000x64 .f32 0x00000000#32) (ix2 p q)
      = ∑ k : Fin 128, l (ix2 p k) * r (ix2 k q) := by
  refine (Ideal.matmul_constant_zero_apply dot_S1000x128_S128x64_S1000x64_1_0_0_1_n_n none l r (ix2 p q)).trans ?_
  rw [← Equiv.sum_comp (contrEquiv1 dot_S1000x128_S128x64_S1000x64_1_0_0_1_n_n 128 rfl rfl).symm]
  refine Finset.sum_congr rfl fun k _ => ?_
  have hk := contrEquiv1_symm_val dot_S1000x128_S128x64_S1000x64_1_0_0_1_n_n 128 rfl rfl k
  have el : dot_S1000x128_S128x64_S1000x64_1_0_0_1_n_n.lhsIdx (ix2 p q) ((contrEquiv1 dot_S1000x128_S128x64_S1000x64_1_0_0_1_n_n 128 rfl rfl).symm k) = ix2 p k := funext fun a => Fin.ext (by
    match a with
    | ⟨0, _⟩ => exact lhs4_0 _ _
    | ⟨1, _⟩ => exact (lhs4_1 _ _).trans hk)
  have er : dot_S1000x128_S128x64_S1000x64_1_0_0_1_n_n.rhsIdx (ix2 p q) ((contrEquiv1 dot_S1000x128_S128x64_S1000x64_1_0_0_1_n_n 128 rfl rfl).symm k) = ix2 k q := funext fun a => Fin.ext (by
    match a with
    | ⟨0, _⟩ => exact (rhs4_0 _ _).trans hk
    | ⟨1, _⟩ => exact rhs4_1 _ _)
  rw [el, er]

/-- The body's block at an index: row `p` of the first block against column `q` of the first weight matrix, plus row `p`
    of the second block against column `q` of the second weight matrix, plus entry `q` of the bias row, and the larger of that and zero. The casts to
    the same shape and to a shorter float format are identities, the bias row is repeated down the rows. -/
theorem pay4_apply (x0 x1 : Vec Ideal S1000x128 .f32) (w0 w1 : Vec Ideal S128x64 .f32) (b : Vec Ideal S1x64 .f32) (p : Fin 1000) (q : Fin 64) :
    k4_pay1 (F := Ideal) x0 x1 w0 w1 b (ix2 p q)
      = max ((∑ k : Fin 128, x0 (ix2 p k) * w0 (ix2 k q)) + (∑ k : Fin 128, x1 (ix2 p k) * w1 (ix2 k q)) + b (ix2 (0 : Fin 1) q)) 0 := by
  have e0 : shapeCast S1000x128 x0 shapeCasts_S1000x128_S1000x128 = x0 := shapeCast_self _ _
  have e1 : shapeCast S1000x128 x1 shapeCasts_S1000x128_S1000x128 = x1 := shapeCast_self _ _
  have h0 : matmul dot_S1000x128_S128x64_S1000x64_1_0_0_1_n_n none (truncf .bf16 (shapeCast S1000x128 x0 shapeCasts_S1000x128_S1000x128) bitsLt_bf16_f32) (truncf .bf16 w0 bitsLt_bf16_f32)
      (constant (F := Ideal) S1000x64 .f32 0x00000000#32) (ix2 p q) = ∑ k : Fin 128, x0 (ix2 p k) * w0 (ix2 k q) :=
    (mm4_apply _ _ p q).trans (Finset.sum_congr rfl fun k _ => by rw [e0]; rfl)
  have h1 : matmul dot_S1000x128_S128x64_S1000x64_1_0_0_1_n_n none (truncf .bf16 (shapeCast S1000x128 x1 shapeCasts_S1000x128_S1000x128) bitsLt_bf16_f32) (truncf .bf16 w1 bitsLt_bf16_f32)
      (constant (F := Ideal) S1000x64 .f32 0x00000000#32) (ix2 p q) = ∑ k : Fin 128, x1 (ix2 p k) * w1 (ix2 k q) :=
    (mm4_apply _ _ p q).trans (Finset.sum_congr rfl fun k _ => by rw [e1]; rfl)
  have hb : broadcastTo S1000x64 (shapeCast S1x64 b shapeCasts_S1x64_S1x64) broadcasts_S1x64_S1000x64 (ix2 p q) = b (ix2 (0 : Fin 1) q) := by
    rw [shapeCast_self]; exact broadcastTo_1b_ab_apply b broadcasts_S1x64_S1000x64 p q
  unfold k4_pay1
  exact congrArg₂ max (congrArg₂ (· + ·) (congrArg₂ (· + ·) h0 h1) hb) Ideal.ofBits_zero_f32

/-- The block indices over the grid: the blocks of rows move with the point, the weights and the bias row stay whole. -/
theorem idx_facts4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

theorem lt4 (t : Fin cfg4.N) : t.val < 25 := Nat.lt_of_lt_of_eq t.isLt N_4

/-- The first block at point `t` is rows `1000 t … 1000 t + 999` of the first array. -/
theorem read4_0 (c : Dev nD) (t : Fin cfg4.N) (p : Fin 1000) (k : Fin 128) :
    iblk4 V c 0 t (ix2 p k)
      = (V c main_v20 : S25000x128.Idx → EReal) (ix2 (⟨t.val * 1000 + p.val, by have := lt4 t; have := p.isLt; omega⟩ : Fin 25000) k) := by
  obtain ⟨e0, e1, -⟩ := idx_facts4 t
  show V c main_v20 (((cfg4.win 0).blk t).view.emb (ix2 p k)) = _
  refine congrArg (V c main_v20) (funext fun a => Fin.ext ?_)
  match a with
  | ⟨0, _⟩ => show win4_0.index t (0 : Fin 2) * 1000 + 1 * p.val = t.val * 1000 + p.val; rw [e0]; omega
  | ⟨1, _⟩ => show win4_0.index t (1 : Fin 2) * 128 + 1 * k.val = k.val; rw [e1]; omega

/-- The second block at point `t` is the same rows of the second array. -/
theorem read4_1 (c : Dev nD) (t : Fin cfg4.N) (p : Fin 1000) (k : Fin 128) :
    iblk4 V c 1 t (ix2 p k)
      = (V c main_v39 : S25000x128.Idx → EReal) (ix2 (⟨t.val * 1000 + p.val, by have := lt4 t; have := p.isLt; omega⟩ : Fin 25000) k) := by
  obtain ⟨-, -, e2, e3, -⟩ := idx_facts4 t
  show V c main_v39 (((cfg4.win 1).blk t).view.emb (ix2 p k)) = _
  refine congrArg (V c main_v39) (funext fun a => Fin.ext ?_)
  match a with
  | ⟨0, _⟩ => show win4_1.index t (0 : Fin 2) * 1000 + 1 * p.val = t.val * 1000 + p.val; rw [e2]; omega
  | ⟨1, _⟩ => show win4_1.index t (1 : Fin 2) * 128 + 1 * k.val = k.val; rw [e3]; omega

/-- The two weight blocks at every point are the whole weight matrices. -/
theorem read4_2 (c : Dev nD) (t : Fin cfg4.N) (k : Fin 128) (q : Fin 64) :
    iblk4 V c 2 t (ix2 k q) = (V c main_arg10 : S128x64.Idx → EReal) (ix2 k q) := by
  obtain ⟨-, -, -, -, e4, e5, -⟩ := idx_facts4 t
  show V c main_arg10 (((cfg4.win 2).blk t).view.emb (ix2 k q)) = _
  refine congrArg (V c main_arg10) (funext fun a => Fin.ext ?_)
  match a with
  | ⟨0, _⟩ => show win4_2.index t (0 : Fin 2) * 128 + 1 * k.val = k.val; rw [e4]; omega
  | ⟨1, _⟩ => show win4_2.index t (1 : Fin 2) * 64 + 1 * q.val = q.val; rw [e5]; omega

theorem read4_3 (c : Dev nD) (t : Fin cfg4.N) (k : Fin 128) (q : Fin 64) :
    iblk4 V c 3 t (ix2 k q) = (V c main_arg11 : S128x64.Idx → EReal) (ix2 k q) := by
  obtain ⟨-, -, -, -, -, -, e6, e7, -⟩ := idx_facts4 t
  show V c main_arg11 (((cfg4.win 3).blk t).view.emb (ix2 k q)) = _
  refine congrArg (V c main_arg11) (funext fun a => Fin.ext ?_)
  match a with
  | ⟨0, _⟩ => show win4_3.index t (0 : Fin 2) * 128 + 1 * k.val = k.val; rw [e6]; omega
  | ⟨1, _⟩ => show win4_3.index t (1 : Fin 2) * 64 + 1 * q.val = q.val; rw [e7]; omega

/-- The bias block at every point is the whole bias row. -/
theorem read4_4 (c : Dev nD) (t : Fin cfg4.N) (q : Fin 64) :
    iblk4 V c 4 t (ix2 (0 : Fin 1) q) = (V c main_v40 : S1x64.Idx → EReal) (ix2 (0 : Fin 1) q) := by
  obtain ⟨-, -, -, -, -, -, -, -, e8, e9, -⟩ := idx_facts4 t
  show V c main_v40 (((cfg4.win 4).blk t).view.emb (ix2 (0 : Fin 1) q)) = _
  refine congrArg (V c main_v40) (funext fun a => Fin.ext ?_)
  match a with
  | ⟨0, _⟩ => show win4_4.index t (0 : Fin 2) * 1 + 1 * 0 = 0; rw [e8]
  | ⟨1, _⟩ => show win4_4.index t (1 : Fin 2) * 64 + 1 * q.val = q.val; rw [e9]; omega

/-- The output block's element `(p, q)` sits at row `1000 t + p`, column `q` of the output array. -/
theorem emb4_5 (t : Fin cfg4.N) (p : Fin 1000) (q : Fin 64) :
    (((cfg4.win 5).blk t).view.emb (ix2 p q) : S25000x64.Idx) = ix2 (⟨t.val * 1000 + p.val, by have := lt4 t; have := p.isLt; omega⟩ : Fin 25000) q := by
  obtain ⟨-, -, -, -, -, -, -, -, -, -, e10, e11⟩ := idx_facts4 t
  refine funext fun a => Fin.ext ?_
  match a with
  | ⟨0, _⟩ => show win4_5.index t (0 : Fin 2) * 1000 + 1 * p.val = t.val * 1000 + p.val; rw [e10]; omega
  | ⟨1, _⟩ => show win4_5.index t (1 : Fin 2) * 64 + 1 * q.val = q.val; rw [e11]; omega

/-- An index of the output array is in point `t`'s block iff each coordinate is in the block's range on its axis. -/
theorem mem_blk4 (t : Fin cfg4.N) (i : S25000x64.Idx) :
    i ∈ ((cfg4.win 5).blk t).view.set ↔ ∀ a : Fin 2, win4_5.index t a * S1000x64.size a ≤ (i a).val ∧ (i a).val < win4_5.index t a * S1000x64.size a + S1000x64.size a := by
  show i ∈ ((View.whole main_v41).slice (win4_5.rect t)).set ↔ _
  rw [View.set_slice_whole, Rect.mem_set_unit]
  exact Iff.rfl

/-- Every index of the output array is in the block of the point its row falls in. -/
theorem cover4 (i : S25000x64.Idx) : ∃ t : Fin cfg4.N, (cfg4.win 5).flush t = true ∧ i ∈ ((cfg4.win 5).blk t).view.set := by
  have hi0 : (i 0).val < 25000 := idx2_lt0 i
  have hi1 : (i 1).val < 64 := idx2_lt1 i
  refine ⟨⟨(i 0).val / 1000, by rw [show cfg4.N = 25 from N_4]; omega⟩, flush4_5 _, ?_⟩
  rw [mem_blk4]
  obtain ⟨-, -, -, -, -, -, -, -, -, -, e10, e11⟩ := idx_facts4 ⟨(i 0).val / 1000, by rw [show cfg4.N = 25 from N_4]; omega⟩
  intro a
  match a with
  | ⟨0, _⟩ => show win4_5.index _ (0 : Fin 2) * 1000 ≤ (i 0).val ∧ (i 0).val < win4_5.index _ (0 : Fin 2) * 1000 + 1000; rw [e10]; show (i 0).val / 1000 * 1000 ≤ (i 0).val ∧ (i 0).val < (i 0).val / 1000 * 1000 + 1000; omega
  | ⟨1, _⟩ => show win4_5.index _ (1 : Fin 2) * 64 ≤ (i 1).val ∧ (i 1).val < win4_5.index _ (1 : Fin 2) * 64 + 64; rw [e11]; omega

/-- The arrays the region reads and the one it leaves, as functions on their literal index types. -/
abbrev inH4 (c : Dev nD) : S25000x128.Idx → EReal := V c main_v20
abbrev inN4 (c : Dev nD) : S25000x128.Idx → EReal := V c main_v39
abbrev inWs4 (c : Dev nD) : S128x64.Idx → EReal := V c main_arg10
abbrev inWn4 (c : Dev nD) : S128x64.Idx → EReal := V c main_arg11
abbrev inB4 (c : Dev nD) : S1x64.Idx → EReal := V c main_v40
abbrev res4 (c : Dev nD) : S25000x64.Idx → EReal := (dat4 V c).arrAt 5 cfg4.N

/-- The layer entry by entry: row `i` of the first array against column `j` of the first weight matrix, plus row `i` of the
    second array against column `j` of the second weight matrix, plus entry `j` of the bias row, and the larger of that and zero. -/
def lin4 (H N : S25000x128.Idx → EReal) (Ws Wn : S128x64.Idx → EReal) (b : S1x64.Idx → EReal) : S25000x64.Idx → EReal := fun i =>
  max ((∑ k : Fin 128, H (ix2 (⟨(i 0).val, idx2_lt0 i⟩ : Fin 25000) k) * Ws (ix2 k (⟨(i 1).val, idx2_lt1 i⟩ : Fin 64)))
    + (∑ k : Fin 128, N (ix2 (⟨(i 0).val, idx2_lt0 i⟩ : Fin 25000) k) * Wn (ix2 k (⟨(i 1).val, idx2_lt1 i⟩ : Fin 64)))
    + b (ix2 (0 : Fin 1) (⟨(i 1).val, idx2_lt1 i⟩ : Fin 64))) 0

/-- What point `t` writes back is block `t` of the layer of the five arrays. -/
theorem flushed4_eq (c : Dev nD) (t : Fin cfg4.N) :
    (dat4 V c).flushed 5 t = ((cfg4.win 5).blk t).view.read (Elt Ideal) (lin4 (V c main_v20) (V c main_v39) (V c main_arg10) (V c main_arg11) (V c main_v40)) := by
  show (cfg4.win 5).cut (grid4.coords t) ((dat4 V c).after 5 t) = _
  rw [after4_5]
  unfold out4_5
  rw [View.canon_unit_zero hz4]
  simp only [View.ld_unit_zero (S := S1000x128) hz4, View.ld_unit_zero (S := S128x64) hz4, View.ld_unit_zero (S := S1x64) hz4]
  refine funext fun (j : S1000x64.Idx) => ?_
  obtain ⟨p, q, rfl⟩ : ∃ (p : Fin 1000) (q : Fin 64), j = ix2 p q := ⟨j 0, j 1, eq_ix2 j⟩
  show k4_pay1 (iblk4 V c 0 t) (iblk4 V c 1 t) (iblk4 V c 2 t) (iblk4 V c 3 t) (iblk4 V c 4 t) (ix2 p q)
    = lin4 (V c main_v20) (V c main_v39) (V c main_arg10) (V c main_arg11) (V c main_v40) (((cfg4.win 5).blk t).view.emb (ix2 p q))
  rw [emb4_5 t p q]
  refine (pay4_apply _ _ _ _ _ p q).trans ?_
  refine congrArg₂ max (congrArg₂ (· + ·) (congrArg₂ (· + ·) (Finset.sum_congr rfl fun k _ => ?_) (Finset.sum_congr rfl fun k _ => ?_)) ?_) rfl
  · rw [read4_0 V c t p k, read4_2 V c t k q]
  · rw [read4_1 V c t p k, read4_3 V c t k q]
  · exact read4_4 V c t q

/-- The output array after the region: the blocks of rows tile it. -/
theorem final4 (c : Dev nD) : (dat4 V c).arrAt 5 cfg4.N = lin4 (V c main_v20) (V c main_v39) (V c main_arg10) (V c main_arg11) (V c main_v40) :=
  (dat4 V c).arrAt_eq_of_cover 5 (lin4 (V c main_v20) (V c main_v39) (V c main_arg10) (V c main_arg11) (V c main_v40)) (fun t _ => flushed4_eq V c t) cover4

/-- Read at an index. -/
theorem final4_apply (c : Dev nD) (i : Fin 25000) (j : Fin 64) :
    res4 V c (ix2 i j) = max ((∑ k : Fin 128, inH4 V c (ix2 i k) * inWs4 V c (ix2 k j))
      + (∑ k : Fin 128, inN4 V c (ix2 i k) * inWn4 V c (ix2 k j)) + inB4 V c (ix2 (0 : Fin 1) j)) 0 := by
  show (dat4 V c).arrAt 5 cfg4.N (ix2 i j) = _
  rw [final4]
  rfl

/-- The same with the five arrays named: whatever they are known to be, the layer is of those. -/
theorem final4_apply_of (c : Dev nD) (H N : S25000x128.Idx → EReal) (Ws Wn : S128x64.Idx → EReal) (b : S1x64.Idx → EReal)
    (hH : inH4 V c = H) (hN : inN4 V c = N) (hWs : inWs4 V c = Ws) (hWn : inWn4 V c = Wn) (hb : inB4 V c = b)
    (i : Fin 25000) (j : Fin 64) :
    res4 V c (ix2 i j) = max ((∑ k : Fin 128, H (ix2 i k) * Ws (ix2 k j)) + (∑ k : Fin 128, N (ix2 i k) * Wn (ix2 k j)) + b (ix2 (0 : Fin 1) j)) 0 := by
  subst hH hN hWs hWn hb
  exact final4_apply V c i j

end Cert.KernelIdeal.HandValue

end
-- ==== Proof.Bridge.Glue.lean ====
/- The host arithmetic both programs share, as named functions of the arrays it is applied to.
   `feat`: the node features — rows 0..4999 are 0.9·(Xd + bd) + 0.1·A2, rows 5000..24999 are 0.9·(Xg + bg) + 0.1·B1.
   `nmean128`, `nmean64`: the mean over in-neighbours — the rows gathered at `src` (an index below zero shifted up by the
   number of nodes), summed into the rows named by `dst`, and divided row by row by the larger of the in-degree and one.
   Neither the gather, nor the scatter-add, nor the division is ever opened: both programs apply these same functions. -/
import proofs.«115049_j15814069584107_1_alg».proof.KernelIdeal
import proofs.«115049_j15814069584107_1_alg».proof.Proof.Gen.KernelIdeal

noncomputable section

namespace Cert.Proof.Bridge

open Cert.KernelIdeal Cert.KernelIdeal.Gen
open Idealize.ShloMosaic

variable {F : FTy → Type} [FloatOps F]

/-- The node features from the four products and the two bias vectors. -/
def feat (Xd A2 : (⟨S5000x128, .f32⟩ : BufTy).Contents (Elt F)) (Xg B1 : (⟨S20000x128, .f32⟩ : BufTy).Contents (Elt F)) (bd bg : (⟨S128, .f32⟩ : BufTy).Contents (Elt F)) : (⟨S25000x128, .f32⟩ : BufTy).Contents (Elt F) :=
  concatenate S25000x128 0
    [⟨S5000x128, addf (mulf (broadcastInDim S5000x128 ![] bcast_S_S5000x128 (constant S_ .f32 0x3F666666#32)) (addf Xd (broadcastInDim S5000x128 ![0, 1] bcast_S1x128_S5000x128_0_1 (broadcastInDim S1x128 ![1] bcast_S128_S1x128_1 bd)))) (mulf (broadcastInDim S5000x128 ![] bcast_S_S5000x128 (constant S_ .f32 0x3DCCCCCD#32)) A2)⟩,
     ⟨S20000x128, addf (mulf (broadcastInDim S20000x128 ![] bcast_S_S20000x128 (constant S_ .f32 0x3F666666#32)) (addf Xg (broadcastInDim S20000x128 ![0, 1] bcast_S1x128_S20000x128_0_1 (broadcastInDim S1x128 ![1] bcast_S128_S1x128_1 bg)))) (mulf (broadcastInDim S20000x128 ![] bcast_S_S20000x128 (constant S_ .f32 0x3DCCCCCD#32)) B1)⟩]
    concatenates_S5000x128_S20000x128_S25000x128_d0

/-- The mean over in-neighbours of rows of width 128. -/
def nmean128 (h : (⟨S25000x128, .f32⟩ : BufTy).Contents (Elt F)) (src dst : (⟨S400000, .i32⟩ : BufTy).Contents (Elt F)) : (⟨S25000x128, .f32⟩ : BufTy).Contents (Elt F) :=
  Host.divf
    (Host.scatterAdd scatter_S25000x128_S400000x1_S400000x128_1_0_0_1 (broadcastInDim S25000x128 ![] bcast_S_S25000x128 (constant S_ .f32 0x00000000#32)) (broadcastInDim S400000x1 ![0] bcast_S400000_S400000x1_0 dst)
      (Host.gather gather_S25000x128_S400000x1_S400000x128_1_0_n_n_0_1_1128 h (broadcastInDim S400000x1 ![0] bcast_S400000_S400000x1_0 (select (cmpi .slt src (broadcastInDim S400000 ![] bcast_S_S400000 (constantI S_ 32 0#32))) (addi src (broadcastInDim S400000 ![] bcast_S_S400000 (constantI S_ 32 25000#32))) src))))
    (broadcastInDim S25000x128 ![0, 1] bcast_S25000x1_S25000x128_0_1 (broadcastInDim S25000x1 ![0] bcast_S25000_S25000x1_0 (maximumf (Host.scatterAdd scatter_S25000_S400000x1_S400000_n_0_0_1 (broadcastInDim S25000 ![] bcast_S_S25000 (constant S_ .f32 0x00000000#32)) (broadcastInDim S400000x1 ![0] bcast_S400000_S400000x1_0 dst) (broadcastInDim S400000 ![] bcast_S_S400000 (constant S_ .f32 0x3F800000#32))) (broadcastInDim S25000 ![] bcast_S_S25000 (constant S_ .f32 0x3F800000#32)))))

/-- The mean over in-neighbours of rows of width 64. -/
def nmean64 (h : (⟨S25000x64, .f32⟩ : BufTy).Contents (Elt F)) (src dst : (⟨S400000, .i32⟩ : BufTy).Contents (Elt F)) : (⟨S25000x64, .f32⟩ : BufTy).Contents (Elt F) :=
  Host.divf
    (Host.scatterAdd scatter_S25000x64_S400000x1_S400000x64_1_0_0_1 (broadcastInDim S25000x64 ![] bcast_S_S25000x64 (constant S_ .f32 0x00000000#32)) (broadcastInDim S400000x1 ![0] bcast_S400000_S400000x1_0 dst)
      (Host.gather gather_S25000x64_S400000x1_S400000x64_1_0_n_n_0_1_164 h (broadcastInDim S400000x1 ![0] bcast_S400000_S400000x1_0 (select (cmpi .slt src (broadcastInDim S400000 ![] bcast_S_S400000 (constantI S_ 32 0#32))) (addi src (broadcastInDim S400000 ![] bcast_S_S400000 (constantI S_ 32 25000#32))) src))))
    (broadcastInDim S25000x64 ![0, 1] bcast_S25000x1_S25000x64_0_1 (broadcastInDim S25000x1 ![0] bcast_S25000_S25000x1_0 (maximumf (Host.scatterAdd scatter_S25000_S400000x1_S400000_n_0_0_1 (broadcastInDim S25000 ![] bcast_S_S25000 (constant S_ .f32 0x00000000#32)) (broadcastInDim S400000x1 ![0] bcast_S400000_S400000x1_0 dst) (broadcastInDim S400000 ![] bcast_S_S400000 (constant S_ .f32 0x3F800000#32))) (broadcastInDim S25000 ![] bcast_S_S25000 (constant S_ .f32 0x3F800000#32)))))

end Cert.Proof.Bridge

end
-- ==== Proof.Bridge.Host4a.lean ====
/- The first stretch of host operations between the regions: the node-feature array it writes. -/
import proofs.«115049_j15814069584107_1_alg».proof.Proof.Bridge.Glue
import proofs.«115049_j15814069584107_1_alg».proof.Proof.Gen.KernelIdeal.Launch
import Idealize.ShloMosaic.Lib.StableHlo.Run

set_option maxRecDepth 16384

noncomputable section

namespace Cert.Proof.Bridge

open Cert.KernelIdeal Cert.KernelIdeal.Gen
open Idealize.ShloMosaic Idealize.ShloMosaic.TcCoe Idealize.SL.Sem Idealize.ShloMosaic.StableHlo

variable {F : FTy → Type} [FloatOps F]

set_option maxHeartbeats 4000000 in
/-- After the first stretch the node-feature array is `feat` of what regions 0–3 left and the two bias vectors. -/
theorem host4_v20 (W : Valuation τ sig (Elt F)) :
    StableHlo.after (hostOps4 (F := F)) W (Proc.devRef .tc main_v20) = (feat (W (Proc.devRef .tc main_v2)) (W (Proc.devRef .tc main_v0)) (W (Proc.devRef .tc main_v3)) (W (Proc.devRef .tc main_v1)) (W (Proc.devRef .tc main_arg5)) (W (Proc.devRef .tc main_arg7))) := by
  after_results
  rfl

end Cert.Proof.Bridge

end
-- ==== Proof.Bridge.Host4b.lean ====
/- The first stretch of host operations between the regions: the neighbour means it writes. The stretch is cut after the operation that writes the node features: the later operations gather, scatter-add and divide that array and touch nothing the earlier ones wrote. -/
import proofs.«115049_j15814069584107_1_alg».proof.Proof.Bridge.Glue
import proofs.«115049_j15814069584107_1_alg».proof.Proof.Gen.KernelIdeal.Launch
import Idealize.ShloMosaic.Lib.StableHlo.Run

set_option maxRecDepth 16384

noncomputable section

namespace Cert.Proof.Bridge

open Cert.KernelIdeal Cert.KernelIdeal.Gen
open Idealize.ShloMosaic Idealize.ShloMosaic.TcCoe Idealize.SL.Sem Idealize.ShloMosaic.StableHlo

variable {F : FTy → Type} [FloatOps F]

/-- Running a list of host operations in two parts. -/
theorem after_append' {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons a l ih => simp only [List.cons_append, after_cons, ih]

/-- The first stretch as its first 21 operations (up to the node features) followed by the rest. -/
theorem host4_split (W : Valuation τ sig (Elt F)) :
    StableHlo.after (hostOps4 (F := F)) W = StableHlo.after ((hostOps4 (F := F)).drop 21) (StableHlo.after ((hostOps4 (F := F)).take 21) W) := by
  rw [← after_append', List.take_append_drop]

set_option maxHeartbeats 4000000 in
/-- The operations after the node features: from any contents, the neighbour-mean array they write is the mean over
    in-neighbours of the node-feature array they find, and they leave that array alone. -/
theorem host4_tail (W' : Valuation τ sig (Elt F)) :
    StableHlo.after ((hostOps4 (F := F)).drop 21) W' (Proc.devRef .tc main_v39)
        = nmean128 (W' (Proc.devRef .tc main_v20)) (W' (Proc.devRef .tc main_arg16)) (W' (Proc.devRef .tc main_arg17))
      ∧ StableHlo.after ((hostOps4 (F := F)).drop 21) W' (Proc.devRef .tc main_v20) = W' (Proc.devRef .tc main_v20) := by
  simp only [hostOps4, List.drop_succ_cons, List.drop_zero]
  constructor
  · after_results
    rfl
  · after_results

set_option maxHeartbeats 4000000 in
/-- The first 21 operations write neither index vector. -/
theorem host4_head (W : Valuation τ sig (Elt F)) :
    StableHlo.after ((hostOps4 (F := F)).take 21) W (Proc.devRef .tc main_arg16) = W (Proc.devRef .tc main_arg16)
      ∧ StableHlo.after ((hostOps4 (F := F)).take 21) W (Proc.devRef .tc main_arg17) = W (Proc.devRef .tc main_arg17) := by
  simp only [hostOps4, List.take_succ_cons, List.take_zero]
  constructor <;> after_results

/-- After the first stretch the neighbour-mean array is the mean over in-neighbours of the node-feature array it wrote. -/
theorem host4_v39 (W : Valuation τ sig (Elt F)) :
    StableHlo.after (hostOps4 (F := F)) W (Proc.devRef .tc main_v39)
      = nmean128 (StableHlo.after (hostOps4 (F := F)) W (Proc.devRef .tc main_v20)) (W (Proc.devRef .tc main_arg16)) (W (Proc.devRef .tc main_arg17)) := by
  rw [host4_split W, (host4_tail _).1, (host4_tail _).2, (host4_head W).1, (host4_head W).2]

end Cert.Proof.Bridge

end
-- ==== Proof.Bridge.Host4c.lean ====
/- The first stretch of host operations between the regions: the bias row it writes. -/
import proofs.«115049_j15814069584107_1_alg».proof.Proof.Bridge.Glue
import proofs.«115049_j15814069584107_1_alg».proof.Proof.Gen.KernelIdeal.Launch
import Idealize.ShloMosaic.Lib.StableHlo.Run

set_option maxRecDepth 16384

noncomputable section

namespace Cert.Proof.Bridge

open Cert.KernelIdeal Cert.KernelIdeal.Gen
open Idealize.ShloMosaic Idealize.ShloMosaic.TcCoe Idealize.SL.Sem Idealize.ShloMosaic.StableHlo

variable {F : FTy → Type} [FloatOps F]

set_option maxHeartbeats 4000000 in
/-- After the first stretch the [1, 64] bias row is the [64] bias vector re-laid: its entry (0, j) is the vector's entry j. -/
theorem host4_v40 (W : Valuation τ sig (Elt F)) :
    (StableHlo.after (hostOps4 (F := F)) W (Proc.devRef .tc main_v40) : (⟨S1x64, .f32⟩ : BufTy).Contents (Elt F))
      = shapeCast S1x64 (W (Proc.devRef .tc main_arg12) : (⟨S64, .f32⟩ : BufTy).Contents (Elt F)) shapeCasts_S64_S1x64 := by
  after_results
  rfl

end Cert.Proof.Bridge

end
-- ==== Proof.Bridge.RefGlue.lean ====
/- The reference's own intermediate values are the shared host functions of its own matrix products: its node features are
   `feat` of its four products, its neighbour means the mean over in-neighbours of them. Read off its operations one by
   one; the two programs' shape and side-condition names denote the same literals. -/
import proofs.«115049_j15814069584107_1_alg».proof.Proof.Bridge.Glue
import proofs.«115049_j15814069584107_1_alg».proof.Proof.Gen.ReferenceIdeal.Read

set_option maxRecDepth 16384

noncomputable section

namespace Cert.Proof.Bridge

open Idealize.ShloMosaic Idealize.ShloMosaic.TcCoe Idealize.SL.Sem

variable {F : FTy → Type} [FloatOps F]

/-- The reference's node features are `feat` of its four products. -/
theorem ref_v21 (x0 : (⟨Cert.ReferenceIdeal.S5000x383, .f32⟩ : BufTy).Contents (Elt F)) (x1 : (⟨Cert.ReferenceIdeal.S20000x4395, .f32⟩ : BufTy).Contents (Elt F)) (x2 : (⟨Cert.ReferenceIdeal.S2000x5000, .f32⟩ : BufTy).Contents (Elt F)) (x3 : (⟨Cert.ReferenceIdeal.S20000x5000, .f32⟩ : BufTy).Contents (Elt F)) (x4 : (⟨Cert.ReferenceIdeal.S383x128, .f32⟩ : BufTy).Contents (Elt F)) (x5 : (⟨Cert.ReferenceIdeal.S128, .f32⟩ : BufTy).Contents (Elt F)) (x6 : (⟨Cert.ReferenceIdeal.S4395x128, .f32⟩ : BufTy).Contents (Elt F)) (x7 : (⟨Cert.ReferenceIdeal.S128, .f32⟩ : BufTy).Contents (Elt F)) (x8 : (⟨Cert.ReferenceIdeal.S2000x128, .f32⟩ : BufTy).Contents (Elt F)) (x9 : (⟨Cert.ReferenceIdeal.S5000x128, .f32⟩ : BufTy).Contents (Elt F)) :
    Cert.ReferenceIdeal.Read.val_main_v21 (F := F) x0 x1 x2 x3 x4 x5 x6 x7 x8 x9
      = feat (Cert.ReferenceIdeal.Read.val_main_v3 (F := F) x0 x4) (Cert.ReferenceIdeal.Read.val_main_v1 (F := F) x2 x8) (Cert.ReferenceIdeal.Read.val_main_v12 (F := F) x1 x6) (Cert.ReferenceIdeal.Read.val_main_v2 (F := F) x3 x9) x5 x7 := by
  unfold Cert.ReferenceIdeal.Read.val_main_v21 Cert.ReferenceIdeal.Read.val_main_v20 Cert.ReferenceIdeal.Read.val_main_v19 Cert.ReferenceIdeal.Read.val_main_v18 Cert.ReferenceIdeal.Read.val_main_cst_2 Cert.ReferenceIdeal.Read.val_main_v17 Cert.ReferenceIdeal.Read.val_main_v16 Cert.ReferenceIdeal.Read.val_main_cst_1 Cert.ReferenceIdeal.Read.val_main_v15 Cert.ReferenceIdeal.Read.val_main_v14 Cert.ReferenceIdeal.Read.val_main_v13 Cert.ReferenceIdeal.Read.val_main_v11 Cert.ReferenceIdeal.Read.val_main_v10 Cert.ReferenceIdeal.Read.val_main_v9 Cert.ReferenceIdeal.Read.val_main_cst_0 Cert.ReferenceIdeal.Read.val_main_v8 Cert.ReferenceIdeal.Read.val_main_v7 Cert.ReferenceIdeal.Read.val_main_cst Cert.ReferenceIdeal.Read.val_main_v6 Cert.ReferenceIdeal.Read.val_main_v5 Cert.ReferenceIdeal.Read.val_main_v4
  rfl

/-- The reference's first neighbour means are the mean over in-neighbours of its node features. -/
theorem ref_v40 (x0 : (⟨Cert.ReferenceIdeal.S5000x383, .f32⟩ : BufTy).Contents (Elt F)) (x1 : (⟨Cert.ReferenceIdeal.S20000x4395, .f32⟩ : BufTy).Contents (Elt F)) (x2 : (⟨Cert.ReferenceIdeal.S2000x5000, .f32⟩ : BufTy).Contents (Elt F)) (x3 : (⟨Cert.ReferenceIdeal.S20000x5000, .f32⟩ : BufTy).Contents (Elt F)) (x4 : (⟨Cert.ReferenceIdeal.S383x128, .f32⟩ : BufTy).Contents (Elt F)) (x5 : (⟨Cert.ReferenceIdeal.S128, .f32⟩ : BufTy).Contents (Elt F)) (x6 : (⟨Cert.ReferenceIdeal.S4395x128, .f32⟩ : BufTy).Contents (Elt F)) (x7 : (⟨Cert.ReferenceIdeal.S128, .f32⟩ : BufTy).Contents (Elt F)) (x8 : (⟨Cert.ReferenceIdeal.S2000x128, .f32⟩ : BufTy).Contents (Elt F)) (x9 : (⟨Cert.ReferenceIdeal.S5000x128, .f32⟩ : BufTy).Contents (Elt F)) (x16 x17 : (⟨Cert.ReferenceIdeal.S400000, .i32⟩ : BufTy).Contents (Elt F)) :
    Cert.ReferenceIdeal.Read.val_main_v40 (F := F) x0 x1 x2 x3 x4 x5 x6 x7 x8 x9 x16 x17 = nmean128 (Cert.ReferenceIdeal.Read.val_main_v21 (F := F) x0 x1 x2 x3 x4 x5 x6 x7 x8 x9) x16 x17 := by
  unfold Cert.ReferenceIdeal.Read.val_main_v40 Cert.ReferenceIdeal.Read.val_main_v39 Cert.ReferenceIdeal.Read.val_main_v38 Cert.ReferenceIdeal.Read.val_main_v37 Cert.ReferenceIdeal.Read.val_main_v36 Cert.ReferenceIdeal.Read.val_main_cst_7 Cert.ReferenceIdeal.Read.val_main_v35 Cert.ReferenceIdeal.Read.val_main_v34 Cert.ReferenceIdeal.Read.val_main_v33 Cert.ReferenceIdeal.Read.val_main_cst_6 Cert.ReferenceIdeal.Read.val_main_v32 Cert.ReferenceIdeal.Read.val_main_cst_5 Cert.ReferenceIdeal.Read.val_main_v31 Cert.ReferenceIdeal.Read.val_main_v30 Cert.ReferenceIdeal.Read.val_main_v29 Cert.ReferenceIdeal.Read.val_main_cst_4 Cert.ReferenceIdeal.Read.val_main_v28 Cert.ReferenceIdeal.Read.val_main_v27 Cert.ReferenceIdeal.Read.val_main_v26 Cert.ReferenceIdeal.Read.val_main_v25 Cert.ReferenceIdeal.Read.val_main_v24 Cert.ReferenceIdeal.Read.val_main_c_3 Cert.ReferenceIdeal.Read.val_main_v23 Cert.ReferenceIdeal.Read.val_main_v22 Cert.ReferenceIdeal.Read.val_main_c
  rfl

/-- The reference's second neighbour means are the mean over in-neighbours of its first layer's output. -/
theorem ref_v66 (x0 : (⟨Cert.ReferenceIdeal.S5000x383, .f32⟩ : BufTy).Contents (Elt F)) (x1 : (⟨Cert.ReferenceIdeal.S20000x4395, .f32⟩ : BufTy).Contents (Elt F)) (x2 : (⟨Cert.ReferenceIdeal.S2000x5000, .f32⟩ : BufTy).Contents (Elt F)) (x3 : (⟨Cert.ReferenceIdeal.S20000x5000, .f32⟩ : BufTy).Contents (Elt F)) (x4 : (⟨Cert.ReferenceIdeal.S383x128, .f32⟩ : BufTy).Contents (Elt F)) (x5 : (⟨Cert.ReferenceIdeal.S128, .f32⟩ : BufTy).Contents (Elt F)) (x6 : (⟨Cert.ReferenceIdeal.S4395x128, .f32⟩ : BufTy).Contents (Elt F)) (x7 : (⟨Cert.ReferenceIdeal.S128, .f32⟩ : BufTy).Contents (Elt F)) (x8 : (⟨Cert.ReferenceIdeal.S2000x128, .f32⟩ : BufTy).Contents (Elt F)) (x9 : (⟨Cert.ReferenceIdeal.S5000x128, .f32⟩ : BufTy).Contents (Elt F)) (x10 x11 : (⟨Cert.ReferenceIdeal.S128x64, .f32⟩ : BufTy).Contents (Elt F)) (x12 : (⟨Cert.ReferenceIdeal.S64, .f32⟩ : BufTy).Contents (Elt F)) (x16 x17 : (⟨Cert.ReferenceIdeal.S400000, .i32⟩ : BufTy).Contents (Elt F)) :
    Cert.ReferenceIdeal.Read.val_main_v66 (F := F) x0 x1 x2 x3 x4 x5 x6 x7 x8 x9 x10 x11 x12 x16 x17 = nmean64 (Cert.ReferenceIdeal.Read.val_main_v47 (F := F) x0 x1 x2 x3 x4 x5 x6 x7 x8 x9 x10 x11 x12 x16 x17) x16 x17 := by
  unfold Cert.ReferenceIdeal.Read.val_main_v66 Cert.ReferenceIdeal.Read.val_main_v65 Cert.ReferenceIdeal.Read.val_main_v64 Cert.ReferenceIdeal.Read.val_main_v63 Cert.ReferenceIdeal.Read.val_main_v62 Cert.ReferenceIdeal.Read.val_main_cst_13 Cert.ReferenceIdeal.Read.val_main_v61 Cert.ReferenceIdeal.Read.val_main_v60 Cert.ReferenceIdeal.Read.val_main_v59 Cert.ReferenceIdeal.Read.val_main_cst_12 Cert.ReferenceIdeal.Read.val_main_v58 Cert.ReferenceIdeal.Read.val_main_cst_11 Cert.ReferenceIdeal.Read.val_main_v57 Cert.ReferenceIdeal.Read.val_main_v56 Cert.ReferenceIdeal.Read.val_main_v55 Cert.ReferenceIdeal.Read.val_main_cst_10 Cert.ReferenceIdeal.Read.val_main_v54 Cert.ReferenceIdeal.Read.val_main_v53 Cert.ReferenceIdeal.Read.val_main_v52 Cert.ReferenceIdeal.Read.val_main_v51 Cert.ReferenceIdeal.Read.val_main_v50 Cert.ReferenceIdeal.Read.val_main_c_9 Cert.ReferenceIdeal.Read.val_main_v49 Cert.ReferenceIdeal.Read.val_main_v48 Cert.ReferenceIdeal.Read.val_main_c_8
  rfl

end Cert.Proof.Bridge

end
-- ==== Proof.Bridge.RefSage.lean ====
/- The reference's two graph layers at an index. The first layer's output at node i, feature j is the larger of zero and
   ∑ₖ h[i,k]·Ws1[k,j] + ∑ₖ n[i,k]·Wn1[k,j] + b1[j], with h the node features and n their neighbour means; the second layer's
   is ∑ₖ h1[i,k]·Ws2[k,j] + ∑ₖ n1[i,k]·Wn2[k,j] + b2[j]. Read off the reference's operations one at a time. -/
import proofs.«115049_j15814069584107_1_alg».proof.Proof.Gen.ReferenceIdeal.Read
import Idealize.ShloMosaic.Lib.ValueIdx
import Idealize.ShloMosaic.PureOps.Ideal.Laws

set_option maxRecDepth 16384

noncomputable section

namespace Cert.Proof.Bridge

open Cert.ReferenceIdeal Cert.ReferenceIdeal.Read
open Idealize.ShloMosaic Idealize.ShloMosaic.TcCoe Idealize.SL.Sem Idealize.ShloMosaic.ValueIdx

/-- The first layer's output at an index. -/
theorem v47_at (x0 : (⟨S5000x383, .f32⟩ : BufTy).Contents (Elt Ideal)) (x1 : (⟨S20000x4395, .f32⟩ : BufTy).Contents (Elt Ideal)) (x2 : (⟨S2000x5000, .f32⟩ : BufTy).Contents (Elt Ideal)) (x3 : (⟨S20000x5000, .f32⟩ : BufTy).Contents (Elt Ideal)) (x4 : (⟨S383x128, .f32⟩ : BufTy).Contents (Elt Ideal)) (x5 : (⟨S128, .f32⟩ : BufTy).Contents (Elt Ideal)) (x6 : (⟨S4395x128, .f32⟩ : BufTy).Contents (Elt Ideal)) (x7 : (⟨S128, .f32⟩ : BufTy).Contents (Elt Ideal)) (x8 : (⟨S2000x128, .f32⟩ : BufTy).Contents (Elt Ideal)) (x9 : (⟨S5000x128, .f32⟩ : BufTy).Contents (Elt Ideal)) (x10 x11 : (⟨S128x64, .f32⟩ : BufTy).Contents (Elt Ideal)) (x12 : (⟨S64, .f32⟩ : BufTy).Contents (Elt Ideal)) (x16 x17 : (⟨S400000, .i32⟩ : BufTy).Contents (Elt Ideal)) (i : Fin 25000) (j : Fin 64) :
    val_main_v47 (F := Ideal) x0 x1 x2 x3 x4 x5 x6 x7 x8 x9 x10 x11 x12 x16 x17 (ix2 i j)
      = max ((∑ k : Fin 128, val_main_v21 (F := Ideal) x0 x1 x2 x3 x4 x5 x6 x7 x8 x9 (ix2 i k) * x10 (ix2 k j))
          + (∑ k : Fin 128, val_main_v40 (F := Ideal) x0 x1 x2 x3 x4 x5 x6 x7 x8 x9 x16 x17 (ix2 i k) * x11 (ix2 k j)) + x12 (ix1 j)) 0 := by
  rw [val_main_v47_apply, val_main_v46_apply, val_main_v43_apply, val_main_v41_apply, val_main_v42_apply, val_main_v45_apply,
    val_main_v44_apply, val_main_call0_v0_apply]
  simp only [Ideal.maximumf_def, Ideal.addf_def]
  have e1 : ∀ k : Fin 128, lidx_main_v41 (ix2 i j) k = ix2 i k := fun k => funext fun a => Fin.ext (by match a with | ⟨0, _⟩ => rfl | ⟨1, _⟩ => rfl)
  have e2 : ∀ k : Fin 128, ridx_main_v41 (ix2 i j) k = ix2 k j := fun k => funext fun a => Fin.ext (by match a with | ⟨0, _⟩ => rfl | ⟨1, _⟩ => rfl)
  have e3 : ∀ k : Fin 128, lidx_main_v42 (ix2 i j) k = ix2 i k := fun k => funext fun a => Fin.ext (by match a with | ⟨0, _⟩ => rfl | ⟨1, _⟩ => rfl)
  have e4 : ∀ k : Fin 128, ridx_main_v42 (ix2 i j) k = ix2 k j := fun k => funext fun a => Fin.ext (by match a with | ⟨0, _⟩ => rfl | ⟨1, _⟩ => rfl)
  have e5 : idx_main_v44 (idx_main_v45 (ix2 i j)) = ix1 j := funext fun a => Fin.ext (by match a with | ⟨0, _⟩ => rfl)
  simp only [e1, e2, e3, e4, e5]
  congr 1
  unfold val_main_call0_cst
  simp [constant, Ideal.ofBits_zero_f32]

/-- The second layer's output at an index. -/
theorem v72_at (x0 : (⟨S5000x383, .f32⟩ : BufTy).Contents (Elt Ideal)) (x1 : (⟨S20000x4395, .f32⟩ : BufTy).Contents (Elt Ideal)) (x2 : (⟨S2000x5000, .f32⟩ : BufTy).Contents (Elt Ideal)) (x3 : (⟨S20000x5000, .f32⟩ : BufTy).Contents (Elt Ideal)) (x4 : (⟨S383x128, .f32⟩ : BufTy).Contents (Elt Ideal)) (x5 : (⟨S128, .f32⟩ : BufTy).Contents (Elt Ideal)) (x6 : (⟨S4395x128, .f32⟩ : BufTy).Contents (Elt Ideal)) (x7 : (⟨S128, .f32⟩ : BufTy).Contents (Elt Ideal)) (x8 : (⟨S2000x128, .f32⟩ : BufTy).Contents (Elt Ideal)) (x9 : (⟨S5000x128, .f32⟩ : BufTy).Contents (Elt Ideal)) (x10 x11 : (⟨S128x64, .f32⟩ : BufTy).Contents (Elt Ideal)) (x12 : (⟨S64, .f32⟩ : BufTy).Contents (Elt Ideal)) (x13 x14 : (⟨S64x64, .f32⟩ : BufTy).Contents (Elt Ideal)) (x15 : (⟨S64, .f32⟩ : BufTy).Contents (Elt Ideal)) (x16 x17 : (⟨S400000, .i32⟩ : BufTy).Contents (Elt Ideal)) (i : Fin 25000) (j : Fin 64) :
    val_main_v72 (F := Ideal) x0 x1 x2 x3 x4 x5 x6 x7 x8 x9 x10 x11 x12 x13 x14 x15 x16 x17 (ix2 i j)
      = (∑ k : Fin 64, val_main_v47 (F := Ideal) x0 x1 x2 x3 x4 x5 x6 x7 x8 x9 x10 x11 x12 x16 x17 (ix2 i k) * x13 (ix2 k j))
          + (∑ k : Fin 64, val_main_v66 (F := Ideal) x0 x1 x2 x3 x4 x5 x6 x7 x8 x9 x10 x11 x12 x16 x17 (ix2 i k) * x14 (ix2 k j)) + x15 (ix1 j) := by
  rw [val_main_v72_apply, val_main_v69_apply, val_main_v67_apply, val_main_v68_apply, val_main_v71_apply, val_main_v70_apply]
  simp only [Ideal.addf_def]
  have e1 : ∀ k : Fin 64, lidx_main_v67 (ix2 i j) k = ix2 i k := fun k => funext fun a => Fin.ext (by match a with | ⟨0, _⟩ => rfl | ⟨1, _⟩ => rfl)
  have e2 : ∀ k : Fin 64, ridx_main_v67 (ix2 i j) k = ix2 k j := fun k => funext fun a => Fin.ext (by match a with | ⟨0, _⟩ => rfl | ⟨1, _⟩ => rfl)
  have e3 : ∀ k : Fin 64, lidx_main_v68 (ix2 i j) k = ix2 i k := fun k => funext fun a => Fin.ext (by match a with | ⟨0, _⟩ => rfl | ⟨1, _⟩ => rfl)
  have e4 : ∀ k : Fin 64, ridx_main_v68 (ix2 i j) k = ix2 k j := fun k => funext fun a => Fin.ext (by match a with | ⟨0, _⟩ => rfl | ⟨1, _⟩ => rfl)
  have e5 : idx_main_v70 (idx_main_v71 (ix2 i j)) = ix1 j := funext fun a => Fin.ext (by match a with | ⟨0, _⟩ => rfl)
  simp only [e1, e2, e3, e4, e5]

end Cert.Proof.Bridge

end
-- ==== Proof.Bridge.K4.lean ====
/- The first stretch of host operations and the first graph layer: the node features and their neighbour means that the kernel program's host operations compute from the regions' products are the reference's, and what region 4 leaves — per node the larger of zero and the two weighted sums plus the bias — is the reference's first layer output. -/
import proofs.«115049_j15814069584107_1_alg».proof.Proof.Bridge.K03
import proofs.«115049_j15814069584107_1_alg».proof.Proof.KI.Val4
import proofs.«115049_j15814069584107_1_alg».proof.Proof.Bridge.Host4a
import proofs.«115049_j15814069584107_1_alg».proof.Proof.Bridge.Host4b
import proofs.«115049_j15814069584107_1_alg».proof.Proof.Bridge.Host4c
import proofs.«115049_j15814069584107_1_alg».proof.Proof.Bridge.RefGlue
import proofs.«115049_j15814069584107_1_alg».proof.Proof.Bridge.RefSage
import Idealize.ShloMosaic.Lib.ValueLayout

set_option maxRecDepth 16384

noncomputable section

namespace Cert.Proof.Bridge

open Cert.KernelIdeal Cert.KernelIdeal.Gen Cert.KernelIdeal.Hand Cert.KernelIdeal.HandValue
open Idealize.ShloMosaic Idealize.ShloMosaic.TcCoe Idealize.SL.Sem Idealize.ShloMosaic.ValueIdx

variable (m : (ℓ : Loc nD τ sig) → Buf (Elt Ideal) ℓ) (ρ : Dev nD → PrngReg) (c : Dev nD)

open Idealize.ShloMosaic.StableHlo in
/-- The node features after the first host stretch are the reference's. -/
theorem E4 : W5 m ρ c (Proc.devRef .tc main_v20) = Cert.ReferenceIdeal.Read.val_main_v21 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (host4_v20 (W4 m ρ c)).trans ?_
  rw [B4_v2 m ρ c, B4_v0 m ρ c, B4_v3 m ρ c, B4_v1 m ρ c, W4_of_unwritten m ρ c main_arg5 (by decide), W4_of_unwritten m ρ c main_arg7 (by decide)]
  exact (ref_v21 _ _ _ _ _ _ _ _ _ _).symm

/-- The neighbour means after the first host stretch are the reference's. -/
theorem E5 : W5 m ρ c (Proc.devRef .tc main_v39) = Cert.ReferenceIdeal.Read.val_main_v40 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg16)) (m ((c : Thread nD τ).loc main_arg17)) := by
  refine (host4_v39 (W4 m ρ c)).trans ?_
  rw [show StableHlo.after hostOps4 (W4 m ρ c) (Proc.devRef .tc main_v20) = _ from E4 m ρ c,
    W4_of_unwritten m ρ c main_arg16 (by decide), W4_of_unwritten m ρ c main_arg17 (by decide)]
  exact (ref_v40 _ _ _ _ _ _ _ _ _ _ _ _).symm

/-- The bias row after the first host stretch is the first layer's bias vector re-laid. -/
theorem E6 : (W5 m ρ c (Proc.devRef .tc main_v40) : (⟨S1x64, .f32⟩ : BufTy).Contents (Elt Ideal))
    = shapeCast S1x64 ((m ((c : Thread nD τ).loc main_arg12)) : (⟨S64, .f32⟩ : BufTy).Contents (Elt Ideal)) shapeCasts_S64_S1x64 := by
  refine (host4_v40 (W4 m ρ c)).trans ?_
  rw [W4_of_unwritten m ρ c main_arg12 (by decide)]

/-- What region 4 leaves in its output array is the reference's first layer output. -/
theorem E7 : W6 m ρ c (Proc.devRef .tc main_v41) = Cert.ReferenceIdeal.Read.val_main_v47 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg16)) (m ((c : Thread nD τ).loc main_arg17)) := by
  refine (W6_main_v41 m ρ c).trans ?_
  funext idx
  obtain ⟨i, j, rfl⟩ : ∃ (i : Fin 25000) (j : Fin 64), idx = ix2 i j := ⟨idx 0, idx 1, eq_ix2 idx⟩
  refine (final4_apply_of (V5 m ρ) c _ _ _ _ _ (E4 m ρ c) (E5 m ρ c) (W5_of_unwritten m ρ c main_arg10 (by decide) (by decide))
    (W5_of_unwritten m ρ c main_arg11 (by decide) (by decide)) (E6 m ρ c) i j).trans ?_
  rw [v47_at, shapeCast_a_1a_apply]

end Cert.Proof.Bridge

end
-- ==== Proof.KI.Val5.lean ====
/- Region 5 at the exact extended reals: the array it leaves is, entry by entry, first · Ws + second · Wn + bias, for
   the two [25000, 64] arrays it reads, the two [64, 64] weight matrices and the [1, 64] bias row. One grid point handles
   rows 1000 t … 1000 t + 999 of the two arrays against the whole weight matrices and the whole bias row; the casts to the
   same shape and to a shorter float format are identities on extended reals, the accumulators start at zero and the bias
   row is repeated down the rows, so an entry of the block is the two plain sums plus the bias entry. The twenty-five
   blocks of rows tile the output array. No law of arithmetic is used: both sides are the same expression. -/
import proofs.«115049_j15814069584107_1_alg».proof.Proof.KI.R5
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz5 : (![0, 0] : Fin 2 → Nat) = fun _ => 0 := funext fun a => by fin_cases a <;> rfl

theorem lhs5_0 (i : S1000x64.Idx) (q : dot_S1000x64_S64x64_S1000x64_1_0_0_1_n_n.contr.Idx) :
    (dot_S1000x64_S64x64_S1000x64_1_0_0_1_n_n.lhsIdx i q 0).val = (i 0).val := by
  unfold DotDims.lhsIdx
  rw [dif_neg (show ¬(0 : Fin S1000x64.rank) ∈ dot_S1000x64_S64x64_S1000x64_1_0_0_1_n_n.lhsBatch by decide), dif_pos (show (0 : Fin S1000x64.rank) ∈ dot_S1000x64_S64x64_S1000x64_1_0_0_1_n_n.lhsNonContracting by decide)]
  rfl
theorem lhs5_1 (i : S1000x64.Idx) (q : dot_S1000x64_S64x64_S1000x64_1_0_0_1_n_n.contr.Idx) :
    (dot_S1000x64_S64x64_S1000x64_1_0_0_1_n_n.lhsIdx i q 1).val = (q ⟨0, by decide⟩).val :=
  dot_S1000x64_S64x64_S1000x64_1_0_0_1_n_n.lhsIdx_val_of_single rfl i q
theorem rhs5_0 (i : S1000x64.Idx) (q : dot_S1000x64_S64x64_S1000x64_1_0_0_1_n_n.contr.Idx) :
    (dot_S1000x64_S64x64_S1000x64_1_0_0_1_n_n.rhsIdx i q 0).val = (q ⟨0, by decide⟩).val :=
  dot_S1000x64_S64x64_S1000x64_1_0_0_1_n_n.rhsIdx_val_of_single rfl i q
theorem rhs5_1 (i : S1000x64.Idx) (q : dot_S1000x64_S64x64_S1000x64_1_0_0_1_n_n.contr.Idx) :
    (dot_S1000x64_S64x64_S1000x64_1_0_0_1_n_n.rhsIdx i q 1).val = (i 1).val := by
  unfold DotDims.rhsIdx
  rw [dif_neg (show ¬(1 : Fin S64x64.rank) ∈ dot_S1000x64_S64x64_S1000x64_1_0_0_1_n_n.rhsBatch by decide), dif_pos (show (1 : Fin S64x64.rank) ∈ dot_S1000x64_S64x64_S1000x64_1_0_0_1_n_n.rhsNonContracting by decide)]
  rfl

/-- A product into the zero accumulator, read at an index: the row of the left factor against the column of the right
    one, summed over the contracted axis (a change of float format is the identity on extended reals). -/
theorem mm5_apply (l : FVec Ideal S1000x64 .bf16) (r : FVec Ideal S64x64 .bf16) (p : Fin 1000) (q : Fin 64) :
    matmul dot_S1000x64_S64x64_S1000x64_1_0_0_1_n_n none l r (constant (F := Ideal) S1000x64 .f32 0x00000000#32) (ix2 p q)
      = ∑ k : Fin 64, l (ix2 p k) * r (ix2 k q) := by
  refine (Ideal.matmul_constant_zero_apply dot_S1000x64_S64x64_S1000x64_1_0_0_1_n_n none l r (ix2 p q)).trans ?_
  rw [← Equiv.sum_comp (contrEquiv1 dot_S1000x64_S64x64_S1000x64_1_0_0_1_n_n 64 rfl rfl).symm]
  refine Finset.sum_congr rfl fun k _ => ?_
  have hk := contrEquiv1_symm_val dot_S1000x64_S64x64_S1000x64_1_0_0_1_n_n 64 rfl rfl k
  have el : dot_S1000x64_S64x64_S1000x64_1_0_0_1_n_n.lhsIdx (ix2 p q) ((contrEquiv1 dot_S1000x64_S64x64_S1000x64_1_0_0_1_n_n 64 rfl rfl).symm k) = ix2 p k := funext fun a => Fin.ext (by
    match a with
    | ⟨0, _⟩ => exact lhs5_0 _ _
    | ⟨1, _⟩ => exact (lhs5_1 _ _).trans hk)
  have er : dot_S1000x64_S64x64_S1000x64_1_0_0_1_n_n.rhsIdx (ix2 p q) ((contrEquiv1 dot_S1000x64_S64x64_S1000x64_1_0_0_1_n_n 64 rfl rfl).symm k) = ix2 k q := funext fun a => Fin.ext (by
    match a with
    | ⟨0, _⟩ => exact (rhs5_0 _ _).trans hk
    | ⟨1, _⟩ => exact rhs5_1 _ _)
  rw [el, er]

/-- The body's block at an index: row `p` of the first block against column `q` of the first weight matrix, plus row `p`
    of the second block against column `q` of the second weight matrix, plus entry `q` of the bias row. The casts to
    the same shape and to a shorter float format are identities, the bias row is repeated down the rows. -/
theorem pay5_apply (x0 x1 : Vec Ideal S1000x64 .f32) (w0 w1 : Vec Ideal S64x64 .f32) (b : Vec Ideal S1x64 .f32) (p : Fin 1000) (q : Fin 64) :
    k5_pay1 (F := Ideal) x0 x1 w0 w1 b (ix2 p q)
      = (∑ k : Fin 64, x0 (ix2 p k) * w0 (ix2 k q)) + (∑ k : Fin 64, x1 (ix2 p k) * w1 (ix2 k q)) + b (ix2 (0 : Fin 1) q) := by
  have e0 : shapeCast S1000x64 x0 shapeCasts_S1000x64_S1000x64 = x0 := shapeCast_self _ _
  have e1 : shapeCast S1000x64 x1 shapeCasts_S1000x64_S1000x64 = x1 := shapeCast_self _ _
  have h0 : matmul dot_S1000x64_S64x64_S1000x64_1_0_0_1_n_n none (truncf .bf16 (shapeCast S1000x64 x0 shapeCasts_S1000x64_S1000x64) bitsLt_bf16_f32) (truncf .bf16 w0 bitsLt_bf16_f32)
      (constant (F := Ideal) S1000x64 .f32 0x00000000#32) (ix2 p q) = ∑ k : Fin 64, x0 (ix2 p k) * w0 (ix2 k q) :=
    (mm5_apply _ _ p q).trans (Finset.sum_congr rfl fun k _ => by rw [e0]; rfl)
  have h1 : matmul dot_S1000x64_S64x64_S1000x64_1_0_0_1_n_n none (truncf .bf16 (shapeCast S1000x64 x1 shapeCasts_S1000x64_S1000x64) bitsLt_bf16_f32) (truncf .bf16 w1 bitsLt_bf16_f32)
      (constant (F := Ideal) S1000x64 .f32 0x00000000#32) (ix2 p q) = ∑ k : Fin 64, x1 (ix2 p k) * w1 (ix2 k q) :=
    (mm5_apply _ _ p q).trans (Finset.sum_congr rfl fun k _ => by rw [e1]; rfl)
  have hb : broadcastTo S1000x64 (shapeCast S1x64 b shapeCasts_S1x64_S1x64) broadcasts_S1x64_S1000x64 (ix2 p q) = b (ix2 (0 : Fin 1) q) := by
    rw [shapeCast_self]; exact broadcastTo_1b_ab_apply b broadcasts_S1x64_S1000x64 p q
  unfold k5_pay1
  exact congrArg₂ (· + ·) (congrArg₂ (· + ·) h0 h1) hb

/-- The block indices over the grid: the blocks of rows move with the point, the weights and the bias row stay whole. -/
theorem idx_facts5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

theorem lt5 (t : Fin cfg5.N) : t.val < 25 := Nat.lt_of_lt_of_eq t.isLt N_5

/-- The first block at point `t` is rows `1000 t … 1000 t + 999` of the first array. -/
theorem read5_0 (c : Dev nD) (t : Fin cfg5.N) (p : Fin 1000) (k : Fin 64) :
    iblk5 V c 0 t (ix2 p k)
      = (V c main_v41 : S25000x64.Idx → EReal) (ix2 (⟨t.val * 1000 + p.val, by have := lt5 t; have := p.isLt; omega⟩ : Fin 25000) k) := by
  obtain ⟨e0, e1, -⟩ := idx_facts5 t
  show V c main_v41 (((cfg5.win 0).blk t).view.emb (ix2 p k)) = _
  refine congrArg (V c main_v41) (funext fun a => Fin.ext ?_)
  match a with
  | ⟨0, _⟩ => show win5_0.index t (0 : Fin 2) * 1000 + 1 * p.val = t.val * 1000 + p.val; rw [e0]; omega
  | ⟨1, _⟩ => show win5_0.index t (1 : Fin 2) * 64 + 1 * k.val = k.val; rw [e1]; omega

/-- The second block at point `t` is the same rows of the second array. -/
theorem read5_1 (c : Dev nD) (t : Fin cfg5.N) (p : Fin 1000) (k : Fin 64) :
    iblk5 V c 1 t (ix2 p k)
      = (V c main_v60 : S25000x64.Idx → EReal) (ix2 (⟨t.val * 1000 + p.val, by have := lt5 t; have := p.isLt; omega⟩ : Fin 25000) k) := by
  obtain ⟨-, -, e2, e3, -⟩ := idx_facts5 t
  show V c main_v60 (((cfg5.win 1).blk t).view.emb (ix2 p k)) = _
  refine congrArg (V c main_v60) (funext fun a => Fin.ext ?_)
  match a with
  | ⟨0, _⟩ => show win5_1.index t (0 : Fin 2) * 1000 + 1 * p.val = t.val * 1000 + p.val; rw [e2]; omega
  | ⟨1, _⟩ => show win5_1.index t (1 : Fin 2) * 64 + 1 * k.val = k.val; rw [e3]; omega

/-- The two weight blocks at every point are the whole weight matrices. -/
theorem read5_2 (c : Dev nD) (t : Fin cfg5.N) (k : Fin 64) (q : Fin 64) :
    iblk5 V c 2 t (ix2 k q) = (V c main_arg13 : S64x64.Idx → EReal) (ix2 k q) := by
  obtain ⟨-, -, -, -, e4, e5, -⟩ := idx_facts5 t
  show V c main_arg13 (((cfg5.win 2).blk t).view.emb (ix2 k q)) = _
  refine congrArg (V c main_arg13) (funext fun a => Fin.ext ?_)
  match a with
  | ⟨0, _⟩ => show win5_2.index t (0 : Fin 2) * 64 + 1 * k.val = k.val; rw [e4]; omega
  | ⟨1, _⟩ => show win5_2.index t (1 : Fin 2) * 64 + 1 * q.val = q.val; rw [e5]; omega

theorem read5_3 (c : Dev nD) (t : Fin cfg5.N) (k : Fin 64) (q : Fin 64) :
    iblk5 V c 3 t (ix2 k q) = (V c main_arg14 : S64x64.Idx → EReal) (ix2 k q) := by
  obtain ⟨-, -, -, -, -, -, e6, e7, -⟩ := idx_facts5 t
  show V c main_arg14 (((cfg5.win 3).blk t).view.emb (ix2 k q)) = _
  refine congrArg (V c main_arg14) (funext fun a => Fin.ext ?_)
  match a with
  | ⟨0, _⟩ => show win5_3.index t (0 : Fin 2) * 64 + 1 * k.val = k.val; rw [e6]; omega
  | ⟨1, _⟩ => show win5_3.index t (1 : Fin 2) * 64 + 1 * q.val = q.val; rw [e7]; omega

/-- The bias block at every point is the whole bias row. -/
theorem read5_4 (c : Dev nD) (t : Fin cfg5.N) (q : Fin 64) :
    iblk5 V c 4 t (ix2 (0 : Fin 1) q) = (V c main_v61 : S1x64.Idx → EReal) (ix2 (0 : Fin 1) q) := by
  obtain ⟨-, -, -, -, -, -, -, -, e8, e9, -⟩ := idx_facts5 t
  show V c main_v61 (((cfg5.win 4).blk t).view.emb (ix2 (0 : Fin 1) q)) = _
  refine congrArg (V c main_v61) (funext fun a => Fin.ext ?_)
  match a with
  | ⟨0, _⟩ => show win5_4.index t (0 : Fin 2) * 1 + 1 * 0 = 0; rw [e8]
  | ⟨1, _⟩ => show win5_4.index t (1 : Fin 2) * 64 + 1 * q.val = q.val; rw [e9]; omega

/-- The output block's element `(p, q)` sits at row `1000 t + p`, column `q` of the output array. -/
theorem emb5_5 (t : Fin cfg5.N) (p : Fin 1000) (q : Fin 64) :
    (((cfg5.win 5).blk t).view.emb (ix2 p q) : S25000x64.Idx) = ix2 (⟨t.val * 1000 + p.val, by have := lt5 t; have := p.isLt; omega⟩ : Fin 25000) q := by
  obtain ⟨-, -, -, -, -, -, -, -, -, -, e10, e11⟩ := idx_facts5 t
  refine funext fun a => Fin.ext ?_
  match a with
  | ⟨0, _⟩ => show win5_5.index t (0 : Fin 2) * 1000 + 1 * p.val = t.val * 1000 + p.val; rw [e10]; omega
  | ⟨1, _⟩ => show win5_5.index t (1 : Fin 2) * 64 + 1 * q.val = q.val; rw [e11]; omega

/-- An index of the output array is in point `t`'s block iff each coordinate is in the block's range on its axis. -/
theorem mem_blk5 (t : Fin cfg5.N) (i : S25000x64.Idx) :
    i ∈ ((cfg5.win 5).blk t).view.set ↔ ∀ a : Fin 2, win5_5.index t a * S1000x64.size a ≤ (i a).val ∧ (i a).val < win5_5.index t a * S1000x64.size a + S1000x64.size a := by
  show i ∈ ((View.whole main_v62).slice (win5_5.rect t)).set ↔ _
  rw [View.set_slice_whole, Rect.mem_set_unit]
  exact Iff.rfl

/-- Every index of the output array is in the block of the point its row falls in. -/
theorem cover5 (i : S25000x64.Idx) : ∃ t : Fin cfg5.N, (cfg5.win 5).flush t = true ∧ i ∈ ((cfg5.win 5).blk t).view.set := by
  have hi0 : (i 0).val < 25000 := idx2_lt0 i
  have hi1 : (i 1).val < 64 := idx2_lt1 i
  refine ⟨⟨(i 0).val / 1000, by rw [show cfg5.N = 25 from N_5]; omega⟩, flush5_5 _, ?_⟩
  rw [mem_blk5]
  obtain ⟨-, -, -, -, -, -, -, -, -, -, e10, e11⟩ := idx_facts5 ⟨(i 0).val / 1000, by rw [show cfg5.N = 25 from N_5]; omega⟩
  intro a
  match a with
  | ⟨0, _⟩ => show win5_5.index _ (0 : Fin 2) * 1000 ≤ (i 0).val ∧ (i 0).val < win5_5.index _ (0 : Fin 2) * 1000 + 1000; rw [e10]; show (i 0).val / 1000 * 1000 ≤ (i 0).val ∧ (i 0).val < (i 0).val / 1000 * 1000 + 1000; omega
  | ⟨1, _⟩ => show win5_5.index _ (1 : Fin 2) * 64 ≤ (i 1).val ∧ (i 1).val < win5_5.index _ (1 : Fin 2) * 64 + 64; rw [e11]; omega

/-- The arrays the region reads and the one it leaves, as functions on their literal index types. -/
abbrev inH5 (c : Dev nD) : S25000x64.Idx → EReal := V c main_v41
abbrev inN5 (c : Dev nD) : S25000x64.Idx → EReal := V c main_v60
abbrev inWs5 (c : Dev nD) : S64x64.Idx → EReal := V c main_arg13
abbrev inWn5 (c : Dev nD) : S64x64.Idx → EReal := V c main_arg14
abbrev inB5 (c : Dev nD) : S1x64.Idx → EReal := V c main_v61
abbrev res5 (c : Dev nD) : S25000x64.Idx → EReal := (dat5 V c).arrAt 5 cfg5.N

/-- The layer entry by entry: row `i` of the first array against column `j` of the first weight matrix, plus row `i` of the
    second array against column `j` of the second weight matrix, plus entry `j` of the bias row. -/
def lin5 (H N : S25000x64.Idx → EReal) (Ws Wn : S64x64.Idx → EReal) (b : S1x64.Idx → EReal) : S25000x64.Idx → EReal := fun i =>
  (∑ k : Fin 64, H (ix2 (⟨(i 0).val, idx2_lt0 i⟩ : Fin 25000) k) * Ws (ix2 k (⟨(i 1).val, idx2_lt1 i⟩ : Fin 64)))
    + (∑ k : Fin 64, N (ix2 (⟨(i 0).val, idx2_lt0 i⟩ : Fin 25000) k) * Wn (ix2 k (⟨(i 1).val, idx2_lt1 i⟩ : Fin 64)))
    + b (ix2 (0 : Fin 1) (⟨(i 1).val, idx2_lt1 i⟩ : Fin 64))

/-- What point `t` writes back is block `t` of the layer of the five arrays. -/
theorem flushed5_eq (c : Dev nD) (t : Fin cfg5.N) :
    (dat5 V c).flushed 5 t = ((cfg5.win 5).blk t).view.read (Elt Ideal) (lin5 (V c main_v41) (V c main_v60) (V c main_arg13) (V c main_arg14) (V c main_v61)) := by
  show (cfg5.win 5).cut (grid5.coords t) ((dat5 V c).after 5 t) = _
  rw [after5_5]
  unfold out5_5
  rw [View.canon_unit_zero hz5]
  simp only [View.ld_unit_zero (S := S1000x64) hz5, View.ld_unit_zero (S := S64x64) hz5, View.ld_unit_zero (S := S1x64) hz5]
  refine funext fun (j : S1000x64.Idx) => ?_
  obtain ⟨p, q, rfl⟩ : ∃ (p : Fin 1000) (q : Fin 64), j = ix2 p q := ⟨j 0, j 1, eq_ix2 j⟩
  show k5_pay1 (iblk5 V c 0 t) (iblk5 V c 1 t) (iblk5 V c 2 t) (iblk5 V c 3 t) (iblk5 V c 4 t) (ix2 p q)
    = lin5 (V c main_v41) (V c main_v60) (V c main_arg13) (V c main_arg14) (V c main_v61) (((cfg5.win 5).blk t).view.emb (ix2 p q))
  rw [emb5_5 t p q]
  refine (pay5_apply _ _ _ _ _ p q).trans ?_
  refine congrArg₂ (· + ·) (congrArg₂ (· + ·) (Finset.sum_congr rfl fun k _ => ?_) (Finset.sum_congr rfl fun k _ => ?_)) ?_
  · rw [read5_0 V c t p k, read5_2 V c t k q]
  · rw [read5_1 V c t p k, read5_3 V c t k q]
  · exact read5_4 V c t q

/-- The output array after the region: the blocks of rows tile it. -/
theorem final5 (c : Dev nD) : (dat5 V c).arrAt 5 cfg5.N = lin5 (V c main_v41) (V c main_v60) (V c main_arg13) (V c main_arg14) (V c main_v61) :=
  (dat5 V c).arrAt_eq_of_cover 5 (lin5 (V c main_v41) (V c main_v60) (V c main_arg13) (V c main_arg14) (V c main_v61)) (fun t _ => flushed5_eq V c t) cover5

/-- Read at an index. -/
theorem final5_apply (c : Dev nD) (i : Fin 25000) (j : Fin 64) :
    res5 V c (ix2 i j) = (∑ k : Fin 64, inH5 V c (ix2 i k) * inWs5 V c (ix2 k j))
      + (∑ k : Fin 64, inN5 V c (ix2 i k) * inWn5 V c (ix2 k j)) + inB5 V c (ix2 (0 : Fin 1) j) := by
  show (dat5 V c).arrAt 5 cfg5.N (ix2 i j) = _
  rw [final5]
  rfl

/-- The same with the five arrays named: whatever they are known to be, the layer is of those. -/
theorem final5_apply_of (c : Dev nD) (H N : S25000x64.Idx → EReal) (Ws Wn : S64x64.Idx → EReal) (b : S1x64.Idx → EReal)
    (hH : inH5 V c = H) (hN : inN5 V c = N) (hWs : inWs5 V c = Ws) (hWn : inWn5 V c = Wn) (hb : inB5 V c = b)
    (i : Fin 25000) (j : Fin 64) :
    res5 V c (ix2 i j) = (∑ k : Fin 64, H (ix2 i k) * Ws (ix2 k j)) + (∑ k : Fin 64, N (ix2 i k) * Wn (ix2 k j)) + b (ix2 (0 : Fin 1) j) := by
  subst hH hN hWs hWn hb
  exact final5_apply V c i j

end Cert.KernelIdeal.HandValue

end
-- ==== Proof.Bridge.Host5.lean ====
/- The second stretch of host operations between the regions: the neighbour means and the bias row it writes. -/
import proofs.«115049_j15814069584107_1_alg».proof.Proof.Bridge.Glue
import proofs.«115049_j15814069584107_1_alg».proof.Proof.Gen.KernelIdeal.Launch
import Idealize.ShloMosaic.Lib.StableHlo.Run

set_option maxRecDepth 16384

noncomputable section

namespace Cert.Proof.Bridge

open Cert.KernelIdeal Cert.KernelIdeal.Gen
open Idealize.ShloMosaic Idealize.ShloMosaic.TcCoe Idealize.SL.Sem Idealize.ShloMosaic.StableHlo

variable {F : FTy → Type} [FloatOps F]

set_option maxHeartbeats 8000000 in
/-- After the second stretch the neighbour-mean array is the mean over in-neighbours of what region 4 left. -/
theorem host5_v60 (W : Valuation τ sig (Elt F)) :
    StableHlo.after (hostOps5 (F := F)) W (Proc.devRef .tc main_v60) = nmean64 (W (Proc.devRef .tc main_v41)) (W (Proc.devRef .tc main_arg16)) (W (Proc.devRef .tc main_arg17)) := by
  after_results
  rfl

set_option maxHeartbeats 4000000 in
/-- After the second stretch the [1, 64] bias row is the second layer's [64] bias vector re-laid. -/
theorem host5_v61 (W : Valuation τ sig (Elt F)) :
    (StableHlo.after (hostOps5 (F := F)) W (Proc.devRef .tc main_v61) : (⟨S1x64, .f32⟩ : BufTy).Contents (Elt F))
      = shapeCast S1x64 (W (Proc.devRef .tc main_arg15) : (⟨S64, .f32⟩ : BufTy).Contents (Elt F)) shapeCasts_S64_S1x64 := by
  after_results
  rfl

end Cert.Proof.Bridge

end
-- ==== Proof.Bridge.K5.lean ====
/- The second stretch of host operations and the second graph layer: the neighbour means of the first layer's output are the reference's, and what region 5 leaves — per node the two weighted sums plus the bias — is the reference's result. -/
import proofs.«115049_j15814069584107_1_alg».proof.Proof.Bridge.K4
import proofs.«115049_j15814069584107_1_alg».proof.Proof.KI.Val5
import proofs.«115049_j15814069584107_1_alg».proof.Proof.Bridge.Host5
import Idealize.ShloMosaic.Lib.ValueLayout

set_option maxRecDepth 16384

noncomputable section

namespace Cert.Proof.Bridge

open Cert.KernelIdeal Cert.KernelIdeal.Gen Cert.KernelIdeal.Hand Cert.KernelIdeal.HandValue
open Idealize.ShloMosaic Idealize.ShloMosaic.TcCoe Idealize.SL.Sem Idealize.ShloMosaic.ValueIdx

variable (m : (ℓ : Loc nD τ sig) → Buf (Elt Ideal) ℓ) (ρ : Dev nD → PrngReg) (c : Dev nD)

/-- Region 4's output is untouched by the second host stretch. -/
theorem E7' : W7 m ρ c (Proc.devRef .tc main_v41) = Cert.ReferenceIdeal.Read.val_main_v47 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg16)) (m ((c : Thread nD τ).loc main_arg17)) :=
  (W7_of m ρ c main_v41 (by decide)).trans (E7 m ρ c)

/-- The neighbour means after the second host stretch are the reference's. -/
theorem E8 : W7 m ρ c (Proc.devRef .tc main_v60) = Cert.ReferenceIdeal.Read.val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg16)) (m ((c : Thread nD τ).loc main_arg17)) := by
  refine (host5_v60 (W6 m ρ c)).trans ?_
  rw [E7 m ρ c, W6_of_unwritten m ρ c main_arg16 (by decide) (by decide), W6_of_unwritten m ρ c main_arg17 (by decide) (by decide)]
  exact (ref_v66 _ _ _ _ _ _ _ _ _ _ _ _ _ _ _).symm

/-- The bias row after the second host stretch is the second layer's bias vector re-laid. -/
theorem E9 : (W7 m ρ c (Proc.devRef .tc main_v61) : (⟨S1x64, .f32⟩ : BufTy).Contents (Elt Ideal))
    = shapeCast S1x64 ((m ((c : Thread nD τ).loc main_arg15)) : (⟨S64, .f32⟩ : BufTy).Contents (Elt Ideal)) shapeCasts_S64_S1x64 := by
  refine (host5_v61 (W6 m ρ c)).trans ?_
  rw [W6_of_unwritten m ρ c main_arg15 (by decide) (by decide)]

/-- What region 5 leaves in the result array is the reference's result. -/
theorem E10 : W8 m ρ c (Proc.devRef .tc main_v62) = Cert.ReferenceIdeal.Read.val_main_v72 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) := by
  refine (W8_out m ρ c).trans ?_
  funext idx
  obtain ⟨i, j, rfl⟩ : ∃ (i : Fin 25000) (j : Fin 64), idx = ix2 i j := ⟨idx 0, idx 1, eq_ix2 idx⟩
  refine (final5_apply_of (V7 m ρ) c _ _ _ _ _ (E7' m ρ c) (E8 m ρ c) (W7_of_unwritten m ρ c main_arg13 (by decide) (by decide) (by decide))
    (W7_of_unwritten m ρ c main_arg14 (by decide) (by decide) (by decide)) (E9 m ρ c) i j).trans ?_
  rw [v72_at, shapeCast_a_1a_apply]

end Cert.Proof.Bridge

end
-- ==== Proof.K.R0.lean ====
/- Region 0: the product miRNA_disᵀ · W1 ([2000, 5000] transposed by [2000, 128]), accumulated over ten blocks of 200 rows
   in a scratch buffer. One grid point loads a block of 200 rows of each matrix, multiplies the transposed left block by
   the right block and adds the product to the scratch; the first point fills the scratch with zeros before that, and the
   last point copies the scratch into the output's staging buffer, which is written back there and nowhere else. Here:
   the body's run in its three cases (first point, middle points, last point) with what the scratch and the output's
   buffer end at; the closed forms of the two conditions and of the output window's idle points over the grid; the
   accumulator point by point; the proof data of the pipeline, whose invariant carries the scratch from point to point;
   the body obligation at every point; and the passage of the scratch from the scoped buffers into the invariant and back.
   Everything holds at any float instance. -/
import proofs.«115049_j15814069584107_1_alg».proof.Proof.Gen.Kernel.Launch
import proofs.«115049_j15814069584107_1_alg».proof.Proof.Gen.Kernel.Skeleton
import proofs.«115049_j15814069584107_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a whole-buffer rectangle. -/
theorem hz0 : (![0, 0] : Fin 2 → Nat) = fun _ => 0 := funext fun a => by fin_cases a <;> rfl

/-- The first conditional's test (is this the first point?), from the grid coordinates. -/
abbrev cond0_a (i : grid0.Coords) : Prop :=
  Scalar.cmpi .ne (Scalar.extui (Scalar.cmpi .eq (BitVec.ofNat 32 (i 0).val) 0#32)) 0#32 = 1#1
/-- The second conditional's test (is this the last point?). -/
abbrev cond0_b (i : grid0.Coords) : Prop := k0_cond2 i = 1#1

/-! ## The body's run, case by case -/

set_option maxHeartbeats 1000000 in
/-- The body at the first point, on whole memrefs: the two input blocks at `x0`, `x1`, the output's staging buffer at
    `x2` (not touched: the last point alone copies into it), the scratch at anything. The scratch is filled with zeros and
    the first product is added to them: it ends at `k0_pay2 x0 x1 k0_pay1`. -/
theorem kernelRun0_A (c : Dev nD) (i : grid0.Coords) (arg1 : Memref sig .tc .vmem S200x5000 .f32) (harg1 : arg1.IsWhole) (arg2 : Memref sig .tc .vmem S200x128 .f32) (harg2 : arg2.IsWhole) (arg3 : Memref sig .tc .vmem S5000x128 .f32) (harg3 : arg3.IsWhole) (arg4 : Memref sig .tc .vmem S5000x128 .f32) (harg4 : arg4.IsWhole)
    (hc0 : cond0_a i) (hc1 : ¬cond0_b i)
    (x0 : Vec F S200x5000 .f32) (x1 : Vec F S200x128 .f32) (x2 : Vec F S5000x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (k0_pay2 x0 x1 k0_pay1)) -∗ K ⟨⟩))
      ⊢ wp frame (wpE (defs₀ (F := F)) Variants.none c none) E (cc0__mm_trans_kernel i arg1 harg1 arg2 harg2 arg3 harg3 arg4 harg4) K := by
  simp only [cc0__mm_trans_kernel_eq_skeleton]; unfold cc0__mm_trans_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  sl_unfold_run_names
  rw [View.read_writes_eq_canon _ _ _ (fun y => ⟨_, List.mem_cons_self, View.mem_set_unit_zero hz0 inb_S5000x128_S5000x128_0_0 y⟩)]
  rw [View.canon_cons_unit_zero (S := S5000x128) hz0, View.readCov_unit_zero (S := S5000x128) _ hz0]
  simp only [View.readAt_eq_ld, View.ld_unit_zero (S := S200x5000) hz0, View.ld_unit_zero (S := S200x128) hz0, View.ld_unit_zero (S := S5000x128) hz0]

set_option maxHeartbeats 1000000 in
/-- The body at a middle point: neither conditional holds. The scratch, found at `a`, ends at `k0_pay2 x0 x1 a` (the
    product of the transposed left block and the right block, added to `a`); the output's staging buffer is not touched. -/
theorem kernelRun0_B (c : Dev nD) (i : grid0.Coords) (arg1 : Memref sig .tc .vmem S200x5000 .f32) (harg1 : arg1.IsWhole) (arg2 : Memref sig .tc .vmem S200x128 .f32) (harg2 : arg2.IsWhole) (arg3 : Memref sig .tc .vmem S5000x128 .f32) (harg3 : arg3.IsWhole) (arg4 : Memref sig .tc .vmem S5000x128 .f32) (harg4 : arg4.IsWhole)
    (hc0 : ¬cond0_a i) (hc1 : ¬cond0_b i)
    (x0 : Vec F S200x5000 .f32) (x1 : Vec F S200x128 .f32) (x2 : Vec F S5000x128 .f32) (a : Vec F S5000x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare a
        ∗ (iprop(owns (c : Thread nD τ) arg1 fullShare x0 ∗ owns (c : Thread nD τ) arg2 fullShare x1 ∗ owns (c : Thread nD τ) arg3 fullShare x2 ∗ owns (c : Thread nD τ) arg4 fullShare (k0_pay2 x0 x1 a)) -∗ K ⟨⟩))
      ⊢ wp frame (wpE (defs₀ (F := F)) Variants.none c none) E (cc0__mm_trans_kernel i arg1 harg1 arg2 harg2 arg3 harg3 arg4 harg4) K := by
  simp only [cc0__mm_trans_kernel_eq_skeleton]; unfold cc0__mm_trans_kernel_skel
  unfold owns
  iintro ⟨⟨%f0, %hf0, H0⟩, ⟨%f1, %hf1, H1⟩, ⟨%f2, %hf2, H2⟩, ⟨%f3, %hf3, H3⟩, Hk⟩
  subst hf0 hf1 hf2 hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  sl_unfold_run_names
  rw [View.read_writes_eq_canon _ _ _ (fun y => ⟨_, List.mem_cons_self, View.mem_set_unit_zero hz0 inb_S5000x128_S5000x128_0_0 y⟩)]
  rw [View.canon_cons_unit_zero (S := S5000x128) hz0]
  simp only [View.readAt_eq_ld, View.ld_unit_zero (S := S200x5000) hz0, View.ld_unit_zero (S := S200x128) hz0, View.ld_unit_zero (S := S5000x128) hz0]

set_option maxHeartbeats 1000000 in
/-- The body at the last point: the second conditional holds. The scratch, found at `a`, ends at `k0_pay2 x0 x1 a`, and
    that is copied into the output's staging buffer, whatever it held. -/
theorem kernelRun0_C (c : Dev nD) (i : grid0.Coords) (arg1 : Memref sig .tc .vmem S200x5000 .f32) (harg1 : arg1.IsWhole) (arg2 : Memref sig .tc .vmem S200x128 .f32) (harg2 : arg2.IsWhole) (arg3 : Memref sig .tc .vmem S5000x128 .f32) (harg3 : arg3.IsWhole) (arg4 : Memref sig .tc .vmem S5000x128 .f32) (harg4 : arg4.IsWhole)
    (hc0 : ¬cond0_a i) (hc1 : cond0_b i)
    (x0 : Vec F S200x5000 .f32) (x1 : Vec F S200x128 .f32) (a : Vec F S5000x128 .f32) (E : Set ℕ) (K : PUnit → sProp 𝕄) :
    iprop(owns (c : Thread nD τ) arg1 fullShare x0 ∗ owns (c : Thread nD τ) arg2 fullShare x1 ∗ (∃ d, owns (c : Thread nD τ) arg3 fullShare d) ∗ owns (c : Thread nD τ) arg4 fullShare a
        ∗ (iprop(owns (c : Thread nD τ) arg1 fullShare x0 ∗ owns (c : Thread nD τ) arg2 fullShare x1 ∗ owns (c : Thread nD τ) arg3 fullShare (k0_pay2 x0 x1 a) ∗ owns (c : Thread nD τ) arg4 fullShare (k0_pay2 x0 x1 a)) -∗ K ⟨⟩))
      ⊢ wp frame (wpE (defs₀ (F := F)) Variants.none c none) E (cc0__mm_trans_kernel i arg1 harg1 arg2 harg2 arg3 harg3 arg4 harg4) K := by
  simp only [cc0__mm_trans_kernel_eq_skeleton]; unfold cc0__mm_trans_kernel_skel
  unfold owns
  iintro ⟨⟨%f0, %hf0, H0⟩, ⟨%f1, %hf1, H1⟩, ⟨%d2, %f2, -, H2⟩, ⟨%f3, %hf3, H3⟩, Hk⟩
  subst hf0 hf1 hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    rw [View.read_writes_eq_canon _ _ _ (fun y => ⟨_, List.mem_cons_self, View.mem_set_unit_zero hz0 inb_S5000x128_S5000x128_0_0 y⟩)]
    rw [View.canon_cons_unit_zero (S := S5000x128) hz0, View.readCov_unit_zero (S := S5000x128) _ hz0]
    simp only [View.readAt_eq_ld, View.ld_unit_zero (S := S200x5000) hz0, View.ld_unit_zero (S := S200x128) hz0, View.ld_unit_zero (S := S5000x128) hz0]
  iexists _; isplitr
  swap; · iexact H3
  ipureintro
  sl_unfold_run_names
  rw [View.read_writes_eq_canon _ _ _ (fun y => ⟨_, List.mem_cons_self, View.mem_set_unit_zero hz0 inb_S5000x128_S5000x128_0_0 y⟩)]
  rw [View.canon_cons_unit_zero (S := S5000x128) hz0]
  simp only [View.readAt_eq_ld, View.ld_unit_zero (S := S200x5000) hz0, View.ld_unit_zero (S := S200x128) hz0, View.ld_unit_zero (S := S5000x128) hz0]

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left matrix's staging buffer holds the point's block of 200 rows. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The right matrix's staging buffer holds the point's block of 200 rows. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The conditions and the idle points, over the grid -/

/-- The first conditional holds at the first point only. -/
theorem hcond0_a : ∀ t : Fin cfg0.N, cond0_a (grid0.coords t) ↔ t.val % 10 = 0 :=
  (by decide +kernel : ∀ t : Fin grid0.N, cond0_a (grid0.coords t) ↔ t.val % 10 = 0)
/-- The second conditional holds at the last point only. -/
theorem hcond0_b : ∀ t : Fin cfg0.N, cond0_b (grid0.coords t) ↔ t.val % 10 = 9 :=
  (by decide +kernel : ∀ t : Fin grid0.N, cond0_b (grid0.coords t) ↔ t.val % 10 = 9)
/-- The output window is idle (its staging buffer is handed back as found) at every point but the last. -/
theorem idleAt0_2 : ∀ t : Fin cfg0.N, cfg0.idle 2 (grid0.coords t) = true ↔ ¬ t.val % 10 = 9 :=
  (by decide +kernel : ∀ t : Fin grid0.N, cfg0.idle 2 (grid0.coords t) = true ↔ ¬ t.val % 10 = 9)

/-! ## The accumulator, point by point -/

/-- The scratch's contents after point `n`: after the first point the product of the first two blocks added to the zero
    fill; after each later point the product of that point's two blocks added to what the point before left. (Past the
    grid nothing more is added.) -/
def acc0 (c : Dev nD) : ℕ → Vec F S5000x128 .f32
  | 0 => k0_pay2 (iblk0 V c 0 t0_0) (iblk0 V c 1 t0_0) k0_pay1
  | n + 1 => if h : n + 1 < cfg0.N then k0_pay2 (iblk0 V c 0 ⟨n + 1, h⟩) (iblk0 V c 1 ⟨n + 1, h⟩) (acc0 c n) else acc0 c n

theorem acc0_zero (c : Dev nD) : acc0 V c 0 = k0_pay2 (iblk0 V c 0 t0_0) (iblk0 V c 1 t0_0) k0_pay1 := rfl

theorem acc0_succ (c : Dev nD) (n : ℕ) (h : n + 1 < cfg0.N) :
    acc0 V c (n + 1) = k0_pay2 (iblk0 V c 0 ⟨n + 1, h⟩) (iblk0 V c 1 ⟨n + 1, h⟩) (acc0 V c n) := by
  rw [acc0, dif_pos h]

/-- At the first point, spelled with the point. -/
theorem acc0_first (c : Dev nD) (t : Fin cfg0.N) (h : t.val = 0) :
    acc0 V c 0 = k0_pay2 (iblk0 V c 0 t) (iblk0 V c 1 t) k0_pay1 := by
  obtain rfl : t = t0_0 := Fin.ext h
  rfl

/-- At a later point, spelled with the point. -/
theorem acc0_at (c : Dev nD) (t : Fin cfg0.N) (n : ℕ) (h : t.val = n + 1) :
    acc0 V c (n + 1) = k0_pay2 (iblk0 V c 0 t) (iblk0 V c 1 t) (acc0 V c n) := by
  obtain ⟨tv, ht⟩ := t
  dsimp only at h
  subst h
  exact acc0_succ V c n ht

/-! ## The proof data -/

/-- The invariant before point `j`: the generator register at some state; this call's scratch — before the first point at
    anything, before point `n + 1` at what point `n` left —; every other scoped buffer at some contents. -/
def phi0 (c : Dev nD) : ℕ → sProp 𝕄
  | 0 => iprop((∃ r, prngReg c r) ∗ (∃ d : Vec F S5000x128 .f32, owns (c : Thread nD τ) (Memref.whole cc0_scratch0 : Memref sig .tc .vmem S5000x128 .f32) fullShare d) ∗ Pipeline.scopedRestBut (Ix := Unit) (Name := ℕ) (U := UR sig nD τ) (Lvl := ℕ) (Val := Elt F) spec0 c [cc0_scratch0])
  | n + 1 => iprop((∃ r, prngReg c r) ∗ owns (c : Thread nD τ) (Memref.whole cc0_scratch0 : Memref sig .tc .vmem S5000x128 .f32) fullShare (acc0 V c n) ∗ Pipeline.scopedRestBut (Ix := Unit) (Name := ℕ) (U := UR sig nD τ) (Lvl := ℕ) (Val := Elt F) spec0 c [cc0_scratch0])

theorem phi0_zero (c : Dev nD) : phi0 V c 0 =
    iprop((∃ r, prngReg c r) ∗ (∃ d : Vec F S5000x128 .f32, owns (c : Thread nD τ) (Memref.whole cc0_scratch0 : Memref sig .tc .vmem S5000x128 .f32) fullShare d) ∗ Pipeline.scopedRestBut (Ix := Unit) (Name := ℕ) (U := UR sig nD τ) (Lvl := ℕ) (Val := Elt F) spec0 c [cc0_scratch0]) := rfl
theorem phi0_succ (c : Dev nD) (n : ℕ) : phi0 V c (n + 1) =
    iprop((∃ r, prngReg c r) ∗ owns (c : Thread nD τ) (Memref.whole cc0_scratch0 : Memref sig .tc .vmem S5000x128 .f32) fullShare (acc0 V c n) ∗ Pipeline.scopedRestBut (Ix := Unit) (Name := ℕ) (U := UR sig nD τ) (Lvl := ℕ) (Val := Elt F) spec0 c [cc0_scratch0]) := rfl

/-- The proof data of the pipeline on core `c`: the arrays as the region finds them; after the body each input's buffer at
    its block, and the output's — consulted at the last point only, the one point that is not idle for it — at what the
    scratch holds after the last point; the invariant carries the scratch from point to point; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => acc0 V c 9
  Φ j := phi0 V c j.val
  q _ := fullShare
  owed _ := 0

theorem A_eq0 (c : Dev nD) (w : Fin cfg0.W) : (dat0 V c).A w = V c (Pipeline.arrRef spec0 w) := by
  dsimp only [dat0]
theorem q_eq0 (c : Dev nD) (w : Fin cfg0.W) : (dat0 V c).q w = fullShare := by dsimp only [dat0]
theorem owed_eq0 (c : Dev nD) (t : Fin (cfg0.N + 1)) : (dat0 V c).owed t = 0 := by dsimp only [dat0]
theorem recorded_eq0 (c : Dev nD) (t : Fin (cfg0.N + 1)) : (dat0 V c).recorded t = Set.univ := by dsimp only [dat0]
theorem Φ_eq0 (c : Dev nD) (j : Fin (cfg0.N + 1)) : (dat0 V c).Φ j = phi0 V c j.val := by dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = acc0 V c 9 := by dsimp only [dat0]
theorem after0_2_last (c : Dev nD) (t : Fin cfg0.N) (ht : t.val = 9) : (dat0 V c).after 2 t = acc0 V c 9 := after0_2 V c t

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns: the output's buffer as found where the window is idle, at the accumulated product at the last point. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ (dat0 V c).leavesExact 2 t)

set_option maxHeartbeats 1000000 in
/-- The body at any point. The inputs' buffers hold their blocks; the closed forms of the two conditions say which of the
    three cases the point is in; the invariant hands the scratch over at what the point before left and takes it back at
    what this point leaves; the output's buffer is handed back as found, except at the last point, where it receives the
    accumulated product. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl, after0_0, after0_1,
    show (dat0 V c).Φ t.castSucc = phi0 V c t.val from rfl, show (dat0 V c).Φ t.succ = phi0 V c (t.val + 1) from rfl]
  have hN : t.val < 10 := lt_of_lt_of_eq t.isLt (show cfg0.N = 10 from N_0)
  by_cases h0 : t.val = 0
  · -- the first point: zero fill, then the first product
    have hidle : cfg0.idle 2 (grid0.coords t) = true := (idleAt0_2 t).mpr (by omega)
    have hfl : (cfg0.win 2).flush t = false := Bool.eq_false_iff.mpr fun h => by have := (flush0_2 t).mp h; omega
    rw [Dat.leavesExact_idle _ 2 t hidle hfl, show phi0 V c t.val = phi0 V c 0 from congrArg _ h0,
      show phi0 V c (t.val + 1) = phi0 V c (0 + 1) from congrArg (fun n => phi0 V c (n + 1)) h0]
    rw [phi0_zero V c, phi0_succ V c 0, acc0_first V c t h0]
    iintro ⟨⟨Hp, ⟨%ds, Hs⟩, Hr⟩, Ho, ⟨%d0, H0⟩, ⟨%d1, H1⟩, ⟨%d2, H2⟩⟩
    iapply (kernelRun0_A c (grid0.coords t) _ _ _ _ _ _ _ _ ((hcond0_a t).mpr (by omega)) (fun h => by have := (hcond0_b t).mp h; omega)
      (iblk0 V c 0 t) (iblk0 V c 1 t) ((dat0 V c).before 2 t d2) Set.univ _)
    isplitl [H0]; · iexact H0
    isplitl [H1]; · iexact H1
    isplitl [H2]; · iexact H2
    isplitl [Hs]; · iexists ds; iexact Hs
    iintro ⟨H0, H1, H2, Hs⟩
    isplitl [Hp Hs Hr]
    · isplitl [Hp]; · iexact Hp
      isplitl [Hs]; · iexact Hs
      iexact Hr
    isplitl [Ho]; · iexact Ho
    isplitl [H0]; · iexact H0
    isplitl [H1]; · iexact H1
    iexists d2; iexact H2
  · obtain ⟨n, hn⟩ : ∃ n, t.val = n + 1 := ⟨t.val - 1, by omega⟩
    rw [show phi0 V c t.val = phi0 V c (n + 1) from congrArg _ hn,
      show phi0 V c (t.val + 1) = phi0 V c ((n + 1) + 1) from congrArg (fun k => phi0 V c (k + 1)) hn]
    rw [phi0_succ V c (n + 1), phi0_succ V c n, acc0_at V c t n hn]
    by_cases h9 : t.val = 9
    · -- the last point: one more product, then the copy into the output's buffer
      rw [show (dat0 V c).leavesExact 2 t = owns (c : Thread nD τ) (st0_2 t) fullShare ((dat0 V c).after 2 t) from by
        unfold Dat.leavesExact
        rw [show cfg0.idle 2 (grid0.coords t) = false from Bool.eq_false_iff.mpr fun h => (idleAt0_2 t).mp h (by omega)], after0_2]
      rw [show acc0 V c 9 = k0_pay2 (iblk0 V c 0 t) (iblk0 V c 1 t) (acc0 V c n) from by
        rw [show (9 : ℕ) = n + 1 from by omega]; exact acc0_at V c t n hn]
      iintro ⟨⟨Hp, Hs, Hr⟩, Ho, ⟨%d0, H0⟩, ⟨%d1, H1⟩, ⟨%d2, H2⟩⟩
      iapply (kernelRun0_C c (grid0.coords t) _ _ _ _ _ _ _ _ (fun h => by have := (hcond0_a t).mp h; omega) ((hcond0_b t).mpr (by omega))
        (iblk0 V c 0 t) (iblk0 V c 1 t) (acc0 V c n) Set.univ _)
      isplitl [H0]; · iexact H0
      isplitl [H1]; · iexact H1
      isplitl [H2]; · iexists _; iexact H2
      isplitl [Hs]; · iexact Hs
      iintro ⟨H0, H1, H2, Hs⟩
      isplitl [Hp Hs Hr]
      · isplitl [Hp]; · iexact Hp
        isplitl [Hs]; · iexact Hs
        iexact Hr
      isplitl [Ho]; · iexact Ho
      isplitl [H0]; · iexact H0
      isplitl [H1]; · iexact H1
      iexact H2
    · -- a middle point: one more product
      have hidle : cfg0.idle 2 (grid0.coords t) = true := (idleAt0_2 t).mpr (by omega)
      have hfl : (cfg0.win 2).flush t = false := Bool.eq_false_iff.mpr fun h => by have := (flush0_2 t).mp h; omega
      rw [Dat.leavesExact_idle _ 2 t hidle hfl]
      iintro ⟨⟨Hp, Hs, Hr⟩, Ho, ⟨%d0, H0⟩, ⟨%d1, H1⟩, ⟨%d2, H2⟩⟩
      iapply (kernelRun0_B c (grid0.coords t) _ _ _ _ _ _ _ _ (fun h => by have := (hcond0_a t).mp h; omega) (fun h => by have := (hcond0_b t).mp h; omega)
        (iblk0 V c 0 t) (iblk0 V c 1 t) ((dat0 V c).before 2 t d2) (acc0 V c n) Set.univ _)
      isplitl [H0]; · iexact H0
      isplitl [H1]; · iexact H1
      isplitl [H2]; · iexact H2
      isplitl [Hs]; · iexact Hs
      iintro ⟨H0, H1, H2, Hs⟩
      isplitl [Hp Hs Hr]
      · isplitl [Hp]; · iexact Hp
        isplitl [Hs]; · iexact Hs
        iexact Hr
      isplitl [Ho]; · iexact Ho
      isplitl [H0]; · iexact H0
      isplitl [H1]; · iexact H1
      iexists d2; iexact H2

/-- The body obligation of the pipeline, at every point. -/
theorem body_obligation0 (c : Dev nD) : BodyObligation (dat0 (F := F) V c) (defs₀ (F := F)) Variants.none () Set.univ := fun t => by
  rw [bigSep_W0, bigSep_W0]
  exact sound_body0 V c t

/-! ## Into the invariant and out of it -/

/-- Into the invariant before the first point: the scoped rest split at this call's scratch, which is at some contents. -/
theorem hin0 (c : Dev nD) (P : sProp 𝕄) :
    iprop((∃ r, prngReg c r) ∗ P ∗ Pipeline.scopedRest (Ix := Unit) (Name := ℕ) (U := UR sig nD τ) (Lvl := ℕ) (Val := Elt F) spec0 c) ⊢ (dat0 V c).Φ 0 := by
  rw [show (dat0 V c).Φ 0 = phi0 V c 0 from rfl, scopedRest0_split c]
  rw [phi0_zero V c]
  iintro ⟨Hp, -, ⟨%f, Hs⟩, Hr⟩
  isplitl [Hp]; · iexact Hp
  isplitl [Hs]
  · iexists f
    rw [owns_whole (c : Thread nD τ) cc0_scratch0 fullShare f]
    iexact Hs
  iexact Hr

/-- Out of the invariant after the last point: the scratch, whatever the accumulation left in it, goes back among the
    scoped buffers at some contents. -/
theorem hout0 (c : Dev nD) :
    (dat0 V c).Φ (Fin.last cfg0.N) ⊢ iprop((∃ r, prngReg c r) ∗ emp ∗ Pipeline.scopedRest (Ix := Unit) (Name := ℕ) (U := UR sig nD τ) (Lvl := ℕ) (Val := Elt F) spec0 c) := by
  rw [show (dat0 V c).Φ (Fin.last cfg0.N) = phi0 V c (9 + 1) from
        (Φ_eq0 V c (Fin.last cfg0.N)).trans (congrArg (phi0 V c) N_0), scopedRest0_split c]
  rw [phi0_succ V c 9]
  iintro ⟨Hp, Hs, Hr⟩
  isplitl [Hp]; · iexact Hp
  isplitr; · iempintro
  isplitl [Hs]
  · iexists (acc0 V c 9)
    rw [← owns_whole (c : Thread nD τ) cc0_scratch0 fullShare (acc0 V c 9)]
    iexact Hs
  iexact Hr

end Cert.Kernel.Hand

end
-- ==== Proof.K.R1.lean ====
/- Region 1: the product gene_dis · W4 ([20000, 5000] by [5000, 128]), fifty blocks of 400 rows.
   One grid point multiplies one block of rows of the left matrix by the whole right matrix and stores the
   block of rows of the product. Here: what a block is when read off the arrays the region finds, that the two input
   staging buffers hold their blocks at every point (the right matrix's is fetched once and then kept), what the body
   leaves in the output's staging buffer as a function of the two input blocks, the body's run, the proof data of the
   pipeline, and the body obligation at every point. Everything holds at any float instance. -/
import proofs.«115049_j15814069584107_1_alg».proof.Proof.Gen.Kernel.Launch
import proofs.«115049_j15814069584107_1_alg».proof.Proof.Gen.Kernel.Skeleton
import proofs.«115049_j15814069584107_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The left matrix's staging buffer holds the point's block of rows. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The right matrix's staging buffer holds the whole matrix at every point: fetched at the first, its block index never moves. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body loads and stores through. -/
abbrev r1_a : Rect S400x5000 := Rect.unit (s := S400x5000) ![0, 0] S400x5000.size inb_S400x5000_S400x5000_0_0
abbrev r1_b : Rect S5000x128 := Rect.unit (s := S5000x128) ![0, 0] S5000x128.size inb_S5000x128_S5000x128_0_0
abbrev r1_o : Rect S400x128 := Rect.unit (s := S400x128) ![0, 0] S400x128.size inb_S400x128_S400x128_0_0

/-- The output's staging buffer after the body: its one whole-buffer store of the product of the two loaded blocks. -/
def out1_2 (x0 : Vec F S400x5000 .f32) (x1 : Vec F S5000x128 .f32) : Vec F S400x128 .f32 :=
  View.canon [⟨r1_o, k1_pay1 (View.ld x0 r1_a) (View.ld x1 r1_b)⟩]

/-- The store covers the buffer. -/
theorem cover1_2 (p0 : Vec F S400x128 .f32) (y : S400x128.Idx) :
    ∃ pc ∈ ([⟨r1_o, p0⟩] : List (View.Piece (Elt F) S400x128 .f32)), y ∈ pc.1.set :=
  View.cover_of_tiled [⟨r1_o, p0⟩] S400x128.size (by rfl) y

set_option maxHeartbeats 1000000 in
/-- The body on whole staging buffers, the inputs' at contents `x0`, `x1` and the output's at anything, returns the
    inputs' as they were and the output's at `out1_2 x0 x1`. -/
theorem sound_kernel1 (c : Dev nD) (E : Set ℕ) (i : grid1.Coords) (arg1 : Memref sig .tc .vmem S400x5000 .f32) (harg1 : arg1.IsWhole) (arg2 : Memref sig .tc .vmem S5000x128 .f32) (harg2 : arg2.IsWhole) (arg3 : Memref sig .tc .vmem S400x128 .f32) (harg3 : arg3.IsWhole)
    (x0 : Vec F S400x5000 .f32) (x1 : Vec F S5000x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__mm_kernel i arg1 harg1 arg2 harg2 arg3 harg3) K := by
  simp only [cc1__mm_kernel_eq_skeleton]; unfold cc1__mm_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of the pipeline on core `c`: the arrays as the region finds them; after the body at point `t` each
    input's buffer at its block and the output's at the product of the two blocks; the invariant is the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the body's run applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.R2.lean ====
/- Region 2: the product d_features · Wd ([5000, 383] by [383, 128]), five blocks of 1000 rows.
   One grid point multiplies one block of rows of the left matrix by the whole right matrix and stores the
   block of rows of the product. Here: what a block is when read off the arrays the region finds, that the two input
   staging buffers hold their blocks at every point (the right matrix's is fetched once and then kept), what the body
   leaves in the output's staging buffer as a function of the two input blocks, the body's run, the proof data of the
   pipeline, and the body obligation at every point. Everything holds at any float instance. -/
import proofs.«115049_j15814069584107_1_alg».proof.Proof.Gen.Kernel.Launch
import proofs.«115049_j15814069584107_1_alg».proof.Proof.Gen.Kernel.Skeleton
import proofs.«115049_j15814069584107_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The left matrix's staging buffer holds the point's block of rows. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The right matrix's staging buffer holds the whole matrix at every point: fetched at the first, its block index never moves. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The whole-buffer rectangles the body loads and stores through. -/
abbrev r2_a : Rect S1000x383 := Rect.unit (s := S1000x383) ![0, 0] S1000x383.size inb_S1000x383_S1000x383_0_0
abbrev r2_b : Rect S383x128 := Rect.unit (s := S383x128) ![0, 0] S383x128.size inb_S383x128_S383x128_0_0
abbrev r2_o : Rect S1000x128 := Rect.unit (s := S1000x128) ![0, 0] S1000x128.size inb_S1000x128_S1000x128_0_0

/-- The output's staging buffer after the body: its one whole-buffer store of the product of the two loaded blocks. -/
def out2_2 (x0 : Vec F S1000x383 .f32) (x1 : Vec F S383x128 .f32) : Vec F S1000x128 .f32 :=
  View.canon [⟨r2_o, k2_pay1 (View.ld x0 r2_a) (View.ld x1 r2_b)⟩]

/-- The store covers the buffer. -/
theorem cover2_2 (p0 : Vec F S1000x128 .f32) (y : S1000x128.Idx) :
    ∃ pc ∈ ([⟨r2_o, p0⟩] : List (View.Piece (Elt F) S1000x128 .f32)), y ∈ pc.1.set :=
  View.cover_of_tiled [⟨r2_o, p0⟩] S1000x128.size (by rfl) y

set_option maxHeartbeats 1000000 in
/-- The body on whole staging buffers, the inputs' at contents `x0`, `x1` and the output's at anything, returns the
    inputs' as they were and the output's at `out2_2 x0 x1`. -/
theorem sound_kernel2 (c : Dev nD) (E : Set ℕ) (i : grid2.Coords) (arg1 : Memref sig .tc .vmem S1000x383 .f32) (harg1 : arg1.IsWhole) (arg2 : Memref sig .tc .vmem S383x128 .f32) (harg2 : arg2.IsWhole) (arg3 : Memref sig .tc .vmem S1000x128 .f32) (harg3 : arg3.IsWhole)
    (x0 : Vec F S1000x383 .f32) (x1 : Vec F S383x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__mm_kernel i arg1 harg1 arg2 harg2 arg3 harg3) K := by
  simp only [cc2__mm_kernel_eq_skeleton]; unfold cc2__mm_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The proof data of the pipeline on core `c`: the arrays as the region finds them; after the body at point `t` each
    input's buffer at its block and the output's at the product of the two blocks; the invariant is the scoped rest and the
    generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so the body's run applies; the invariant and what the
    core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.R3.lean ====
/- Region 3: the product g_features · Wg ([20000, 4395] by [4395, 128]), fifty blocks of 400 rows.
   One grid point multiplies one block of rows of the left matrix by the whole right matrix and stores the
   block of rows of the product. Here: what a block is when read off the arrays the region finds, that the two input
   staging buffers hold their blocks at every point (the right matrix's is fetched once and then kept), what the body
   leaves in the output's staging buffer as a function of the two input blocks, the body's run, the proof data of the
   pipeline, and the body obligation at every point. Everything holds at any float instance. -/
import proofs.«115049_j15814069584107_1_alg».proof.Proof.Gen.Kernel.Launch
import proofs.«115049_j15814069584107_1_alg».proof.Proof.Gen.Kernel.Skeleton
import proofs.«115049_j15814069584107_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The left matrix's staging buffer holds the point's block of rows. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- The right matrix's staging buffer holds the whole matrix at every point: fetched at the first, its block index never moves. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The whole-buffer rectangles the body loads and stores through. -/
abbrev r3_a : Rect S400x4395 := Rect.unit (s := S400x4395) ![0, 0] S400x4395.size inb_S400x4395_S400x4395_0_0
abbrev r3_b : Rect S4395x128 := Rect.unit (s := S4395x128) ![0, 0] S4395x128.size inb_S4395x128_S4395x128_0_0
abbrev r3_o : Rect S400x128 := Rect.unit (s := S400x128) ![0, 0] S400x128.size inb_S400x128_S400x128_0_0

/-- The output's staging buffer after the body: its one whole-buffer store of the product of the two loaded blocks. -/
def out3_2 (x0 : Vec F S400x4395 .f32) (x1 : Vec F S4395x128 .f32) : Vec F S400x128 .f32 :=
  View.canon [⟨r3_o, k3_pay1 (View.ld x0 r3_a) (View.ld x1 r3_b)⟩]

/-- The store covers the buffer. -/
theorem cover3_2 (p0 : Vec F S400x128 .f32) (y : S400x128.Idx) :
    ∃ pc ∈ ([⟨r3_o, p0⟩] : List (View.Piece (Elt F) S400x128 .f32)), y ∈ pc.1.set :=
  View.cover_of_tiled [⟨r3_o, p0⟩] S400x128.size (by rfl) y

set_option maxHeartbeats 1000000 in
/-- The body on whole staging buffers, the inputs' at contents `x0`, `x1` and the output's at anything, returns the
    inputs' as they were and the output's at `out3_2 x0 x1`. -/
theorem sound_kernel3 (c : Dev nD) (E : Set ℕ) (i : grid3.Coords) (arg1 : Memref sig .tc .vmem S400x4395 .f32) (harg1 : arg1.IsWhole) (arg2 : Memref sig .tc .vmem S4395x128 .f32) (harg2 : arg2.IsWhole) (arg3 : Memref sig .tc .vmem S400x128 .f32) (harg3 : arg3.IsWhole)
    (x0 : Vec F S400x4395 .f32) (x1 : Vec F S4395x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__mm_kernel i arg1 harg1 arg2 harg2 arg3 harg3) K := by
  simp only [cc3__mm_kernel_eq_skeleton]; unfold cc3__mm_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The proof data of the pipeline on core `c`: the arrays as the region finds them; after the body at point `t` each
    input's buffer at its block and the output's at the product of the two blocks; the invariant is the scoped rest and the
    generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' buffers hold their blocks, so the body's run applies; the invariant and what the
    core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ (grid3.coords t) _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.R4.lean ====
/- Region 4: the first graph layer's linear step with its rectifier, h·Ws1 + neigh·Wn1 + b1 then max with 0, twenty-five blocks of 1000 node rows.
   One grid point takes a block of 1000 node rows and the same rows of the neighbour means, multiplies each by its
   weight matrix, adds the two products and the bias row, takes the maximum with zero, and stores the block of rows of the
   result. Here: the blocks read off the arrays the region finds, the five input staging buffers at their blocks at every
   point (the weights and the bias are fetched once and kept), the output buffer after the body as a function of the five
   input blocks, the body's run, the pipeline's proof data and the body obligation. Everything holds at any float instance. -/
import proofs.«115049_j15814069584107_1_alg».proof.Proof.Gen.Kernel.Launch
import proofs.«115049_j15814069584107_1_alg».proof.Proof.Gen.Kernel.Skeleton
import proofs.«115049_j15814069584107_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- the node rows' staging buffer holds its block at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- the neighbour means' staging buffer holds its block at every point, fetched there or not. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- the self weights' staging buffer holds its block at every point, fetched there or not. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
/-- the neighbour weights' staging buffer holds its block at every point, fetched there or not. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
/-- the bias row's staging buffer holds its block at every point, fetched there or not. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- The whole-buffer rectangles the body loads and stores through. -/
abbrev r4_h : Rect S1000x128 := Rect.unit (s := S1000x128) ![0, 0] S1000x128.size inb_S1000x128_S1000x128_0_0
abbrev r4_w : Rect S128x64 := Rect.unit (s := S128x64) ![0, 0] S128x64.size inb_S128x64_S128x64_0_0
abbrev r4_b : Rect S1x64 := Rect.unit (s := S1x64) ![0, 0] S1x64.size inb_S1x64_S1x64_0_0
abbrev r4_o : Rect S1000x64 := Rect.unit (s := S1000x64) ![0, 0] S1000x64.size inb_S1000x64_S1000x64_0_0

/-- The output's staging buffer after the body: its one whole-buffer store, of the five loaded blocks. -/
def out4_5 (x0 : Vec F S1000x128 .f32) (x1 : Vec F S1000x128 .f32) (x2 : Vec F S128x64 .f32) (x3 : Vec F S128x64 .f32) (x4 : Vec F S1x64 .f32) : Vec F S1000x64 .f32 :=
  View.canon [⟨r4_o, k4_pay1 (View.ld x0 r4_h) (View.ld x1 r4_h) (View.ld x2 r4_w) (View.ld x3 r4_w) (View.ld x4 r4_b)⟩]

/-- The store covers the buffer. -/
theorem cover4_5 (p0 : Vec F S1000x64 .f32) (y : S1000x64.Idx) :
    ∃ pc ∈ ([⟨r4_o, p0⟩] : List (View.Piece (Elt F) S1000x64 .f32)), y ∈ pc.1.set :=
  View.cover_of_tiled [⟨r4_o, p0⟩] S1000x64.size (by rfl) y

set_option maxHeartbeats 1000000 in
/-- The body on whole staging buffers, the inputs' at contents `x0 … x4` and the output's at anything, returns the
    inputs' as they were and the output's at `out4_5` of them. -/
theorem sound_kernel4 (c : Dev nD) (E : Set ℕ) (i : grid4.Coords) (arg1 : Memref sig .tc .vmem S1000x128 .f32) (harg1 : arg1.IsWhole) (arg2 : Memref sig .tc .vmem S1000x128 .f32) (harg2 : arg2.IsWhole) (arg3 : Memref sig .tc .vmem S128x64 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S1000x64 .f32) (harg6 : arg6.IsWhole)
    (x0 : Vec F S1000x128 .f32) (x1 : Vec F S1000x128 .f32) (x2 : Vec F S128x64 .f32) (x3 : Vec F S128x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out4_5 x0 x1 x2 x3 x4)) -∗ K ⟨⟩))
      ⊢ wp frame (wpE (defs₀ (F := F)) Variants.none c none) E (cc4__sage_lin_kernel i arg1 harg1 arg2 harg2 arg3 harg3 arg4 harg4 arg5 harg5 arg6 harg6) K := by
  simp only [cc4__sage_lin_kernel_eq_skeleton]; unfold cc4__sage_lin_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4_5 _)

/-- The proof data of the pipeline on core `c`: the arrays as the region finds them; after the body at point `t` each
    input's buffer at its block and the output's at `out4_5` of the five blocks; the invariant is the scoped rest and the
    generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = out4_5 (iblk4 V c 0 t) (iblk4 V c 1 t) (iblk4 V c 2 t) (iblk4 V c 3 t) (iblk4 V c 4 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

/-- The body at any point: the inputs' buffers hold their blocks, so the body's run applies; the invariant and what the
    core owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ (grid4.coords t) _ _ _ _ _ _ _ _ _ _ _ _ (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the pipeline, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.K.R5.lean ====
/- Region 5: the second graph layer's linear step, h1·Ws2 + neigh·Wn2 + b2, twenty-five blocks of 1000 node rows.
   One grid point takes a block of 1000 node rows and the same rows of the neighbour means, multiplies each by its
   weight matrix, adds the two products and the bias row, and stores the block of rows of the
   result. Here: the blocks read off the arrays the region finds, the five input staging buffers at their blocks at every
   point (the weights and the bias are fetched once and kept), the output buffer after the body as a function of the five
   input blocks, the body's run, the pipeline's proof data and the body obligation. Everything holds at any float instance. -/
import proofs.«115049_j15814069584107_1_alg».proof.Proof.Gen.Kernel.Launch
import proofs.«115049_j15814069584107_1_alg».proof.Proof.Gen.Kernel.Skeleton
import proofs.«115049_j15814069584107_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- the node rows' staging buffer holds its block at every point, fetched there or not. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- the neighbour means' staging buffer holds its block at every point, fetched there or not. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
/-- the self weights' staging buffer holds its block at every point, fetched there or not. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
/-- the neighbour weights' staging buffer holds its block at every point, fetched there or not. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
/-- the bias row's staging buffer holds its block at every point, fetched there or not. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- The whole-buffer rectangles the body loads and stores through. -/
abbrev r5_h : Rect S1000x64 := Rect.unit (s := S1000x64) ![0, 0] S1000x64.size inb_S1000x64_S1000x64_0_0
abbrev r5_w : Rect S64x64 := Rect.unit (s := S64x64) ![0, 0] S64x64.size inb_S64x64_S64x64_0_0
abbrev r5_b : Rect S1x64 := Rect.unit (s := S1x64) ![0, 0] S1x64.size inb_S1x64_S1x64_0_0
abbrev r5_o : Rect S1000x64 := Rect.unit (s := S1000x64) ![0, 0] S1000x64.size inb_S1000x64_S1000x64_0_0

/-- The output's staging buffer after the body: its one whole-buffer store, of the five loaded blocks. -/
def out5_5 (x0 : Vec F S1000x64 .f32) (x1 : Vec F S1000x64 .f32) (x2 : Vec F S64x64 .f32) (x3 : Vec F S64x64 .f32) (x4 : Vec F S1x64 .f32) : Vec F S1000x64 .f32 :=
  View.canon [⟨r5_o, k5_pay1 (View.ld x0 r5_h) (View.ld x1 r5_h) (View.ld x2 r5_w) (View.ld x3 r5_w) (View.ld x4 r5_b)⟩]

/-- The store covers the buffer. -/
theorem cover5_5 (p0 : Vec F S1000x64 .f32) (y : S1000x64.Idx) :
    ∃ pc ∈ ([⟨r5_o, p0⟩] : List (View.Piece (Elt F) S1000x64 .f32)), y ∈ pc.1.set :=
  View.cover_of_tiled [⟨r5_o, p0⟩] S1000x64.size (by rfl) y

set_option maxHeartbeats 1000000 in
/-- The body on whole staging buffers, the inputs' at contents `x0 … x4` and the output's at anything, returns the
    inputs' as they were and the output's at `out5_5` of them. -/
theorem sound_kernel5 (c : Dev nD) (E : Set ℕ) (i : grid5.Coords) (arg1 : Memref sig .tc .vmem S1000x64 .f32) (harg1 : arg1.IsWhole) (arg2 : Memref sig .tc .vmem S1000x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S1000x64 .f32) (harg6 : arg6.IsWhole)
    (x0 : Vec F S1000x64 .f32) (x1 : Vec F S1000x64 .f32) (x2 : Vec F S64x64 .f32) (x3 : Vec F S64x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out5_5 x0 x1 x2 x3 x4)) -∗ K ⟨⟩))
      ⊢ wp frame (wpE (defs₀ (F := F)) Variants.none c none) E (cc5__sage_lin_kernel i arg1 harg1 arg2 harg2 arg3 harg3 arg4 harg4 arg5 harg5 arg6 harg6) K := by
  simp only [cc5__sage_lin_kernel_eq_skeleton]; unfold cc5__sage_lin_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-- The proof data of the pipeline on core `c`: the arrays as the region finds them; after the body at point `t` each
    input's buffer at its block and the output's at `out5_5` of the five blocks; the invariant is the scoped rest and the
    generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-- What the body is called with at point `t`, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the inputs' buffers hold their blocks, so the body's run applies; the invariant and what the
    core owes pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ (grid5.coords t) _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the pipeline, at every point. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.K.Run.lean ====
/- The run of the whole program: six kernel regions and, between the last three, two stretches of host operations.
   The contents of a core's buffers at the nine boundaries between the items are a fold from the launch memory: a
   region replaces its windows' arrays by what its write-backs leave (an input's array is left as entered) and keeps
   every other buffer; a host stretch applies its operations in order. Each region is a segment of the program over the
   thread state "every unscoped buffer whole at the boundary's contents, the generator register at some state, nothing
   owed"; the segments chain, the launch theorem runs them from any memory with zero counters, and every final memory
   holds each unscoped buffer at the last boundary's contents. No item writes an argument array, so each argument reads
   back through the fold to the launch memory; each region's output reads back, at the boundary after the region, to
   what its write-backs leave. Everything holds at any float instance. -/
import proofs.«115049_j15814069584107_1_alg».proof.Proof.Gen.Kernel.Regions
import proofs.«115049_j15814069584107_1_alg».proof.Proof.K.R0
import proofs.«115049_j15814069584107_1_alg».proof.Proof.K.R1
import proofs.«115049_j15814069584107_1_alg».proof.Proof.K.R2
import proofs.«115049_j15814069584107_1_alg».proof.Proof.K.R3
import proofs.«115049_j15814069584107_1_alg».proof.Proof.K.R4
import proofs.«115049_j15814069584107_1_alg».proof.Proof.K.R5
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary: a fold through the program -/

/-- Core `c`'s buffers at launch (region 0's entry). -/
abbrev W0 : Dev nD → Valuation τ sig (Elt F) := fun c b => (s₀ m ρ).mem ((c : Dev nD), b)
/-- The same read at the TensorCore's references (what region 0's proof data take). -/
abbrev V0 : (c : Dev nD) → (b : Ref sig .tc) → Buf (Elt F) ((c : Thread nD τ).loc b) := fun c b => W0 m ρ c b

/-- At region 0's exit: its windows' arrays at what the pipeline leaves (an input's as entered, the output's write-backs
    folded), every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
/-- A buffer region 0 does not stage is unchanged across it. -/
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the TensorCore's references. -/
abbrev V1 : (c : Dev nD) → (b : Ref sig .tc) → Buf (Elt F) ((c : Thread nD τ).loc b) := fun c b => W1 m ρ c b
/-- At region 0's exit each of its arrays holds what the pipeline leaves and every other buffer what it held at entry. -/
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)
/-- The output of region 0 at the boundary after it: what its write-backs leave. -/
theorem W1_main_v0 (c : Dev nD) : W1 m ρ c (Proc.devRef .tc main_v0) = (dat0 (V0 m ρ) c).arrAt 2 cfg0.N :=
  W1_arr m ρ c 2
/-- Across region 0 every buffer but its output keeps its contents: a buffer no window stages bypasses the region, and an
    input window's array is left as entered. -/
theorem W1_of_ne_out (c : Dev nD) (b : Ref sig .tc) (hb : b ≠ main_v0) :
    W1 m ρ c (Proc.devRef .tc b) = W0 m ρ c (Proc.devRef .tc b) := by
  by_cases h : ∀ w, Pipeline.arrRef spec0 w ≠ b
  · exact W1_of_ne m ρ c b h
  · obtain ⟨w, hw⟩ := not_forall.mp h
    obtain rfl : Pipeline.arrRef spec0 w = b := not_not.mp hw
    match w with
    | ⟨0, _⟩ => exact (W1_arr m ρ c 0).trans (((dat0 (V0 m ρ) c).arrAt_in 0 rfl _).trans (A_eq0 (V0 m ρ) c 0))
    | ⟨1, _⟩ => exact (W1_arr m ρ c 1).trans (((dat0 (V0 m ρ) c).arrAt_in 1 rfl _).trans (A_eq0 (V0 m ρ) c 1))
    | ⟨2, _⟩ => exact absurd rfl hb

/-- At region 1's exit: its windows' arrays at what the pipeline leaves (an input's as entered, the output's write-backs
    folded), every other buffer as entered. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
/-- A buffer region 1 does not stage is unchanged across it. -/
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
/-- The same read at the TensorCore's references. -/
abbrev V2 : (c : Dev nD) → (b : Ref sig .tc) → Buf (Elt F) ((c : Thread nD τ).loc b) := fun c b => W2 m ρ c b
/-- At region 1's exit each of its arrays holds what the pipeline leaves and every other buffer what it held at entry. -/
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)
/-- The output of region 1 at the boundary after it: what its write-backs leave. -/
theorem W2_main_v1 (c : Dev nD) : W2 m ρ c (Proc.devRef .tc main_v1) = (dat1 (V1 m ρ) c).arrAt 2 cfg1.N :=
  W2_arr m ρ c 2
/-- Across region 1 every buffer but its output keeps its contents: a buffer no window stages bypasses the region, and an
    input window's array is left as entered. -/
theorem W2_of_ne_out (c : Dev nD) (b : Ref sig .tc) (hb : b ≠ main_v1) :
    W2 m ρ c (Proc.devRef .tc b) = W1 m ρ c (Proc.devRef .tc b) := by
  by_cases h : ∀ w, Pipeline.arrRef spec1 w ≠ b
  · exact W2_of_ne m ρ c b h
  · obtain ⟨w, hw⟩ := not_forall.mp h
    obtain rfl : Pipeline.arrRef spec1 w = b := not_not.mp hw
    match w with
    | ⟨0, _⟩ => exact (W2_arr m ρ c 0).trans (((dat1 (V1 m ρ) c).arrAt_in 0 rfl _).trans (A_eq1 (V1 m ρ) c 0))
    | ⟨1, _⟩ => exact (W2_arr m ρ c 1).trans (((dat1 (V1 m ρ) c).arrAt_in 1 rfl _).trans (A_eq1 (V1 m ρ) c 1))
    | ⟨2, _⟩ => exact absurd rfl hb

/-- At region 2's exit: its windows' arrays at what the pipeline leaves (an input's as entered, the output's write-backs
    folded), every other buffer as entered. -/
def W3 (c : Dev nD) : Valuation τ sig (Elt F) :=
  Pipeline.withArrays spec2 c (W2 m ρ c) fun w => (dat2 (V2 m ρ) c).arrAt w cfg2.N
theorem W3_arr (c : Dev nD) (w : Fin cfg2.W) :
    W3 m ρ c (Proc.devRef .tc (Pipeline.arrRef spec2 w)) = (dat2 (V2 m ρ) c).arrAt w cfg2.N := by
  unfold W3; exact Pipeline.withArrays_arr spec2 launch2.win.arr_inj c _ _ w
/-- A buffer region 2 does not stage is unchanged across it. -/
theorem W3_of_ne (c : Dev nD) (b : Ref sig .tc) (hb : ∀ w, Pipeline.arrRef spec2 w ≠ b) :
    W3 m ρ c (Proc.devRef .tc b) = W2 m ρ c (Proc.devRef .tc b) := by
  unfold W3; exact Pipeline.withArrays_of_ne spec2 c _ _ b hb
/-- The same read at the TensorCore's references. -/
abbrev V3 : (c : Dev nD) → (b : Ref sig .tc) → Buf (Elt F) ((c : Thread nD τ).loc b) := fun c b => W3 m ρ c b
/-- At region 2's exit each of its arrays holds what the pipeline leaves and every other buffer what it held at entry. -/
theorem hF2 (c : Dev nD) (w : Fin cfg2.W) : (dat2 (V2 m ρ) c).arrAt w cfg2.N = V3 m ρ c (Pipeline.arrRef spec2 w) :=
  (W3_arr m ρ c w).symm
theorem hrest2 (c : Dev nD) : ∀ b, b ∉ Finset.univ.image (Pipeline.arrRef spec2) → V3 m ρ c b = V2 m ρ c b :=
  fun b hb => W3_of_ne m ρ c b fun w e => hb (Finset.mem_image.mpr ⟨w, Finset.mem_univ _, e⟩)
/-- The output of region 2 at the boundary after it: what its write-backs leave. -/
theorem W3_main_v2 (c : Dev nD) : W3 m ρ c (Proc.devRef .tc main_v2) = (dat2 (V2 m ρ) c).arrAt 2 cfg2.N :=
  W3_arr m ρ c 2
/-- Across region 2 every buffer but its output keeps its contents: a buffer no window stages bypasses the region, and an
    input window's array is left as entered. -/
theorem W3_of_ne_out (c : Dev nD) (b : Ref sig .tc) (hb : b ≠ main_v2) :
    W3 m ρ c (Proc.devRef .tc b) = W2 m ρ c (Proc.devRef .tc b) := by
  by_cases h : ∀ w, Pipeline.arrRef spec2 w ≠ b
  · exact W3_of_ne m ρ c b h
  · obtain ⟨w, hw⟩ := not_forall.mp h
    obtain rfl : Pipeline.arrRef spec2 w = b := not_not.mp hw
    match w with
    | ⟨0, _⟩ => exact (W3_arr m ρ c 0).trans (((dat2 (V2 m ρ) c).arrAt_in 0 rfl _).trans (A_eq2 (V2 m ρ) c 0))
    | ⟨1, _⟩ => exact (W3_arr m ρ c 1).trans (((dat2 (V2 m ρ) c).arrAt_in 1 rfl _).trans (A_eq2 (V2 m ρ) c 1))
    | ⟨2, _⟩ => exact absurd rfl hb

/-- At region 3's exit: its windows' arrays at what the pipeline leaves (an input's as entered, the output's write-backs
    folded), every other buffer as entered. -/
def W4 (c : Dev nD) : Valuation τ sig (Elt F) :=
  Pipeline.withArrays spec3 c (W3 m ρ c) fun w => (dat3 (V3 m ρ) c).arrAt w cfg3.N
theorem W4_arr (c : Dev nD) (w : Fin cfg3.W) :
    W4 m ρ c (Proc.devRef .tc (Pipeline.arrRef spec3 w)) = (dat3 (V3 m ρ) c).arrAt w cfg3.N := by
  unfold W4; exact Pipeline.withArrays_arr spec3 launch3.win.arr_inj c _ _ w
/-- A buffer region 3 does not stage is unchanged across it. -/
theorem W4_of_ne (c : Dev nD) (b : Ref sig .tc) (hb : ∀ w, Pipeline.arrRef spec3 w ≠ b) :
    W4 m ρ c (Proc.devRef .tc b) = W3 m ρ c (Proc.devRef .tc b) := by
  unfold W4; exact Pipeline.withArrays_of_ne spec3 c _ _ b hb
/-- The same read at the TensorCore's references. -/
abbrev V4 : (c : Dev nD) → (b : Ref sig .tc) → Buf (Elt F) ((c : Thread nD τ).loc b) := fun c b => W4 m ρ c b
/-- At region 3's exit each of its arrays holds what the pipeline leaves and every other buffer what it held at entry. -/
theorem hF3 (c : Dev nD) (w : Fin cfg3.W) : (dat3 (V3 m ρ) c).arrAt w cfg3.N = V4 m ρ c (Pipeline.arrRef spec3 w) :=
  (W4_arr m ρ c w).symm
theorem hrest3 (c : Dev nD) : ∀ b, b ∉ Finset.univ.image (Pipeline.arrRef spec3) → V4 m ρ c b = V3 m ρ c b :=
  fun b hb => W4_of_ne m ρ c b fun w e => hb (Finset.mem_image.mpr ⟨w, Finset.mem_univ _, e⟩)
/-- The output of region 3 at the boundary after it: what its write-backs leave. -/
theorem W4_main_v3 (c : Dev nD) : W4 m ρ c (Proc.devRef .tc main_v3) = (dat3 (V3 m ρ) c).arrAt 2 cfg3.N :=
  W4_arr m ρ c 2
/-- Across region 3 every buffer but its output keeps its contents: a buffer no window stages bypasses the region, and an
    input window's array is left as entered. -/
theorem W4_of_ne_out (c : Dev nD) (b : Ref sig .tc) (hb : b ≠ main_v3) :
    W4 m ρ c (Proc.devRef .tc b) = W3 m ρ c (Proc.devRef .tc b) := by
  by_cases h : ∀ w, Pipeline.arrRef spec3 w ≠ b
  · exact W4_of_ne m ρ c b h
  · obtain ⟨w, hw⟩ := not_forall.mp h
    obtain rfl : Pipeline.arrRef spec3 w = b := not_not.mp hw
    match w with
    | ⟨0, _⟩ => exact (W4_arr m ρ c 0).trans (((dat3 (V3 m ρ) c).arrAt_in 0 rfl _).trans (A_eq3 (V3 m ρ) c 0))
    | ⟨1, _⟩ => exact (W4_arr m ρ c 1).trans (((dat3 (V3 m ρ) c).arrAt_in 1 rfl _).trans (A_eq3 (V3 m ρ) c 1))
    | ⟨2, _⟩ => exact absurd rfl hb

/-- After the host stretch `hostOps4` (the next region's entry). -/
abbrev W5 : Dev nD → Valuation τ sig (Elt F) := fun c => StableHlo.after hostOps4 (W4 m ρ c)
/-- The same read at the TensorCore's references. -/
abbrev V5 : (c : Dev nD) → (b : Ref sig .tc) → Buf (Elt F) ((c : Thread nD τ).loc b) := fun c b => W5 m ρ c b
/-- A buffer no operation of `hostOps4` writes is unchanged across the stretch. -/
theorem W5_of (c : Dev nD) (b : Ref sig .tc) (hb : b ∉ hostOps4_W) :
    W5 m ρ c (Proc.devRef .tc b) = W4 m ρ c (Proc.devRef .tc b) :=
  StableHlo.after_of_writes_sub hostOps4 _ hostOps4_writes hb

/-- At region 4's exit: its windows' arrays at what the pipeline leaves (an input's as entered, the output's write-backs
    folded), every other buffer as entered. -/
def W6 (c : Dev nD) : Valuation τ sig (Elt F) :=
  Pipeline.withArrays spec4 c (W5 m ρ c) fun w => (dat4 (V5 m ρ) c).arrAt w cfg4.N
theorem W6_arr (c : Dev nD) (w : Fin cfg4.W) :
    W6 m ρ c (Proc.devRef .tc (Pipeline.arrRef spec4 w)) = (dat4 (V5 m ρ) c).arrAt w cfg4.N := by
  unfold W6; exact Pipeline.withArrays_arr spec4 launch4.win.arr_inj c _ _ w
/-- A buffer region 4 does not stage is unchanged across it. -/
theorem W6_of_ne (c : Dev nD) (b : Ref sig .tc) (hb : ∀ w, Pipeline.arrRef spec4 w ≠ b) :
    W6 m ρ c (Proc.devRef .tc b) = W5 m ρ c (Proc.devRef .tc b) := by
  unfold W6; exact Pipeline.withArrays_of_ne spec4 c _ _ b hb
/-- The same read at the TensorCore's references. -/
abbrev V6 : (c : Dev nD) → (b : Ref sig .tc) → Buf (Elt F) ((c : Thread nD τ).loc b) := fun c b => W6 m ρ c b
/-- At region 4's exit each of its arrays holds what the pipeline leaves and every other buffer what it held at entry. -/
theorem hF4 (c : Dev nD) (w : Fin cfg4.W) : (dat4 (V5 m ρ) c).arrAt w cfg4.N = V6 m ρ c (Pipeline.arrRef spec4 w) :=
  (W6_arr m ρ c w).symm
theorem hrest4 (c : Dev nD) : ∀ b, b ∉ Finset.univ.image (Pipeline.arrRef spec4) → V6 m ρ c b = V5 m ρ c b :=
  fun b hb => W6_of_ne m ρ c b fun w e => hb (Finset.mem_image.mpr ⟨w, Finset.mem_univ _, e⟩)
/-- The output of region 4 at the boundary after it: what its write-backs leave. -/
theorem W6_main_v41 (c : Dev nD) : W6 m ρ c (Proc.devRef .tc main_v41) = (dat4 (V5 m ρ) c).arrAt 5 cfg4.N :=
  W6_arr m ρ c 5
/-- Across region 4 every buffer but its output keeps its contents: a buffer no window stages bypasses the region, and an
    input window's array is left as entered. -/
theorem W6_of_ne_out (c : Dev nD) (b : Ref sig .tc) (hb : b ≠ main_v41) :
    W6 m ρ c (Proc.devRef .tc b) = W5 m ρ c (Proc.devRef .tc b) := by
  by_cases h : ∀ w, Pipeline.arrRef spec4 w ≠ b
  · exact W6_of_ne m ρ c b h
  · obtain ⟨w, hw⟩ := not_forall.mp h
    obtain rfl : Pipeline.arrRef spec4 w = b := not_not.mp hw
    match w with
    | ⟨0, _⟩ => exact (W6_arr m ρ c 0).trans (((dat4 (V5 m ρ) c).arrAt_in 0 rfl _).trans (A_eq4 (V5 m ρ) c 0))
    | ⟨1, _⟩ => exact (W6_arr m ρ c 1).trans (((dat4 (V5 m ρ) c).arrAt_in 1 rfl _).trans (A_eq4 (V5 m ρ) c 1))
    | ⟨2, _⟩ => exact (W6_arr m ρ c 2).trans (((dat4 (V5 m ρ) c).arrAt_in 2 rfl _).trans (A_eq4 (V5 m ρ) c 2))
    | ⟨3, _⟩ => exact (W6_arr m ρ c 3).trans (((dat4 (V5 m ρ) c).arrAt_in 3 rfl _).trans (A_eq4 (V5 m ρ) c 3))
    | ⟨4, _⟩ => exact (W6_arr m ρ c 4).trans (((dat4 (V5 m ρ) c).arrAt_in 4 rfl _).trans (A_eq4 (V5 m ρ) c 4))
    | ⟨5, _⟩ => exact absurd rfl hb

/-- After the host stretch `hostOps5` (the next region's entry). -/
abbrev W7 : Dev nD → Valuation τ sig (Elt F) := fun c => StableHlo.after hostOps5 (W6 m ρ c)
/-- The same read at the TensorCore's references. -/
abbrev V7 : (c : Dev nD) → (b : Ref sig .tc) → Buf (Elt F) ((c : Thread nD τ).loc b) := fun c b => W7 m ρ c b
/-- A buffer no operation of `hostOps5` writes is unchanged across the stretch. -/
theorem W7_of (c : Dev nD) (b : Ref sig .tc) (hb : b ∉ hostOps5_W) :
    W7 m ρ c (Proc.devRef .tc b) = W6 m ρ c (Proc.devRef .tc b) :=
  StableHlo.after_of_writes_sub hostOps5 _ hostOps5_writes hb

/-- At region 5's exit: its windows' arrays at what the pipeline leaves (an input's as entered, the output's write-backs
    folded), every other buffer as entered. -/
def W8 (c : Dev nD) : Valuation τ sig (Elt F) :=
  Pipeline.withArrays spec5 c (W7 m ρ c) fun w => (dat5 (V7 m ρ) c).arrAt w cfg5.N
theorem W8_arr (c : Dev nD) (w : Fin cfg5.W) :
    W8 m ρ c (Proc.devRef .tc (Pipeline.arrRef spec5 w)) = (dat5 (V7 m ρ) c).arrAt w cfg5.N := by
  unfold W8; exact Pipeline.withArrays_arr spec5 launch5.win.arr_inj c _ _ w
/-- A buffer region 5 does not stage is unchanged across it. -/
theorem W8_of_ne (c : Dev nD) (b : Ref sig .tc) (hb : ∀ w, Pipeline.arrRef spec5 w ≠ b) :
    W8 m ρ c (Proc.devRef .tc b) = W7 m ρ c (Proc.devRef .tc b) := by
  unfold W8; exact Pipeline.withArrays_of_ne spec5 c _ _ b hb
/-- The same read at the TensorCore's references. -/
abbrev V8 : (c : Dev nD) → (b : Ref sig .tc) → Buf (Elt F) ((c : Thread nD τ).loc b) := fun c b => W8 m ρ c b
/-- At region 5's exit each of its arrays holds what the pipeline leaves and every other buffer what it held at entry. -/
theorem hF5 (c : Dev nD) (w : Fin cfg5.W) : (dat5 (V7 m ρ) c).arrAt w cfg5.N = V8 m ρ c (Pipeline.arrRef spec5 w) :=
  (W8_arr m ρ c w).symm
theorem hrest5 (c : Dev nD) : ∀ b, b ∉ Finset.univ.image (Pipeline.arrRef spec5) → V8 m ρ c b = V7 m ρ c b :=
  fun b hb => W8_of_ne m ρ c b fun w e => hb (Finset.mem_image.mpr ⟨w, Finset.mem_univ _, e⟩)
/-- The output of region 5 at the boundary after it: what its write-backs leave. -/
theorem W8_main_v62 (c : Dev nD) : W8 m ρ c (Proc.devRef .tc main_v62) = (dat5 (V7 m ρ) c).arrAt 5 cfg5.N :=
  W8_arr m ρ c 5
/-- Across region 5 every buffer but its output keeps its contents: a buffer no window stages bypasses the region, and an
    input window's array is left as entered. -/
theorem W8_of_ne_out (c : Dev nD) (b : Ref sig .tc) (hb : b ≠ main_v62) :
    W8 m ρ c (Proc.devRef .tc b) = W7 m ρ c (Proc.devRef .tc b) := by
  by_cases h : ∀ w, Pipeline.arrRef spec5 w ≠ b
  · exact W8_of_ne m ρ c b h
  · obtain ⟨w, hw⟩ := not_forall.mp h
    obtain rfl : Pipeline.arrRef spec5 w = b := not_not.mp hw
    match w with
    | ⟨0, _⟩ => exact (W8_arr m ρ c 0).trans (((dat5 (V7 m ρ) c).arrAt_in 0 rfl _).trans (A_eq5 (V7 m ρ) c 0))
    | ⟨1, _⟩ => exact (W8_arr m ρ c 1).trans (((dat5 (V7 m ρ) c).arrAt_in 1 rfl _).trans (A_eq5 (V7 m ρ) c 1))
    | ⟨2, _⟩ => exact (W8_arr m ρ c 2).trans (((dat5 (V7 m ρ) c).arrAt_in 2 rfl _).trans (A_eq5 (V7 m ρ) c 2))
    | ⟨3, _⟩ => exact (W8_arr m ρ c 3).trans (((dat5 (V7 m ρ) c).arrAt_in 3 rfl _).trans (A_eq5 (V7 m ρ) c 3))
    | ⟨4, _⟩ => exact (W8_arr m ρ c 4).trans (((dat5 (V7 m ρ) c).arrAt_in 4 rfl _).trans (A_eq5 (V7 m ρ) c 4))
    | ⟨5, _⟩ => exact absurd rfl hb

/-! ### A buffer nothing has written yet holds its launch contents

At each boundary, a buffer that is the output of no earlier region and that no earlier host operation writes reads back
through the fold to the launch memory. No item writes an argument array, so every argument does at every boundary. -/

theorem W0_eq (c : Dev nD) (b : Ref sig .tc) : W0 m ρ c (Proc.devRef .tc b) = m ((c : Thread nD τ).loc b) := rfl
theorem W1_of_unwritten (c : Dev nD) (b : Ref sig .tc) (hb : b ∉ ([main_v0] : List (Ref sig .tc))) :
    W1 m ρ c (Proc.devRef .tc b) = m ((c : Thread nD τ).loc b) :=
  (W1_of_ne_out m ρ c b (List.ne_of_not_mem_cons hb)).trans (W0_eq m ρ c b)
theorem W2_of_unwritten (c : Dev nD) (b : Ref sig .tc) (hb : b ∉ ([main_v1, main_v0] : List (Ref sig .tc))) :
    W2 m ρ c (Proc.devRef .tc b) = m ((c : Thread nD τ).loc b) :=
  (W2_of_ne_out m ρ c b (List.ne_of_not_mem_cons hb)).trans (W1_of_unwritten m ρ c b (List.not_mem_of_not_mem_cons hb))
theorem W3_of_unwritten (c : Dev nD) (b : Ref sig .tc) (hb : b ∉ ([main_v2, main_v1, main_v0] : List (Ref sig .tc))) :
    W3 m ρ c (Proc.devRef .tc b) = m ((c : Thread nD τ).loc b) :=
  (W3_of_ne_out m ρ c b (List.ne_of_not_mem_cons hb)).trans (W2_of_unwritten m ρ c b (List.not_mem_of_not_mem_cons hb))
theorem W4_of_unwritten (c : Dev nD) (b : Ref sig .tc) (hb : b ∉ ([main_v3, main_v2, main_v1, main_v0] : List (Ref sig .tc))) :
    W4 m ρ c (Proc.devRef .tc b) = m ((c : Thread nD τ).loc b) :=
  (W4_of_ne_out m ρ c b (List.ne_of_not_mem_cons hb)).trans (W3_of_unwritten m ρ c b (List.not_mem_of_not_mem_cons hb))
theorem W5_of_unwritten (c : Dev nD) (b : Ref sig .tc) (hb : b ∉ ([main_v3, main_v2, main_v1, main_v0] : List (Ref sig .tc)))
    (h4 : b ∉ hostOps4_W) : W5 m ρ c (Proc.devRef .tc b) = m ((c : Thread nD τ).loc b) :=
  (W5_of m ρ c b h4).trans (W4_of_unwritten m ρ c b hb)
theorem W6_of_unwritten (c : Dev nD) (b : Ref sig .tc) (hb : b ∉ ([main_v41, main_v3, main_v2, main_v1, main_v0] : List (Ref sig .tc)))
    (h4 : b ∉ hostOps4_W) : W6 m ρ c (Proc.devRef .tc b) = m ((c : Thread nD τ).loc b) :=
  (W6_of_ne_out m ρ c b (List.ne_of_not_mem_cons hb)).trans (W5_of_unwritten m ρ c b (List.not_mem_of_not_mem_cons hb) h4)
theorem W7_of_unwritten (c : Dev nD) (b : Ref sig .tc) (hb : b ∉ ([main_v41, main_v3, main_v2, main_v1, main_v0] : List (Ref sig .tc)))
    (h4 : b ∉ hostOps4_W) (h5 : b ∉ hostOps5_W) : W7 m ρ c (Proc.devRef .tc b) = m ((c : Thread nD τ).loc b) :=
  (W7_of m ρ c b h5).trans (W6_of_unwritten m ρ c b hb h4)
theorem W8_of_unwritten (c : Dev nD) (b : Ref sig .tc) (hb : b ∉ ([main_v62, main_v41, main_v3, main_v2, main_v1, main_v0] : List (Ref sig .tc)))
    (h4 : b ∉ hostOps4_W) (h5 : b ∉ hostOps5_W) : W8 m ρ c (Proc.devRef .tc b) = m ((c : Thread nD τ).loc b) :=
  (W8_of_ne_out m ρ c b (List.ne_of_not_mem_cons hb)).trans (W7_of_unwritten m ρ c b (List.not_mem_of_not_mem_cons hb) h4 h5)

theorem W8_main_arg0 (c : Dev nD) : W8 m ρ c (Proc.devRef .tc main_arg0) = m ((c : Thread nD τ).loc main_arg0) :=
  W8_of_unwritten m ρ c main_arg0 (by decide) (by decide) (by decide)
theorem W8_main_arg1 (c : Dev nD) : W8 m ρ c (Proc.devRef .tc main_arg1) = m ((c : Thread nD τ).loc main_arg1) :=
  W8_of_unwritten m ρ c main_arg1 (by decide) (by decide) (by decide)
theorem W8_main_arg2 (c : Dev nD) : W8 m ρ c (Proc.devRef .tc main_arg2) = m ((c : Thread nD τ).loc main_arg2) :=
  W8_of_unwritten m ρ c main_arg2 (by decide) (by decide) (by decide)
theorem W8_main_arg3 (c : Dev nD) : W8 m ρ c (Proc.devRef .tc main_arg3) = m ((c : Thread nD τ).loc main_arg3) :=
  W8_of_unwritten m ρ c main_arg3 (by decide) (by decide) (by decide)
theorem W8_main_arg4 (c : Dev nD) : W8 m ρ c (Proc.devRef .tc main_arg4) = m ((c : Thread nD τ).loc main_arg4) :=
  W8_of_unwritten m ρ c main_arg4 (by decide) (by decide) (by decide)
theorem W8_main_arg5 (c : Dev nD) : W8 m ρ c (Proc.devRef .tc main_arg5) = m ((c : Thread nD τ).loc main_arg5) :=
  W8_of_unwritten m ρ c main_arg5 (by decide) (by decide) (by decide)
theorem W8_main_arg6 (c : Dev nD) : W8 m ρ c (Proc.devRef .tc main_arg6) = m ((c : Thread nD τ).loc main_arg6) :=
  W8_of_unwritten m ρ c main_arg6 (by decide) (by decide) (by decide)
theorem W8_main_arg7 (c : Dev nD) : W8 m ρ c (Proc.devRef .tc main_arg7) = m ((c : Thread nD τ).loc main_arg7) :=
  W8_of_unwritten m ρ c main_arg7 (by decide) (by decide) (by decide)
theorem W8_main_arg8 (c : Dev nD) : W8 m ρ c (Proc.devRef .tc main_arg8) = m ((c : Thread nD τ).loc main_arg8) :=
  W8_of_unwritten m ρ c main_arg8 (by decide) (by decide) (by decide)
theorem W8_main_arg9 (c : Dev nD) : W8 m ρ c (Proc.devRef .tc main_arg9) = m ((c : Thread nD τ).loc main_arg9) :=
  W8_of_unwritten m ρ c main_arg9 (by decide) (by decide) (by decide)
theorem W8_main_arg10 (c : Dev nD) : W8 m ρ c (Proc.devRef .tc main_arg10) = m ((c : Thread nD τ).loc main_arg10) :=
  W8_of_unwritten m ρ c main_arg10 (by decide) (by decide) (by decide)
theorem W8_main_arg11 (c : Dev nD) : W8 m ρ c (Proc.devRef .tc main_arg11) = m ((c : Thread nD τ).loc main_arg11) :=
  W8_of_unwritten m ρ c main_arg11 (by decide) (by decide) (by decide)
theorem W8_main_arg12 (c : Dev nD) : W8 m ρ c (Proc.devRef .tc main_arg12) = m ((c : Thread nD τ).loc main_arg12) :=
  W8_of_unwritten m ρ c main_arg12 (by decide) (by decide) (by decide)
theorem W8_main_arg13 (c : Dev nD) : W8 m ρ c (Proc.devRef .tc main_arg13) = m ((c : Thread nD τ).loc main_arg13) :=
  W8_of_unwritten m ρ c main_arg13 (by decide) (by decide) (by decide)
theorem W8_main_arg14 (c : Dev nD) : W8 m ρ c (Proc.devRef .tc main_arg14) = m ((c : Thread nD τ).loc main_arg14) :=
  W8_of_unwritten m ρ c main_arg14 (by decide) (by decide) (by decide)
theorem W8_main_arg15 (c : Dev nD) : W8 m ρ c (Proc.devRef .tc main_arg15) = m ((c : Thread nD τ).loc main_arg15) :=
  W8_of_unwritten m ρ c main_arg15 (by decide) (by decide) (by decide)
theorem W8_main_arg16 (c : Dev nD) : W8 m ρ c (Proc.devRef .tc main_arg16) = m ((c : Thread nD τ).loc main_arg16) :=
  W8_of_unwritten m ρ c main_arg16 (by decide) (by decide) (by decide)
theorem W8_main_arg17 (c : Dev nD) : W8 m ρ c (Proc.devRef .tc main_arg17) = m ((c : Thread nD τ).loc main_arg17) :=
  W8_of_unwritten m ρ c main_arg17 (by decide) (by decide) (by decide)

/-- The last region's output at the end of the program. -/
theorem W8_out (c : Dev nD) : W8 m ρ c (Proc.devRef .tc main_v62) = (dat5 (V7 m ρ) c).arrAt 5 cfg5.N := W8_main_v62 m ρ c

/-! ### The first four regions' outputs at the entry of the first host stretch: no later region stages or writes them -/

theorem W4_main_v0 (c : Dev nD) : W4 m ρ c (Proc.devRef .tc main_v0) = (dat0 (V0 m ρ) c).arrAt 2 cfg0.N :=
  (W4_of_ne_out m ρ c main_v0 (by decide)).trans <| (W3_of_ne_out m ρ c main_v0 (by decide)).trans <|
    (W2_of_ne_out m ρ c main_v0 (by decide)).trans (W1_main_v0 m ρ c)
theorem W4_main_v1 (c : Dev nD) : W4 m ρ c (Proc.devRef .tc main_v1) = (dat1 (V1 m ρ) c).arrAt 2 cfg1.N :=
  (W4_of_ne_out m ρ c main_v1 (by decide)).trans <| (W3_of_ne_out m ρ c main_v1 (by decide)).trans (W2_main_v1 m ρ c)
theorem W4_main_v2 (c : Dev nD) : W4 m ρ c (Proc.devRef .tc main_v2) = (dat2 (V2 m ρ) c).arrAt 2 cfg2.N :=
  (W4_of_ne_out m ρ c main_v2 (by decide)).trans (W3_main_v2 m ρ c)

/-! ## The proof data family and the thread state -/

/-- Every pipeline's proof data, each at its region's entry contents. -/
def pdats : (p : Fin 6) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
  | ⟨2, _⟩ => fun c => dat2 (V2 m ρ) c
  | ⟨3, _⟩ => fun c => dat3 (V3 m ρ) c
  | ⟨4, _⟩ => fun c => dat4 (V5 m ρ) c
  | ⟨5, _⟩ => fun c => dat5 (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and what it owes,
    nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last boundary's contents, the generator
    register at some state. -/
abbrev Tₙ (c : Dev nD) : sProp 𝕄 := iprop(StableHlo.held (c : Thread nD τ) (Pipeline.ucRefs τ sig) (W8 m ρ c) ∗ ∃ r, prngReg c r)

/-! ## The regions as segments -/

set_option backward.isDefEq.respectTransparency.types false in
/-- Region 0 over the thread state: entered from every unscoped buffer at `W0`, left at `W1`. Its arrays are split out of
    the unscoped buffers and put back at the exit contents; the generator register goes into the region's invariant and comes
    back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun c t => owed_eq0 (V0 m ρ) c t
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun w => q_eq0 (V0 m ρ) c w) (V0 m ρ c) fun w => A_eq0 (V0 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show ∀ t, (pdats m ρ 0 c).owed t = 0 from fun t => owed_eq0 (V0 m ρ) c t]
      icases HO with ⟨%W, HO⟩; iexists W; isplitr
      · ipureintro; exact fun _ _ => Or.inl ((Set.ext_iff.mp (recorded_eq0 (V0 m ρ) c 0) _).2 (Set.mem_univ _))
      iexact HO
    isplitl [Hp]; · iexact Hp
    iexact Hrest
  hin c := hin0 (V0 m ρ) c _
  hout c := by
    rw [Pipeline.ownSems0_none]
    exact hout0 (V0 m ρ) c
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun w => q_eq0 (V0 m ρ) c w)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show ∀ t, (pdats m ρ 0 c).owed t = 0 from fun t => owed_eq0 (V0 m ρ) c t]
    icases HO with ⟨%W, -, HO⟩; iexists W; iexact HO

set_option backward.isDefEq.respectTransparency.types false in
/-- Region 1 over the thread state: entered from every unscoped buffer at `W1`, left at `W2`. Its arrays are split out of
    the unscoped buffers and put back at the exit contents; the generator register goes into the region's invariant and comes
    back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W2`, left at `W3`. Its arrays are split out of
    the unscoped buffers and put back at the exit contents; the generator register goes into the region's invariant and comes
    back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V2 m ρ) c).loose
  hwaits := Pipeline.hwaits_of_owed_zero _ _ _ _ L lv 2 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec2 c (V2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V2 m ρ c) (V3 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W3`, left at `W4`. Its arrays are split out of
    the unscoped buffers and put back at the exit contents; the generator register goes into the region's invariant and comes
    back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V3 m ρ) c).loose
  hwaits := Pipeline.hwaits_of_owed_zero _ _ _ _ L lv 3 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec3 c (V3 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V3 m ρ c) (V4 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W5`, left at `W6`. Its arrays are split out of
    the unscoped buffers and put back at the exit contents; the generator register goes into the region's invariant and comes
    back; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V5 m ρ) c).loose
  hwaits := Pipeline.hwaits_of_owed_zero _ _ _ _ L lv 4 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec4 c (V5 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V5 m ρ c) (V6 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at `W7`, left at `W8`. Its arrays are split out of
    the unscoped buffers and put back at the exit contents; the generator register goes into the region's invariant and comes
    back; nothing is owed; the kernel has no semaphore of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V7 m ρ) c).loose
  hwaits := Pipeline.hwaits_of_owed_zero _ _ _ _ L lv 5 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec5 c (V7 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V7 m ρ c) (V8 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's eight segments in order: a region per kernel call, a host segment per stretch from its boundary's contents. -/
abbrev segs : List (Pipeline.Seg (pcfgs (F := F)) adm (pdats m ρ) () defs₀ 𝒱₀ L lv) :=
  [ .region (reg0 m ρ),
    .region (reg1 m ρ),
    .region (reg2 m ρ),
    .region (reg3 m ρ),
    .host (hseg hostOps4 hostOps4_sub hostOps4_fresh (W4 m ρ)),
    .region (reg4 m ρ),
    .host (hseg hostOps5 hostOps5_sub hostOps5_fresh (W6 m ρ)),
    .region (reg5 m ρ) ]
/-- The program is the run of the segments: it is the chain of its items, and the segments' run is that chain. -/
theorem main_run (c : Dev nD) : main (F := F) c = Pipeline.Seg.run (segs m ρ) := (main_chain c).trans (by chain_rfl)

set_option backward.isDefEq.respectTransparency.types false in
/-- The run: from any memory with zero counters every weakly fair execution of the program on the TensorCores terminates,
    nothing faulting, and every final memory holds each unscoped buffer of each core at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- The frame: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c =>
    ⟨(h c _ (mem_uc main_arg0 (by decide))).trans (W8_main_arg0 m ρ c),
      (h c _ (mem_uc main_arg1 (by decide))).trans (W8_main_arg1 m ρ c),
      (h c _ (mem_uc main_arg2 (by decide))).trans (W8_main_arg2 m ρ c),
      (h c _ (mem_uc main_arg3 (by decide))).trans (W8_main_arg3 m ρ c),
      (h c _ (mem_uc main_arg4 (by decide))).trans (W8_main_arg4 m ρ c),
      (h c _ (mem_uc main_arg5 (by decide))).trans (W8_main_arg5 m ρ c),
      (h c _ (mem_uc main_arg6 (by decide))).trans (W8_main_arg6 m ρ c),
      (h c _ (mem_uc main_arg7 (by decide))).trans (W8_main_arg7 m ρ c),
      (h c _ (mem_uc main_arg8 (by decide))).trans (W8_main_arg8 m ρ c),
      (h c _ (mem_uc main_arg9 (by decide))).trans (W8_main_arg9 m ρ c),
      (h c _ (mem_uc main_arg10 (by decide))).trans (W8_main_arg10 m ρ c),
      (h c _ (mem_uc main_arg11 (by decide))).trans (W8_main_arg11 m ρ c),
      (h c _ (mem_uc main_arg12 (by decide))).trans (W8_main_arg12 m ρ c),
      (h c _ (mem_uc main_arg13 (by decide))).trans (W8_main_arg13 m ρ c),
      (h c _ (mem_uc main_arg14 (by decide))).trans (W8_main_arg14 m ρ c),
      (h c _ (mem_uc main_arg15 (by decide))).trans (W8_main_arg15 m ρ c),
      (h c _ (mem_uc main_arg16 (by decide))).trans (W8_main_arg16 m ρ c),
      (h c _ (mem_uc main_arg17 (by decide))).trans (W8_main_arg17 m ρ c)⟩) (run m ρ)

end Cert.Kernel.Hand

end
-- ==== Proof.Bridge.Alg.lean ====
/- The certificate's claims. The two kernel programs run to the end, fault nowhere and leave their arguments as launched (the run of
   their six regions and two stretches of host operations); the reference does too (its run, the result dropped); and at the
   exact reading of the floats both idealized programs end with the same result array: node by node and feature by feature the
   kernel program's last region leaves what the reference's last addition computes, because each region's array is the
   reference's value of the same name all the way down to the four matrix products of the arguments. -/
import proofs.«115049_j15814069584107_1_alg».proof.Defs
import proofs.«115049_j15814069584107_1_alg».proof.Proof.Bridge.K5
import proofs.«115049_j15814069584107_1_alg».proof.Proof.K.Run

set_option maxRecDepth 16384

noncomputable section

namespace Cert.Proof.Claims

open Idealize.ShloMosaic Idealize.ShloMosaic.TcCoe Idealize.SL.Sem

theorem frame_k [Cert.Kernel.Facts] [Cert.Pre_finite_inputs.Facts] : Cert.frame_Kernel :=
  fun m ρ _ => Cert.Kernel.Hand.frame m ρ

theorem frame_ki [Cert.KernelIdeal.Facts] [Cert.Pre_finite_inputs.Facts] : Cert.frame_KernelIdeal :=
  fun m ρ _ => Cert.KernelIdeal.Hand.frame m ρ

theorem frame_ri [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)

theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.Hand.W8 m ρ c (Proc.devRef .tc Cert.KernelIdeal.main_v62), ?_, ?_⟩
  · refine (θ_run Cert.KernelIdeal.defs _ _).mono (fun r h c => ?_) (Cert.KernelIdeal.Hand.run m ρ)
    exact ⟨h c _ (Cert.KernelIdeal.Hand.mem_uc Cert.KernelIdeal.main_v62 (by decide)),
      (h c _ (Cert.KernelIdeal.Hand.mem_uc Cert.KernelIdeal.main_arg0 (by decide))).trans (Cert.KernelIdeal.Hand.W8_main_arg0 m ρ c),
      (h c _ (Cert.KernelIdeal.Hand.mem_uc Cert.KernelIdeal.main_arg1 (by decide))).trans (Cert.KernelIdeal.Hand.W8_main_arg1 m ρ c),
      (h c _ (Cert.KernelIdeal.Hand.mem_uc Cert.KernelIdeal.main_arg2 (by decide))).trans (Cert.KernelIdeal.Hand.W8_main_arg2 m ρ c),
      (h c _ (Cert.KernelIdeal.Hand.mem_uc Cert.KernelIdeal.main_arg3 (by decide))).trans (Cert.KernelIdeal.Hand.W8_main_arg3 m ρ c),
      (h c _ (Cert.KernelIdeal.Hand.mem_uc Cert.KernelIdeal.main_arg4 (by decide))).trans (Cert.KernelIdeal.Hand.W8_main_arg4 m ρ c),
      (h c _ (Cert.KernelIdeal.Hand.mem_uc Cert.KernelIdeal.main_arg5 (by decide))).trans (Cert.KernelIdeal.Hand.W8_main_arg5 m ρ c),
      (h c _ (Cert.KernelIdeal.Hand.mem_uc Cert.KernelIdeal.main_arg6 (by decide))).trans (Cert.KernelIdeal.Hand.W8_main_arg6 m ρ c),
      (h c _ (Cert.KernelIdeal.Hand.mem_uc Cert.KernelIdeal.main_arg7 (by decide))).trans (Cert.KernelIdeal.Hand.W8_main_arg7 m ρ c),
      (h c _ (Cert.KernelIdeal.Hand.mem_uc Cert.KernelIdeal.main_arg8 (by decide))).trans (Cert.KernelIdeal.Hand.W8_main_arg8 m ρ c),
      (h c _ (Cert.KernelIdeal.Hand.mem_uc Cert.KernelIdeal.main_arg9 (by decide))).trans (Cert.KernelIdeal.Hand.W8_main_arg9 m ρ c),
      (h c _ (Cert.KernelIdeal.Hand.mem_uc Cert.KernelIdeal.main_arg10 (by decide))).trans (Cert.KernelIdeal.Hand.W8_main_arg10 m ρ c),
      (h c _ (Cert.KernelIdeal.Hand.mem_uc Cert.KernelIdeal.main_arg11 (by decide))).trans (Cert.KernelIdeal.Hand.W8_main_arg11 m ρ c),
      (h c _ (Cert.KernelIdeal.Hand.mem_uc Cert.KernelIdeal.main_arg12 (by decide))).trans (Cert.KernelIdeal.Hand.W8_main_arg12 m ρ c),
      (h c _ (Cert.KernelIdeal.Hand.mem_uc Cert.KernelIdeal.main_arg13 (by decide))).trans (Cert.KernelIdeal.Hand.W8_main_arg13 m ρ c),
      (h c _ (Cert.KernelIdeal.Hand.mem_uc Cert.KernelIdeal.main_arg14 (by decide))).trans (Cert.KernelIdeal.Hand.W8_main_arg14 m ρ c),
      (h c _ (Cert.KernelIdeal.Hand.mem_uc Cert.KernelIdeal.main_arg15 (by decide))).trans (Cert.KernelIdeal.Hand.W8_main_arg15 m ρ c),
      (h c _ (Cert.KernelIdeal.Hand.mem_uc Cert.KernelIdeal.main_arg16 (by decide))).trans (Cert.KernelIdeal.Hand.W8_main_arg16 m ρ c),
      (h c _ (Cert.KernelIdeal.Hand.mem_uc Cert.KernelIdeal.main_arg17 (by decide))).trans (Cert.KernelIdeal.Hand.W8_main_arg17 m ρ c)⟩
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11, h12, h13, h14, h15, h16, h17⟩ := hagree c
    rw [Cert.ReferenceIdeal.Read.val_main_v72_eq, h0, h1, h2, h3, h4, h5, h6, h7, h8, h9, h10, h11, h12, h13, h14, h15, h16, h17]
    exact (Cert.Proof.Bridge.E10 m ρ c).symm

end Cert.Proof.Claims

end
-- ==== Proof.lean ====
/- The proof of `Cert.Claim`: a graph network's forward pass — four matrix products of the inputs, two rounds of
   mean aggregation over in-neighbours each followed by a linear layer — computed by six tiled kernels with host arithmetic
   between them, against the same computation written with whole-array operations.
   Every kernel region's run is in Proof/K/ and Proof/KI/ (R0 … R5: one grid point's body on its blocks; Run: the six regions
   and the two stretches of host operations in order, which is each program's frame); what each region's output array holds as
   a function of its input arrays, at the exact reading of the floats, in Proof/KI/Val0 … Val5 (a product entry is the sum
   over the contracted axis of the products of entries; tiling the rows, or accumulating the contracted axis block by block
   from zero, changes only the grouping of that sum); that these are the reference's values in Proof/Bridge/ (the host
   arithmetic, gathers and scatter-adds are the same functions on both sides and are never opened); the claims assembled in
   Proof/Bridge/Alg.lean. No rewrite was made by the idealization, so `preserves` is trivial; no law used needs the inputs
   finite, so the precondition is never opened. -/
import proofs.«115049_j15814069584107_1_alg».proof.Defs
import proofs.«115049_j15814069584107_1_alg».proof.Proof.Bridge.Alg
import proofs.«115049_j15814069584107_1_alg».proof.Proof.Gen.Kernel
import proofs.«115049_j15814069584107_1_alg».proof.Proof.Gen.KernelIdeal
import proofs.«115049_j15814069584107_1_alg».proof.Proof.Gen.ReferenceIdeal
import proofs.«115049_j15814069584107_1_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    @Claims.frame_k _ _, @Claims.frame_ki _ _, @Claims.frame_ri _ _, trivial, @Claims.algebraic _ _ _⟩

end Cert.Proof

end
